-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x250000 : Shape := ⟨2, ![2, 250000]⟩
abbrev S100000 : Shape := ⟨1, ![100000]⟩
abbrev S1000x256 : Shape := ⟨2, ![1000, 256]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S1000x256 : S_.BroadcastsInDim S1000x256 (![] : Fin 0 → Fin S1000x256.rank)
  reducesTo_S1000x256_S_d0_1 : S1000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg14 : FVec F S256x128 .f32) (main_arg15 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg14
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg10 : FVec F S512 .f32) (main_arg11 : FVec F S512 .f32) (main_arg12 : FVec F S512x256 .f32) (main_arg13 : FVec F S256 .f32) (main_arg14 : FVec F S256x128 .f32) (main_arg15 : FVec F S128 .f32) (main_v33 : IVec S_ 1) : IVec S_ 1 :=
  let main_v34 : FVec F S512 .f32 := Host.absf main_arg10
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg11
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x256 .f32 := Host.absf main_arg12
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg14 main_arg15 main_v48 main_v49 main_v50

def fn_part1 {F : FTy → Type} [FloatOps F] (main_arg7 : FVec F S512 .f32) (main_arg8 : FVec F S512x512 .f32) (main_arg9 : FVec F S512 .f32) (main_arg10 : FVec F S512 .f32) (main_arg11 : FVec F S512 .f32) (main_arg12 : FVec F S512x256 .f32) (main_arg13 : FVec F S256 .f32) (main_arg14 : FVec F S256x128 .f32) (main_arg15 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg7
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg8
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg9
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : IVec S100000x1 32) (main_arg1 : IVec S2x250000 32) (main_arg2 : IVec S100000 32) (main_arg3 : FVec F S1000x256 .f32) (main_arg4 : FVec F S256x512 .f32) (main_arg5 : FVec F S512 .f32) (main_arg6 : FVec F S512 .f32) (main_arg7 : FVec F S512 .f32) (main_arg8 : FVec F S512x512 .f32) (main_arg9 : FVec F S512 .f32) (main_arg10 : FVec F S512 .f32) (main_arg11 : FVec F S512 .f32) (main_arg12 : FVec F S512x256 .f32) (main_arg13 : FVec F S256 .f32) (main_arg14 : FVec F S256x128 .f32) (main_arg15 : FVec F S128 .f32) : IVec S_ 1 :=
  let main_v0 : FVec F S1000x256 .f32 := Host.absf main_arg3
  let main_cst : FVec F S_ .f32 := constant S_ .f32 0x7F800000#32
  let main_v1 : FVec F S1000x256 .f32 := broadcastInDim S1000x256 ![] bcast_S_S1000x256 main_cst
  let main_v2 : IVec S1000x256 1 := cmpf .olt main_v0 main_v1
  let main_c : IVec S_ 1 := constantI S_ 1 1#1
  let main_v3 : IVec S_ 1 := (fun x v => Host.reduce IntOp.andi x v reducesTo_S1000x256_S_d0_1 h_S_) main_v2 main_c
  let main_v4 : FVec F S256x512 .f32 := Host.absf main_arg4
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg5
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg6
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg7 main_arg8 main_arg9 main_arg10 main_arg11 main_arg12 main_arg13 main_arg14 main_arg15 main_v13 main_v16
-- ==== Kernel.lean ====
abbrev S100000x1 : Shape := ⟨2, ![100000, 1]⟩
abbrev S2x250000 : Shape := ⟨2, ![2, 250000]⟩
abbrev S100000 : Shape := ⟨1, ![100000]⟩
abbrev S1000x256 : Shape := ⟨2, ![1000, 256]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x250000 : Shape := ⟨2, ![1, 250000]⟩
abbrev S250000 : Shape := ⟨1, ![250000]⟩
abbrev S_ : Shape := ⟨0, ![]⟩
abbrev S100000x256 : Shape := ⟨2, ![100000, 256]⟩
abbrev S250000x1 : Shape := ⟨2, ![250000, 1]⟩
abbrev S250000x256 : Shape := ⟨2, ![250000, 256]⟩
abbrev S1x512 : Shape := ⟨2, ![1, 512]⟩
abbrev S100000x512 : Shape := ⟨2, ![100000, 512]⟩
abbrev S2000x256 : Shape := ⟨2, ![2000, 256]⟩
abbrev S2000x512 : Shape := ⟨2, ![2000, 512]⟩
abbrev S250000x512 : Shape := ⟨2, ![250000, 512]⟩
abbrev S512x1 : Shape := ⟨2, ![512, 1]⟩
abbrev S1x256 : Shape := ⟨2, ![1, 256]⟩
abbrev S1x128 : Shape := ⟨2, ![1, 128]⟩
abbrev S512x128 : Shape := ⟨2, ![512, 128]⟩

abbrev nBuf : Space → Nat
  | .hbm => 115
  | .vmem => 38
  | .smem => 0
  | _ => 0

abbrev bufTy : (tb : Table) → Fin (tcTables nBuf tb) → BufTy
  | .hbm, ⟨0, _⟩ => ⟨S100000x1, .i32⟩
  | .hbm, ⟨1, _⟩ => ⟨S2x250000, .i32⟩
  | .hbm, ⟨2, _⟩ => ⟨S100000, .i32⟩
  | .hbm, ⟨3, _⟩ => ⟨S1000x256, .f32⟩
  | .hbm, ⟨4, _⟩ => ⟨S256x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S100000, .i32⟩
  | .hbm, ⟨17, _⟩ => ⟨S1x250000, .i32⟩
  | .hbm, ⟨18, _⟩ => ⟨S250000, .i32⟩
  | .hbm, ⟨19, _⟩ => ⟨S1x250000, .i32⟩
  | .hbm, ⟨20, _⟩ => ⟨S250000, .i32⟩
  | .hbm, ⟨21, _⟩ => ⟨S_, .i32⟩
  | .hbm, ⟨22, _⟩ => ⟨S100000, .i32⟩
  | .hbm, ⟨23, _⟩ => ⟨S100000, .i1⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S100000, .i32⟩
  | .hbm, ⟨28, _⟩ => ⟨S100000x1, .i32⟩
  | .hbm, ⟨29, _⟩ => ⟨S100000x256, .f32⟩
  | .hbm, ⟨30, _⟩ => ⟨S_, .i32⟩
  | .hbm, ⟨31, _⟩ => ⟨S250000, .i32⟩
  | .hbm, ⟨32, _⟩ => ⟨S250000, .i1⟩
  | .hbm, ⟨33, _⟩ => ⟨S_, .i32⟩
  | .hbm, ⟨34, _⟩ => ⟨S250000, .i32⟩
  | .hbm, ⟨35, _⟩ => ⟨S250000, .i32⟩
  | .hbm, ⟨36, _⟩ => ⟨S250000, .i32⟩
  | .hbm, ⟨37, _⟩ => ⟨S250000x1, .i32⟩
  | .hbm, ⟨38, _⟩ => ⟨S250000x256, .f32⟩
  | .hbm, ⟨39, _⟩ => ⟨S_, .f32⟩
  | .hbm, ⟨40, _⟩ => ⟨S100000x256, .f32⟩
  | .hbm, ⟨41, _⟩ => ⟨S250000x1, .i32⟩
  | .hbm, ⟨42, _⟩ => ⟨S100000x256, .f32⟩
  | .hbm, ⟨43, _⟩ => ⟨S100000x256, .f32⟩
  | .hbm, ⟨44, _⟩ => ⟨S1x512, .f32⟩
  | .hbm, ⟨45, _⟩ => ⟨S100000x512, .f32⟩
  | .hbm, ⟨46, _⟩ => ⟨S1x512, .f32⟩
  | .hbm, ⟨47, _⟩ => ⟨S1x512, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S512, .f32⟩
  | .hbm, ⟨52, _⟩ => ⟨S512, .f32⟩
  | .hbm, ⟨53, _⟩ => ⟨S_, .f32⟩
  | .hbm, ⟨54, _⟩ => ⟨S512, .f32⟩
  | .hbm, ⟨55, _⟩ => ⟨S512, .f32⟩
  | .hbm, ⟨56, _⟩ => ⟨S512, .f32⟩
  | .hbm, ⟨57, _⟩ => ⟨S512, .f32⟩
  | .hbm, ⟨58, _⟩ => ⟨S1x512, .f32⟩
  | .hbm, ⟨59, _⟩ => ⟨S1x512, .f32⟩
  | .hbm, ⟨60, _⟩ => ⟨S1x512, .f32⟩
  | .hbm, ⟨61, _⟩ => ⟨S1x512, .f32⟩
  | .hbm, ⟨62, _⟩ => ⟨S100000x512, .f32⟩
  | .hbm, ⟨63, _⟩ => ⟨S_, .i32⟩
  | .hbm, ⟨64, _⟩ => ⟨S250000, .i32⟩
  | .hbm, ⟨65, _⟩ => ⟨S250000, .i1⟩
  | .hbm, ⟨66, _⟩ => ⟨S_, .i32⟩
  | .hbm, ⟨67, _⟩ => ⟨S250000, .i32⟩
  | .hbm, ⟨68, _⟩ => ⟨S250000, .i32⟩
  | .hbm, ⟨69, _⟩ => ⟨S250000, .i32⟩
  | .hbm, ⟨70, _⟩ => ⟨S250000x1, .i32⟩
  | .hbm, ⟨71, _⟩ => ⟨S250000x512, .f32⟩
  | .hbm, ⟨72, _⟩ => ⟨S_, .f32⟩
  | .hbm, ⟨73, _⟩ => ⟨S100000x512, .f32⟩
  | .hbm, ⟨74, _⟩ => ⟨S250000x1, .i32⟩
  | .hbm, ⟨75, _⟩ => ⟨S100000x512, .f32⟩
  | .hbm, ⟨76, _⟩ => ⟨S100000x512, .f32⟩
  | .hbm, ⟨77, _⟩ => ⟨S1x512, .f32⟩
  | .hbm, ⟨78, _⟩ => ⟨S100000x512, .f32⟩
  | .hbm, ⟨79, _⟩ => ⟨S1x512, .f32⟩
  | .hbm, ⟨80, _⟩ => ⟨S1x512, .f32⟩
  | .hbm, ⟨81, _⟩ => ⟨S512, .f32⟩
  | .hbm, ⟨82, _⟩ => ⟨S_, .f32⟩
  | .hbm, ⟨83, _⟩ => ⟨S512, .f32⟩
  | .hbm, ⟨84, _⟩ => ⟨S512, .f32⟩
  | .hbm, ⟨85, _⟩ => ⟨S512, .f32⟩
  | .hbm, ⟨86, _⟩ => ⟨S_, .f32⟩
  | .hbm, ⟨87, _⟩ => ⟨S512, .f32⟩
  | .hbm, ⟨88, _⟩ => ⟨S512, .f32⟩
  | .hbm, ⟨89, _⟩ => ⟨S512, .f32⟩
  | .hbm, ⟨90, _⟩ => ⟨S512, .f32⟩
  | .hbm, ⟨91, _⟩ => ⟨S1x512, .f32⟩
  | .hbm, ⟨92, _⟩ => ⟨S1x512, .f32⟩
  | .hbm, ⟨93, _⟩ => ⟨S1x512, .f32⟩
  | .hbm, ⟨94, _⟩ => ⟨S1x512, .f32⟩
  | .hbm, ⟨95, _⟩ => ⟨S100000x512, .f32⟩
  | .hbm, ⟨96, _⟩ => ⟨S_, .f32⟩
  | .hbm, ⟨97, _⟩ => ⟨S512x512, .f32⟩
  | .hbm, ⟨98, _⟩ => ⟨S100000x1, .i32⟩
  | .hbm, ⟨99, _⟩ => ⟨S512x512, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S512, .f32⟩
  | .hbm, ⟨104, _⟩ => ⟨S100000x1, .i32⟩
  | .hbm, ⟨105, _⟩ => ⟨S512, .f32⟩
  | .hbm, ⟨106, _⟩ => ⟨S_, .f32⟩
  | .hbm, ⟨107, _⟩ => ⟨S512, .f32⟩
  | .hbm, ⟨108, _⟩ => ⟨S512, .f32⟩
  | .hbm, ⟨109, _⟩ => ⟨S512x1, .f32⟩
  | .hbm, ⟨110, _⟩ => ⟨S512x512, .f32⟩
  | .hbm, ⟨111, _⟩ => ⟨S512x512, .f32⟩
  | .hbm, ⟨112, _⟩ => ⟨S1x256, .f32⟩
  | .hbm, ⟨113, _⟩ => ⟨S1x128, .f32⟩
  | .hbm, ⟨114, _⟩ => ⟨S512x128, .f32⟩
  | .local _ .vmem, ⟨0, _⟩ => ⟨S2000x256, .f32⟩
  | .local _ .vmem, ⟨1, _⟩ => ⟨S2000x256, .f32⟩
  | .local _ .vmem, ⟨2, _⟩ => ⟨S256x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S1x512, .f32⟩
  | .local _ .vmem, ⟨7, _⟩ => ⟨S1x512, .f32⟩
  | .local _ .vmem, ⟨8, _⟩ => ⟨S2000x512, .f32⟩
  | .local _ .vmem, ⟨9, _⟩ => ⟨S2000x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S2000x512, .f32⟩
  | .local _ .vmem, ⟨18, _⟩ => ⟨S512x512, .f32⟩
  | .local _ .vmem, ⟨19, _⟩ => ⟨S1x512, .f32⟩
  | .local _ .vmem, ⟨20, _⟩ => ⟨S2000x512, .f32⟩
  | .local _ .vmem, ⟨21, _⟩ => ⟨S2000x512, .f32⟩
  | .local _ .vmem, ⟨22, _⟩ => ⟨S1x512, .f32⟩
  | .local _ .vmem, ⟨23, _⟩ => ⟨S1x512, .f32⟩
  | .local _ .vmem, ⟨24, _⟩ => ⟨S2000x512, .f32⟩
  | .local _ .vmem, ⟨25, _⟩ => ⟨S2000x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S2000x512, .f32⟩
  | .local _ .vmem, ⟨31, _⟩ => ⟨S2000x512, .f32⟩
  | .local _ .vmem, ⟨32, _⟩ => ⟨S512x512, .f32⟩
  | .local _ .vmem, ⟨33, _⟩ => ⟨S512x256, .f32⟩
  | .local _ .vmem, ⟨34, _⟩ => ⟨S1x256, .f32⟩
  | .local _ .vmem, ⟨35, _⟩ => ⟨S256x128, .f32⟩
  | .local _ .vmem, ⟨36, _⟩ => ⟨S1x128, .f32⟩
  | .local _ .vmem, ⟨37, _⟩ => ⟨S512x128, .f32⟩
  | _, _ => ⟨S100000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev main_v24_2 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_5 : Ref sig .tc := ⟨.hbm, 63, rfl⟩
abbrev main_v38 : Ref sig .tc := ⟨.hbm, 64, rfl⟩
abbrev main_v39 : Ref sig .tc := ⟨.hbm, 65, rfl⟩
abbrev main_c_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50_0 : Ref sig .tc := ⟨.hbm, 78, rfl⟩
abbrev main_v50_1 : Ref sig .tc := ⟨.hbm, 79, rfl⟩
abbrev main_v50_2 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  shapeCasts_S100000x1_S100000 : S100000x1.ShapeCasts S100000
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S100000 : S_.BroadcastsInDim S100000 (![] : Fin 0 → Fin S100000.rank)
  bcast_S100000_S100000x1_0 : S100000.BroadcastsInDim S100000x1 (![0] : Fin 1 → Fin S100000x1.rank)
  bcast_S_S250000 : S_.BroadcastsInDim S250000 (![] : Fin 0 → Fin S250000.rank)
  bcast_S250000_S250000x1_0 : S250000.BroadcastsInDim S250000x1 (![0] : Fin 1 → Fin S250000x1.rank)
  bcast_S_S100000x256 : S_.BroadcastsInDim S100000x256 (![] : Fin 0 → Fin S100000x256.rank)
  shapeCasts_S512_S1x512 : S512.ShapeCasts S1x512
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  reduces_S2000x512_S512 : S2000x512.Reduces [0] S512
  shapeCasts_S1x512_S512 : S1x512.ShapeCasts S512
  bcast_S_S512 : S_.BroadcastsInDim S512 (![] : Fin 0 → Fin S512.rank)
  shapeCasts_S2000x512_S2000x512 : S2000x512.ShapeCasts S2000x512
  bcast_S_S100000x512 : S_.BroadcastsInDim S100000x512 (![] : Fin 0 → Fin S100000x512.rank)
  inb_S512x512_S512x512_0_0 : ∀ a, (![0, 0] : Fin 2 → Nat) a + S512x512.size a ≤ S512x512.size a
  h_S512x512 : 0 < S512x512.numel
  bcast_S_S512x512 : S_.BroadcastsInDim S512x512 (![] : Fin 0 → Fin S512x512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  shapeCasts_S256_S1x256 : S256.ShapeCasts S1x256
  shapeCasts_S128_S1x128 : S128.ShapeCasts S1x128
  shapeCasts_S512x512_S512x512 : S512x512.ShapeCasts S512x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  gather_S1000x256_S100000x1_S100000x256_1_0_n_n_0_1_1256_wf : GatherDims.WF S1000x256 S100000x1 S100000x256 [1] [0] [] [0] [] 1 ![1, 256]
  gather_S100000x256_S250000x1_S250000x256_1_0_n_n_0_1_1256_wf : GatherDims.WF S100000x256 S250000x1 S250000x256 [1] [0] [] [0] [] 1 ![1, 256]
  scatter_S100000x256_S250000x1_S250000x256_1_0_0_1_wf : ScatterDims.WF S100000x256 S250000x1 S250000x256 [1] [0] [0] 1
  dot_S2000x256_S256x512_S2000x512_1_0_0_1_n_n_wf : DotDims.WF S2000x256 S256x512 S2000x512 [1] [0] [0] [1] [] []
  gather_S100000x512_S250000x1_S250000x512_1_0_n_n_0_1_1512_wf : GatherDims.WF S100000x512 S250000x1 S250000x512 [1] [0] [] [0] [] 1 ![1, 512]
  scatter_S100000x512_S250000x1_S250000x512_1_0_0_1_wf : ScatterDims.WF S100000x512 S250000x1 S250000x512 [1] [0] [0] 1
  dot_S2000x512_S512x512_S2000x512_1_0_0_1_n_n_wf : DotDims.WF S2000x512 S512x512 S2000x512 [1] [0] [0] [1] [] []
  scatter_S512x512_S100000x1_S100000x512_1_0_0_1_wf : ScatterDims.WF S512x512 S100000x1 S100000x512 [1] [0] [0] 1
  scatter_S512_S100000x1_S100000_n_0_0_1_wf : ScatterDims.WF S512 S100000x1 S100000 [] [0] [0] 1
  dot_S512x512_S512x256_S512x256_1_0_0_1_n_n_wf : DotDims.WF S512x512 S512x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S100000x512.size a
  hwx0_3 : ∀ i : grid0.Coords, EltTy.bits .f32 = 32 ∨ (Rect.block (s := S100000x512) S2000x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S100000x512.size a
  hwx1_0 : ∀ i : grid1.Coords, EltTy.bits .f32 = 32 ∨ (Rect.block (s := S100000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S100000x512.size a
  hwx1_5 : ∀ i : grid1.Coords, EltTy.bits .f32 = 32 ∨ (Rect.block (s := S100000x512) S2000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S100000x512.size a
  hwx2_0 : ∀ i : grid2.Coords, EltTy.bits .f32 = 32 ∨ (Rect.block (s := S100000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x512.size a ≤ S100000x512.size a
  hwx2_3 : ∀ i : grid2.Coords, EltTy.bits .f32 = 32 ∨ (Rect.block (s := S100000x512) S2000x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S100000x512.size a
  hwx3_0 : ∀ i : grid3.Coords, EltTy.bits .f32 = 32 ∨ (Rect.block (s := S100000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x512.size a ≤ S100000x512.size a
  hwx3_5 : ∀ i : grid3.Coords, EltTy.bits .f32 = 32 ∨ (Rect.block (s := S100000x512) S2000x512.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S512x512.size a
  hwx4_0 : ∀ i : grid4.Coords, EltTy.bits .f32 = 32 ∨ (Rect.block (s := S512x512) S512x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .f32 = 32 ∨ (Rect.block (s := S512x256) S512x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x128.size a ≤ S512x128.size a
  hwx4_5 : ∀ i : grid4.Coords, EltTy.bits .f32 = 32 ∨ (Rect.block (s := S512x128) S512x128.size (cc4_transform_5 i) (hinb4_5 i)).WholeWords (EltTy.packing .f32)

variable [Facts₀]

def gather_S1000x256_S100000x1_S100000x256_1_0_n_n_0_1_1256 : GatherDims S1000x256 S100000x1 S100000x256 where
  offsetDims := [1]
  collapsedSliceDims := [0]
  operandBatchingDims := []
  startIndicesBatchingDims := []
  startIndexMap := [0]
  indexVectorDim := 1
  sliceSizes := ![1, 256]
  wf := gather_S1000x256_S100000x1_S100000x256_1_0_n_n_0_1_1256_wf
def gather_S100000x256_S250000x1_S250000x256_1_0_n_n_0_1_1256 : GatherDims S100000x256 S250000x1 S250000x256 where
  offsetDims := [1]
  collapsedSliceDims := [0]
  operandBatchingDims := []
  startIndicesBatchingDims := []
  startIndexMap := [0]
  indexVectorDim := 1
  sliceSizes := ![1, 256]
  wf := gather_S100000x256_S250000x1_S250000x256_1_0_n_n_0_1_1256_wf
def scatter_S100000x256_S250000x1_S250000x256_1_0_0_1 : ScatterDims S100000x256 S250000x1 S250000x256 where
  updateWindowDims := [1]
  insertedWindowDims := [0]
  scatterDimsToOperandDims := [0]
  indexVectorDim := 1
  wf := scatter_S100000x256_S250000x1_S250000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def gather_S100000x512_S250000x1_S250000x512_1_0_n_n_0_1_1512 : GatherDims S100000x512 S250000x1 S250000x512 where
  offsetDims := [1]
  collapsedSliceDims := [0]
  operandBatchingDims := []
  startIndicesBatchingDims := []
  startIndexMap := [0]
  indexVectorDim := 1
  sliceSizes := ![1, 512]
  wf := gather_S100000x512_S250000x1_S250000x512_1_0_n_n_0_1_1512_wf
def scatter_S100000x512_S250000x1_S250000x512_1_0_0_1 : ScatterDims S100000x512 S250000x1 S250000x512 where
  updateWindowDims := [1]
  insertedWindowDims := [0]
  scatterDimsToOperandDims := [0]
  indexVectorDim := 1
  wf := scatter_S100000x512_S250000x1_S250000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S512x512_S100000x1_S100000x512_1_0_0_1 : ScatterDims S512x512 S100000x1 S100000x512 where
  updateWindowDims := [1]
  insertedWindowDims := [0]
  scatterDimsToOperandDims := [0]
  indexVectorDim := 1
  wf := scatter_S512x512_S100000x1_S100000x512_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24_0) S2000x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24_1) S1x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24_2) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24_0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50_0) S2000x512.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v50_1) S1x512.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50_2) S1x512.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50_0) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S2000x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v75) S512x512.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S512x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x1 : Shape := ⟨2, ![100000, 1]⟩
abbrev S2x250000 : Shape := ⟨2, ![2, 250000]⟩
abbrev S100000 : Shape := ⟨1, ![100000]⟩
abbrev S1000x256 : Shape := ⟨2, ![1000, 256]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S100000x256 : Shape := ⟨2, ![100000, 256]⟩
abbrev S1x250000 : Shape := ⟨2, ![1, 250000]⟩
abbrev S250000 : Shape := ⟨1, ![250000]⟩
abbrev S250000x1 : Shape := ⟨2, ![250000, 1]⟩
abbrev S250000x256 : Shape := ⟨2, ![250000, 256]⟩
abbrev S100000x512 : Shape := ⟨2, ![100000, 512]⟩
abbrev S1x512 : Shape := ⟨2, ![1, 512]⟩
abbrev S250000x512 : Shape := ⟨2, ![250000, 512]⟩
abbrev S512x1 : Shape := ⟨2, ![512, 1]⟩
abbrev S1x256 : Shape := ⟨2, ![1, 256]⟩
abbrev S512x128 : Shape := ⟨2, ![512, 128]⟩
abbrev S1x128 : Shape := ⟨2, ![1, 128]⟩

abbrev nBuf : Space → Nat
  | .hbm => 163
  | .vmem => 0
  | .smem => 0
  | _ => 0

abbrev hbmTy0_0 (i : Nat) : BufTy := match i % 128 with
  | 0 => ⟨S100000x1, .i32⟩
  | 1 => ⟨S2x250000, .i32⟩
  | 2 => ⟨S100000, .i32⟩
  | 3 => ⟨S1000x256, .f32⟩
  | 4 => ⟨S256x512, .f32⟩
  | 5 => ⟨S512, .f32⟩
  | 6 => ⟨S512, .f32⟩
  | 7 => ⟨S512, .f32⟩
  | 8 => ⟨S512x512, .f32⟩
  | 9 => ⟨S512, .f32⟩
  | 10 => ⟨S512, .f32⟩
  | 11 => ⟨S512, .f32⟩
  | 12 => ⟨S512x256, .f32⟩
  | 13 => ⟨S256, .f32⟩
  | 14 => ⟨S256x128, .f32⟩
  | 15 => ⟨S128, .f32⟩
  | 16 => ⟨S100000, .i32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x256, .f32⟩
  | 26 => ⟨S1x250000, .i32⟩
  | 27 => ⟨S250000, .i32⟩
  | 28 => ⟨S1x250000, .i32⟩
  | 29 => ⟨S250000, .i32⟩
  | 30 => ⟨S_, .i32⟩
  | 31 => ⟨S250000, .i32⟩
  | 32 => ⟨S250000, .i1⟩
  | 33 => ⟨S_, .i32⟩
  | 34 => ⟨S250000, .i32⟩
  | 35 => ⟨S250000, .i32⟩
  | 36 => ⟨S250000, .i32⟩
  | 37 => ⟨S250000x1, .i32⟩
  | 38 => ⟨S250000x256, .f32⟩
  | 39 => ⟨S_, .f32⟩
  | 40 => ⟨S100000x256, .f32⟩
  | 41 => ⟨S250000x1, .i32⟩
  | 42 => ⟨S100000x256, .f32⟩
  | 43 => ⟨S100000x256, .f32⟩
  | 44 => ⟨S100000x512, .f32⟩
  | 45 => ⟨S1x512, .f32⟩
  | 46 => ⟨S100000x512, .f32⟩
  | 47 => ⟨S100000x512, .f32⟩
  | 48 => ⟨S_, .f32⟩
  | 49 => ⟨S512, .f32⟩
  | 50 => ⟨S_, .f32⟩
  | 51 => ⟨S512, .f32⟩
  | 52 => ⟨S512, .f32⟩
  | 53 => ⟨S1x512, .f32⟩
  | 54 => ⟨S100000x512, .f32⟩
  | 55 => ⟨S100000x512, .f32⟩
  | 56 => ⟨S100000x512, .f32⟩
  | 57 => ⟨S_, .f32⟩
  | 58 => ⟨S512, .f32⟩
  | 59 => ⟨S_, .f32⟩
  | 60 => ⟨S512, .f32⟩
  | 61 => ⟨S512, .f32⟩
  | 62 => ⟨S1x512, .f32⟩
  | 63 => ⟨S100000x512, .f32⟩
  | 64 => ⟨S100000x512, .f32⟩
  | 65 => ⟨S_, .f32⟩
  | 66 => ⟨S512, .f32⟩
  | 67 => ⟨S512, .f32⟩
  | 68 => ⟨S512, .f32⟩
  | 69 => ⟨S1x512, .f32⟩
  | 70 => ⟨S100000x512, .f32⟩
  | 71 => ⟨S100000x512, .f32⟩
  | 72 => ⟨S1x512, .f32⟩
  | 73 => ⟨S100000x512, .f32⟩
  | 74 => ⟨S100000x512, .f32⟩
  | 75 => ⟨S1x512, .f32⟩
  | 76 => ⟨S100000x512, .f32⟩
  | 77 => ⟨S100000x512, .f32⟩
  | 78 => ⟨S_, .f32⟩
  | 79 => ⟨S100000x512, .f32⟩
  | 80 => ⟨S100000x512, .f32⟩
  | 81 => ⟨S1x250000, .i32⟩
  | 82 => ⟨S250000, .i32⟩
  | 83 => ⟨S1x250000, .i32⟩
  | 84 => ⟨S250000, .i32⟩
  | 85 => ⟨S_, .i32⟩
  | 86 => ⟨S250000, .i32⟩
  | 87 => ⟨S250000, .i1⟩
  | 88 => ⟨S_, .i32⟩
  | 89 => ⟨S250000, .i32⟩
  | 90 => ⟨S250000, .i32⟩
  | 91 => ⟨S250000, .i32⟩
  | 92 => ⟨S250000x1, .i32⟩
  | 93 => ⟨S250000x512, .f32⟩
  | 94 => ⟨S_, .f32⟩
  | 95 => ⟨S100000x512, .f32⟩
  | 96 => ⟨S250000x1, .i32⟩
  | 97 => ⟨S100000x512, .f32⟩
  | 98 => ⟨S100000x512, .f32⟩
  | 99 => ⟨S100000x512, .f32⟩
  | 100 => ⟨S1x512, .f32⟩
  | 101 => ⟨S100000x512, .f32⟩
  | 102 => ⟨S100000x512, .f32⟩
  | 103 => ⟨S_, .f32⟩
  | 104 => ⟨S512, .f32⟩
  | 105 => ⟨S_, .f32⟩
  | 106 => ⟨S512, .f32⟩
  | 107 => ⟨S512, .f32⟩
  | 108 => ⟨S1x512, .f32⟩
  | 109 => ⟨S100000x512, .f32⟩
  | 110 => ⟨S100000x512, .f32⟩
  | 111 => ⟨S100000x512, .f32⟩
  | 112 => ⟨S_, .f32⟩
  | 113 => ⟨S512, .f32⟩
  | 114 => ⟨S_, .f32⟩
  | 115 => ⟨S512, .f32⟩
  | 116 => ⟨S512, .f32⟩
  | 117 => ⟨S1x512, .f32⟩
  | 118 => ⟨S100000x512, .f32⟩
  | 119 => ⟨S100000x512, .f32⟩
  | 120 => ⟨S_, .f32⟩
  | 121 => ⟨S512, .f32⟩
  | 122 => ⟨S512, .f32⟩
  | 123 => ⟨S512, .f32⟩
  | 124 => ⟨S1x512, .f32⟩
  | 125 => ⟨S100000x512, .f32⟩
  | 126 => ⟨S100000x512, .f32⟩
  | 127 => ⟨S1x512, .f32⟩
  | _ => ⟨S100000x1, .i32⟩

abbrev hbmTy0_1 (i : Nat) : BufTy := match i % 128 with
  | 0 => ⟨S100000x512, .f32⟩
  | 1 => ⟨S100000x512, .f32⟩
  | 2 => ⟨S1x512, .f32⟩
  | 3 => ⟨S100000x512, .f32⟩
  | 4 => ⟨S100000x512, .f32⟩
  | 5 => ⟨S_, .f32⟩
  | 6 => ⟨S100000x512, .f32⟩
  | 7 => ⟨S100000x512, .f32⟩
  | 8 => ⟨S_, .f32⟩
  | 9 => ⟨S512x512, .f32⟩
  | 10 => ⟨S100000x1, .i32⟩
  | 11 => ⟨S512x512, .f32⟩
  | 12 => ⟨S_, .f32⟩
  | 13 => ⟨S100000, .f32⟩
  | 14 => ⟨S_, .f32⟩
  | 15 => ⟨S512, .f32⟩
  | 16 => ⟨S100000x1, .i32⟩
  | 17 => ⟨S512, .f32⟩
  | 18 => ⟨S_, .f32⟩
  | 19 => ⟨S512, .f32⟩
  | 20 => ⟨S512, .f32⟩
  | 21 => ⟨S512x1, .f32⟩
  | 22 => ⟨S512x512, .f32⟩
  | 23 => ⟨S512x512, .f32⟩
  | 24 => ⟨S512x256, .f32⟩
  | 25 => ⟨S1x256, .f32⟩
  | 26 => ⟨S512x256, .f32⟩
  | 27 => ⟨S512x256, .f32⟩
  | 28 => ⟨S_, .f32⟩
  | 29 => ⟨S512x256, .f32⟩
  | 30 => ⟨S512x256, .f32⟩
  | 31 => ⟨S512x128, .f32⟩
  | 32 => ⟨S1x128, .f32⟩
  | 33 => ⟨S512x128, .f32⟩
  | 34 => ⟨S512x128, .f32⟩
  | _ => ⟨S100000x1, .i32⟩

abbrev hbmTy (i : Nat) : BufTy := match i / 128 with
  | 0 => hbmTy0_0 i
  | 1 => hbmTy0_1 i
  | _ => ⟨S100000x1, .i32⟩

abbrev bufTy : (tb : Table) → Fin (tcTables nBuf tb) → BufTy
  | .hbm, ⟨i, _⟩ => hbmTy i
  | _, _ => ⟨S100000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call0_cst : Ref sig .tc := ⟨.hbm, 78, rfl⟩
abbrev main_call0_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_8 : Ref sig .tc := ⟨.hbm, 85, rfl⟩
abbrev main_v57 : Ref sig .tc := ⟨.hbm, 86, rfl⟩
abbrev main_v58 : Ref sig .tc := ⟨.hbm, 87, rfl⟩
abbrev main_c_9 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_11 : Ref sig .tc := ⟨.hbm, 103, rfl⟩
abbrev main_v72 : Ref sig .tc := ⟨.hbm, 104, rfl⟩
abbrev main_cst_12 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_13 : Ref sig .tc := ⟨.hbm, 112, rfl⟩
abbrev main_v79 : Ref sig .tc := ⟨.hbm, 113, rfl⟩
abbrev main_cst_14 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_15 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call1_cst : Ref sig .tc := ⟨.hbm, 133, rfl⟩
abbrev main_call1_v0 : Ref sig .tc := ⟨.hbm, 134, rfl⟩
abbrev main_v97 : Ref sig .tc := ⟨.hbm, 135, rfl⟩
abbrev main_cst_16 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_17 : Ref sig .tc := ⟨.hbm, 140, rfl⟩
abbrev main_v101 : Ref sig .tc := ⟨.hbm, 141, rfl⟩
abbrev main_cst_18 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_19 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_call2_cst : Ref sig .tc := ⟨.hbm, 156, rfl⟩
abbrev main_call2_v0 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩

abbrev nD : Nat := 1
abbrev τ : Topo := Topo.v7x

variable {F : FTy → Type} [FloatOps F]

class Facts₀ : Prop where
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S250000 : S_.BroadcastsInDim S250000 (![] : Fin 0 → Fin S250000.rank)
  bcast_S250000_S250000x1_0 : S250000.BroadcastsInDim S250000x1 (![0] : Fin 1 → Fin S250000x1.rank)
  bcast_S_S100000x256 : S_.BroadcastsInDim S100000x256 (![] : Fin 0 → Fin S100000x256.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S512_d0 : S100000x512.ReducesTo [0] S512
  h_S_ : 0 < S_.numel
  bcast_S_S512 : S_.BroadcastsInDim S512 (![] : Fin 0 → Fin S512.rank)
  bcast_S_S100000x512 : S_.BroadcastsInDim S100000x512 (![] : Fin 0 → Fin S100000x512.rank)
  bcast_S_S512x512 : S_.BroadcastsInDim S512x512 (![] : Fin 0 → Fin S512x512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S1000x256_S100000x1_S100000x256_1_0_n_n_0_1_1256_wf : GatherDims.WF S1000x256 S100000x1 S100000x256 [1] [0] [] [0] [] 1 ![1, 256]
  gather_S100000x256_S250000x1_S250000x256_1_0_n_n_0_1_1256_wf : GatherDims.WF S100000x256 S250000x1 S250000x256 [1] [0] [] [0] [] 1 ![1, 256]
  scatter_S100000x256_S250000x1_S250000x256_1_0_0_1_wf : ScatterDims.WF S100000x256 S250000x1 S250000x256 [1] [0] [0] 1
  dot_S100000x256_S256x512_S100000x512_1_0_0_1_n_n_wf : DotDims.WF S100000x256 S256x512 S100000x512 [1] [0] [0] [1] [] []
  gather_S100000x512_S250000x1_S250000x512_1_0_n_n_0_1_1512_wf : GatherDims.WF S100000x512 S250000x1 S250000x512 [1] [0] [] [0] [] 1 ![1, 512]
  scatter_S100000x512_S250000x1_S250000x512_1_0_0_1_wf : ScatterDims.WF S100000x512 S250000x1 S250000x512 [1] [0] [0] 1
  dot_S100000x512_S512x512_S100000x512_1_0_0_1_n_n_wf : DotDims.WF S100000x512 S512x512 S100000x512 [1] [0] [0] [1] [] []
  scatter_S512x512_S100000x1_S100000x512_1_0_0_1_wf : ScatterDims.WF S512x512 S100000x1 S100000x512 [1] [0] [0] 1
  scatter_S512_S100000x1_S100000_n_0_0_1_wf : ScatterDims.WF S512 S100000x1 S100000 [] [0] [0] 1
  dot_S512x512_S512x256_S512x256_1_0_0_1_n_n_wf : DotDims.WF S512x512 S512x256 S512x256 [1] [0] [0] [1] [] []
  dot_S512x256_S256x128_S512x128_1_0_0_1_n_n_wf : DotDims.WF S512x256 S256x128 S512x128 [1] [0] [0] [1] [] []

variable [Facts₀]

def gather_S1000x256_S100000x1_S100000x256_1_0_n_n_0_1_1256 : GatherDims S1000x256 S100000x1 S100000x256 where
  offsetDims := [1]
  collapsedSliceDims := [0]
  operandBatchingDims := []
  startIndicesBatchingDims := []
  startIndexMap := [0]
  indexVectorDim := 1
  sliceSizes := ![1, 256]
  wf := gather_S1000x256_S100000x1_S100000x256_1_0_n_n_0_1_1256_wf
def gather_S100000x256_S250000x1_S250000x256_1_0_n_n_0_1_1256 : GatherDims S100000x256 S250000x1 S250000x256 where
  offsetDims := [1]
  collapsedSliceDims := [0]
  operandBatchingDims := []
  startIndicesBatchingDims := []
  startIndexMap := [0]
  indexVectorDim := 1
  sliceSizes := ![1, 256]
  wf := gather_S100000x256_S250000x1_S250000x256_1_0_n_n_0_1_1256_wf
def scatter_S100000x256_S250000x1_S250000x256_1_0_0_1 : ScatterDims S100000x256 S250000x1 S250000x256 where
  updateWindowDims := [1]
  insertedWindowDims := [0]
  scatterDimsToOperandDims := [0]
  indexVectorDim := 1
  wf := scatter_S100000x256_S250000x1_S250000x256_1_0_0_1_wf
def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf
def gather_S100000x512_S250000x1_S250000x512_1_0_n_n_0_1_1512 : GatherDims S100000x512 S250000x1 S250000x512 where
  offsetDims := [1]
  collapsedSliceDims := [0]
  operandBatchingDims := []
  startIndicesBatchingDims := []
  startIndexMap := [0]
  indexVectorDim := 1
  sliceSizes := ![1, 512]
  wf := gather_S100000x512_S250000x1_S250000x512_1_0_n_n_0_1_1512_wf
def scatter_S100000x512_S250000x1_S250000x512_1_0_0_1 : ScatterDims S100000x512 S250000x1 S250000x512 where
  updateWindowDims := [1]
  insertedWindowDims := [0]
  scatterDimsToOperandDims := [0]
  indexVectorDim := 1
  wf := scatter_S100000x512_S250000x1_S250000x512_1_0_0_1_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def scatter_S512x512_S100000x1_S100000x512_1_0_0_1 : ScatterDims S512x512 S100000x1 S100000x512 where
  updateWindowDims := [1]
  insertedWindowDims := [0]
  scatterDimsToOperandDims := [0]
  indexVectorDim := 1
  wf := scatter_S512x512_S100000x1_S100000x512_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.KernelRun.lean ====
/-
  The idealized kernel's run with its result named.

  @main is ten segments: five stretches of host operations and the five pallas_call regions between them. The buffer
  contents at each boundary are a fold from the launch memory: a stretch applies its operations, a region leaves each of
  its arrays at what its write-backs leave and every other buffer as it was. Every weakly fair execution terminates,
  nothing faulting, with every unscoped buffer at the last boundary's contents; so the result buffer ends at the last
  boundary's contents of its reference, and each argument array as launched.
-/
import proofs.«138176_j46557445489257_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer holds the last boundary's
    contents and every argument array is as launched. -/
theorem run_result : θ_run defs (onTc (τ := τ) (main (F := F))) ⟨m, fun _ => 0, ρ⟩ (fun r => ∀ c : Dev nD,
      r.2.mem ((c.tc : Thread nD τ).loc main_v78) = W10 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v78 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.RunValue

end
-- ==== Proof.Spec.lean ====
/-
  The arithmetic of the network, entry by entry, on the extended reals.

  A linear layer's entry is a row of the input against a column of the weights plus the bias; the batch-norm entry
  subtracts the column's mean, scales by the reciprocal square root of the column's variance plus the stabiliser, applies
  the learned scale and shift and rectifies; the read-out's entry is a two-layer perceptron of one pooled row.
  Every module that reads an array of either program at an index states its result with these definitions, so that the
  two programs meet in one language.
-/
import Idealize.ShloMosaic.PureOps.Ideal
import Idealize.ShloMosaic.Lib.ValueIdx

noncomputable section

open scoped BigOperators

namespace Cert.Spec

open Idealize.ShloMosaic

/-- The stabiliser added to a variance before the reciprocal square root: the binary value of the printed word. -/
def eps : EReal := Ideal.ofBits .f32 0x3727C5AC#32

/-- The rectifier's floor: the zero word. -/
def zero : EReal := Ideal.ofBits .f32 0x00000000#32

/-- The number of nodes as the printed word (the real `100000`). -/
def nNodes : EReal := Ideal.ofBits .f32 0x47C35000#32

/-- One entry of a linear layer: `∑ k, x k * w k + b`. -/
def linE {K : ℕ} (x w : Fin K → EReal) (b : EReal) : EReal := (∑ k : Fin K, x k * w k) + b

/-- One entry of the normalised, scaled, shifted and rectified layer output. -/
def bnRelu (y mu var g be : EReal) : EReal :=
  max ((y - mu) * Ideal.rsqrt (var + eps) * g + be) zero

/-- One entry of the read-out: a hidden layer of `L` rectified units over a pooled row `x`, then a linear layer. -/
def mlpE {K L : ℕ} (x : Fin K → EReal) (w1 : Fin K → Fin L → EReal) (b1 : Fin L → EReal) (w2 : Fin L → EReal) (b2 : EReal) : EReal :=
  (∑ l : Fin L, max ((∑ k : Fin K, x k * w1 k l) + b1 l) zero * w2 l) + b2

end Cert.Spec

end
-- ==== Proof.RefLayer1.lean ====
/-
  The first layer of the reference network, entry by entry, on the extended reals.

  With the aggregated input kept as an array, the linear stage's entry (p, q) is row p of that array against column q of
  the weights plus the bias at q; the column mean and the column variance are the sums over the 100000 rows divided by
  the node count; the activated entry is the batch-norm expression of the linear entry, its column's mean and variance,
  and the learned scale and shift at q, rectified at zero.
-/
import proofs.«138176_j46557445489257_1_alg».proof.Proof.Gen.ReferenceIdeal.Read
import proofs.«138176_j46557445489257_1_alg».proof.Proof.Spec

noncomputable section

open scoped BigOperators

namespace Cert.ReferenceIdeal.RefValue

open Cert.ReferenceIdeal Cert.ReferenceIdeal.Read Idealize.ShloMosaic Idealize.ShloMosaic.ValueIdx

variable (x0 : (⟨S100000x1, .i32⟩ : BufTy).Contents (Elt Ideal)) (x1 : (⟨S2x250000, .i32⟩ : BufTy).Contents (Elt Ideal))
  (x3 : (⟨S1000x256, .f32⟩ : BufTy).Contents (Elt Ideal)) (x4 : (⟨S256x512, .f32⟩ : BufTy).Contents (Elt Ideal))
  (x5 x6 x7 : (⟨S512, .f32⟩ : BufTy).Contents (Elt Ideal))

/-- The linear stage at (p, q): the contraction over the 256 input features plus the bias, the bias being read through
    its two row spreads at q. -/
theorem lin1_apply (p : Fin 100000) (q : Fin 512) :
    val_main_v26 (F := Ideal) x0 x1 x3 x4 x5 (ix2 p q)
      = Cert.Spec.linE (fun k : Fin 256 => val_main_v22 (F := Ideal) x0 x1 x3 (ix2 p k)) (fun k : Fin 256 => x4 (ix2 k q)) (x5 (ix1 q)) := by
  have el : ∀ k : Fin 256, lidx_main_v23 (ix2 p q) k = ix2 p k := fun k =>
    funext fun a => Fin.ext (by match a with | ⟨0, _⟩ => rfl | ⟨1, _⟩ => rfl)
  have er : ∀ k : Fin 256, ridx_main_v23 (ix2 p q) k = ix2 k q := fun k =>
    funext fun a => Fin.ext (by match a with | ⟨0, _⟩ => rfl | ⟨1, _⟩ => rfl)
  have eb : idx_main_v24 (idx_main_v25 (ix2 p q)) = ix1 q :=
    funext fun a => Fin.ext (by match a with | ⟨0, _⟩ => rfl)
  rw [val_main_v26_apply, val_main_v23_apply, val_main_v25_apply, val_main_v24_apply]
  simp only [el, er, eb, Ideal.addf_def]
  rfl

/-- The column mean at q: the sum of the linear stage down column q, started from the zero word, over the node count
    (the printed word spread over the 512 columns). -/
theorem mean1_apply (q : Fin 512) :
    val_main_v29 (F := Ideal) x0 x1 x3 x4 x5 (ix1 q)
      = Ideal.div (∑ r : Fin 100000, val_main_v26 (F := Ideal) x0 x1 x3 x4 x5 (ix2 r q)) Cert.Spec.nNodes := by
  have es : ∀ k : Fin 100000, idx_main_v27 (ix1 q) k = ix2 k q := fun k =>
    funext fun a => Fin.ext (by match a with | ⟨0, _⟩ => rfl | ⟨1, _⟩ => rfl)
  rw [val_main_v29_apply, val_main_v27_apply, val_main_v28_apply, val_main_cst_3_apply, val_main_cst_4_apply]
  simp only [es, Ideal.hostDivf_def, Ideal.ofBits_def, Ideal.ofBits_zero_f32, zero_add]
  rfl

/-- The column variance at q: the sum down column q of the squared deviation of the linear stage from the column mean
    (the mean being read through its two row spreads), started from the zero word, over the node count. -/
theorem var1_apply (q : Fin 512) :
    val_main_v36 (F := Ideal) x0 x1 x3 x4 x5 (ix1 q)
      = Ideal.div (∑ r : Fin 100000,
          (val_main_v26 (F := Ideal) x0 x1 x3 x4 x5 (ix2 r q) - val_main_v29 (F := Ideal) x0 x1 x3 x4 x5 (ix1 q))
            * (val_main_v26 (F := Ideal) x0 x1 x3 x4 x5 (ix2 r q) - val_main_v29 (F := Ideal) x0 x1 x3 x4 x5 (ix1 q)))
          Cert.Spec.nNodes := by
  have es : ∀ k : Fin 100000, idx_main_v34 (ix1 q) k = ix2 k q := fun k =>
    funext fun a => Fin.ext (by match a with | ⟨0, _⟩ => rfl | ⟨1, _⟩ => rfl)
  have em : ∀ k : Fin 100000, idx_main_v30 (idx_main_v31 (ix2 k q)) = ix1 q := fun k =>
    funext fun a => Fin.ext (by match a with | ⟨0, _⟩ => rfl)
  rw [val_main_v36_apply, val_main_v34_apply, val_main_v35_apply, val_main_cst_5_apply, val_main_cst_6_apply]
  simp only [val_main_v33_apply, val_main_v32_apply, val_main_v31_apply, val_main_v30_apply, es, em,
    Ideal.hostDivf_def, Ideal.mulf_def, Ideal.subf_def, Ideal.ofBits_def, Ideal.ofBits_zero_f32, zero_add]
  rfl

/-- The activated entry at (p, q): the deviation of the linear entry from its column's mean, times the reciprocal square
    root of the column's variance plus the stabiliser, times the learned scale at q, plus the learned shift at q, rectified
    at the zero word. The mean, the reciprocal square root, the scale and the shift are each read through two row spreads. -/
theorem act1_apply (p : Fin 100000) (q : Fin 512) :
    val_main_v52 (F := Ideal) x0 x1 x3 x4 x5 x6 x7 (ix2 p q)
      = Cert.Spec.bnRelu (val_main_v26 (F := Ideal) x0 x1 x3 x4 x5 (ix2 p q)) (val_main_v29 (F := Ideal) x0 x1 x3 x4 x5 (ix1 q))
          (val_main_v36 (F := Ideal) x0 x1 x3 x4 x5 (ix1 q)) (x6 (ix1 q)) (x7 (ix1 q)) := by
  have em : idx_main_v37 (idx_main_v38 (ix2 p q)) = ix1 q :=
    funext fun a => Fin.ext (by match a with | ⟨0, _⟩ => rfl)
  have er : idx_main_v43 (idx_main_v44 (ix2 p q)) = ix1 q :=
    funext fun a => Fin.ext (by match a with | ⟨0, _⟩ => rfl)
  have eg : idx_main_v46 (idx_main_v47 (ix2 p q)) = ix1 q :=
    funext fun a => Fin.ext (by match a with | ⟨0, _⟩ => rfl)
  have eb : idx_main_v49 (idx_main_v50 (ix2 p q)) = ix1 q :=
    funext fun a => Fin.ext (by match a with | ⟨0, _⟩ => rfl)
  rw [val_main_v52_apply, val_main_v51_apply, val_main_v48_apply, val_main_v45_apply, val_main_v39_apply,
    val_main_v38_apply, val_main_v37_apply, val_main_v44_apply, val_main_v43_apply, val_main_v42_apply,
    val_main_v41_apply, val_main_v40_apply, val_main_cst_7_apply, val_main_v47_apply, val_main_v46_apply,
    val_main_v50_apply, val_main_v49_apply, val_main_call0_v0_apply, val_main_call0_cst_apply]
  simp only [em, er, eg, eb, Ideal.maximumf_def, Ideal.addf_def, Ideal.mulf_def, Ideal.subf_def,
    Ideal.hostUnary_rsqrt_def, Ideal.ofBits_def]
  rfl

end Cert.ReferenceIdeal.RefValue

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibColReduce.lean ====
/-
  Reductions of a two-axis array along its FIRST axis, read at an index over the extended reals: the sum down column q is
  the plain sum over the rows of the entries of that column, the minimum down column q is min folded over the rows from
  the initial word. The companions, for the first axis, of the row reductions along the second. For any extents and
  element type. Names no program.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibColReduce

open Idealize.ShloMosaic Idealize.ShloMosaic.ValueIdx

variable {a b : ℕ}

/-- Result index q of a reduction along the first axis, with the dropped coordinate k put back, is (k, q). -/
theorem lift_col (h : (⟨2, ![a, b]⟩ : Shape).Reduces [(0 : Fin 2)] ⟨1, ![b]⟩) (q : Fin b) (k : Fin a) :
    h.lift (ix1 q) k = ix2 k q := by
  funext c
  apply Fin.ext
  match c with
  | ⟨0, _⟩ => rfl
  | ⟨1, _⟩ => rfl

/-- The sum down column q: the plain sum over the rows. -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (q : Fin b) :
    multiReduction .add [(0 : Fin 2)] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

/-- The minimum down column q: min folded over the rows from the initial word. -/
theorem colMin_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.minimumf.neutral φ hφ) (q : Fin b) :
    multiReduction .minimumf [(0 : Fin 2)] ⟨1, ![b]⟩ src acc h hφ hacc (ix1 q)
      = (Finset.univ : Finset (Fin a)).fold min (FloatOps.ofBits (F := Ideal) φ acc) (fun k => src (ix2 k q)) := by
  rw [multiReduction_minimumf_eq_fold]
  refine (h.fold_filter_drop_single _ _ src (ix1 q)).trans ?_
  exact congrArg (fun f => (Finset.univ : Finset (Fin a)).fold min (FloatOps.ofBits (F := Ideal) φ acc) f)
    (funext fun k => congrArg src (lift_col h q k))

/-- The sum down column q of an f32 array from the zero word, with the side condition on the initial word spelt as an
    equation between the two literal words (the form a printed reduction carries). -/
theorem colSum_f32 (src : FVec Ideal ⟨2, ![a, b]⟩ .f32)
    (h : (⟨2, ![a, b]⟩ : Shape).Reduces [(0 : Fin 2)] ⟨1, ![b]⟩) (hφ : FKind.Formats .f32)
    (hacc : (0x00000000#32 : BitVec 32) = 0x00000000#32) (q : Fin b) :
    multiReduction .add [(0 : Fin 2)] ⟨1, ![b]⟩ src 0x00000000#32 h hφ hacc (ix1 q) = ∑ k : Fin a, src (ix2 k q) :=
  colSum_apply src 0x00000000#32 h hφ hacc q

/-- The minimum down column q of an f32 array from the word of +∞, the side condition spelt the same way. -/
theorem colMin_f32 (src : FVec Ideal ⟨2, ![a, b]⟩ .f32)
    (h : (⟨2, ![a, b]⟩ : Shape).Reduces [(0 : Fin 2)] ⟨1, ![b]⟩) (hφ : FKind.Formats .f32)
    (hacc : (0x7F800000#32 : BitVec 32) = 0x7F800000#32) (q : Fin b) :
    multiReduction .minimumf [(0 : Fin 2)] ⟨1, ![b]⟩ src 0x7F800000#32 h hφ hacc (ix1 q)
      = (Finset.univ : Finset (Fin a)).fold min (Ideal.ofBits .f32 0x7F800000#32) (fun k => src (ix2 k q)) :=
  colMin_apply src 0x7F800000#32 h hφ hacc q

end Cert.LibColReduce

end
-- ==== Proof.LinValue0Entry.lean ====
/-
  The arithmetic of the first linear layer's block, entry by entry, over the extended reals.

  A block of 2000 rows of the aggregated input (2000 x 256), the weight matrix (256 x 512) and the bias row (1 x 512)
  give the block of the linear output: entry (p, q) is row p of the input block against column q of the weights plus
  the bias at q (the two narrowings are the identity on extended reals; the product is accumulated from the zero splat).
  The two statistic rows add to what they held, at column q, the sum down column q of the block and the sum down
  column q of its entrywise square. The rows stored at the first point are zero.
-/
import proofs.«138176_j46557445489257_1_alg».proof.Proof.Gen.KernelIdeal.Skeleton
import proofs.«138176_j46557445489257_1_alg».proof.Proof.Spec
import proofs.«138176_j46557445489257_1_alg».proof.Proof.LibMatmulAt
import proofs.«138176_j46557445489257_1_alg».proof.Proof.LibColReduce
import Idealize.ShloMosaic.Lib.ValueLayout
import Idealize.ShloMosaic.Lib.Pipeline.Value

noncomputable section

open scoped BigOperators

namespace Cert.KernelIdeal.LinValue0

open Idealize.ShloMosaic Idealize.ShloMosaic.ValueIdx Cert.KernelIdeal Cert.KernelIdeal.Gen

/-- Entry (p, q) of the linear block: row p of the input block against column q of the weights, plus the bias at q. -/
theorem pay1_apply (x0 : Vec Ideal S2000x256 .f32) (x1 : Vec Ideal S256x512 .f32) (x2 : Vec Ideal S1x512 .f32)
    (p : Fin 2000) (q : Fin 512) :
    k0_pay1 (F := Ideal) x0 x1 x2 (ix2 p q)
      = Cert.Spec.linE (fun k : Fin 256 => x0 (ix2 p k)) (fun k : Fin 256 => x1 (ix2 k q)) (x2 (ix2 0 q)) := by
  have e0 : shapeCast S2000x256 x0 shapeCasts_S2000x256_S2000x256 = x0 := shapeCast_self x0 _
  have e2 : shapeCast S1x512 x2 shapeCasts_S1x512_S1x512 = x2 := shapeCast_self x2 _
  unfold k0_pay1 Cert.Spec.linE
  dsimp only
  rw [e0, e2]
  exact congrArg₂ (· + ·)
    (Cert.LibMatmulAt.matmul_zero_apply dot_S2000x256_S256x512_S2000x512_1_0_0_1_n_n rfl rfl rfl rfl rfl rfl none
      (truncf .bf16 x0 bitsLt_bf16_f32) (truncf .bf16 x1 bitsLt_bf16_f32) p q)
    (broadcastTo_1b_ab_apply x2 broadcasts_S1x512_S2000x512 p q)

/-- The zero row stored at the first point reads zero at every column. -/
theorem pay2_apply (q : Fin 512) : k0_pay2 (F := Ideal) (ix2 0 q) = 0 := Ideal.ofBits_zero_f32

/-- The second zero row likewise. -/
theorem pay3_apply (q : Fin 512) : k0_pay3 (F := Ideal) (ix2 0 q) = 0 := Ideal.ofBits_zero_f32

/-- The row of column sums after a point: what it held at column q plus the sum down column q of the linear block. -/
theorem pay4_apply (x0 : Vec Ideal S2000x256 .f32) (x1 : Vec Ideal S256x512 .f32) (x2 : Vec Ideal S1x512 .f32)
    (xo : Vec Ideal S1x512 .f32) (q : Fin 512) :
    k0_pay4 (F := Ideal) x0 x1 x2 xo (ix2 0 q)
      = xo (ix2 0 q) + ∑ j : Fin 2000, k0_pay1 (F := Ideal) x0 x1 x2 (ix2 j q) := by
  unfold k0_pay4
  dsimp only
  exact congrArg₂ (· + ·) (congrFun (shapeCast_self xo shapeCasts_S1x512_S1x512) (ix2 0 q))
    ((shapeCast_a_1a_apply _ shapeCasts_S512_S1x512 0 q).trans
      (Cert.LibColReduce.colSum_f32 (k0_pay1 (F := Ideal) x0 x1 x2) reduces_S2000x512_S512 (.inl rfl) rfl q))

/-- The row of column sums of squares after a point: what it held at column q plus the sum down column q of the
    entrywise square of the linear block. -/
theorem pay5_apply (x0 : Vec Ideal S2000x256 .f32) (x1 : Vec Ideal S256x512 .f32) (x2 : Vec Ideal S1x512 .f32)
    (xo : Vec Ideal S1x512 .f32) (q : Fin 512) :
    k0_pay5 (F := Ideal) x0 x1 x2 xo (ix2 0 q)
      = xo (ix2 0 q) + ∑ j : Fin 2000, k0_pay1 (F := Ideal) x0 x1 x2 (ix2 j q) * k0_pay1 (F := Ideal) x0 x1 x2 (ix2 j q) := by
  unfold k0_pay5
  dsimp only
  exact congrArg₂ (· + ·) (congrFun (shapeCast_self xo shapeCasts_S1x512_S1x512) (ix2 0 q))
    ((shapeCast_a_1a_apply _ shapeCasts_S512_S1x512 0 q).trans
      (Cert.LibColReduce.colSum_f32 (mulf (k0_pay1 (F := Ideal) x0 x1 x2) (k0_pay1 (F := Ideal) x0 x1 x2))
        reduces_S2000x512_S512 (.inl rfl) rfl q))

end Cert.KernelIdeal.LinValue0

end
-- ==== Proof.LinValue0Pieces.lean ====
/-
  What each control case of the linear layer's body leaves in its three output buffers, as the block arithmetic of the
  buffers it read.

  In both cases the linear output's buffer ends at the linear block of the three input blocks. At the first point the
  two statistic rows are first set to the zero rows and then updated from them; at every later point they are updated
  from what they held when the point began. Each buffer is covered by its last whole store, whose value is read here.
-/
import proofs.«138176_j46557445489257_1_alg».proof.Proof.Gen.KernelIdeal.Frame
import Idealize.ShloMosaic.Lib.Pipeline.Value

noncomputable section

namespace Cert.KernelIdeal.LinValue0

open Idealize.ShloMosaic Idealize.ShloMosaic.TcCoe Idealize.SL.Sem Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- First point, linear output: the linear block of the input blocks. -/
theorem outA3 (c : Dev nD) (i : grid0.Coords) (a1 : Memref sig .tc .vmem S2000x256 .f32) (h1 : a1.IsWhole) (a2 : Memref sig .tc .vmem S256x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : cond0_0 i) (x0 : Vec F S2000x256 .f32) (x1 : Vec F S256x512 .f32) (x2 : Vec F S1x512 .f32) :
    out0_A_3 c i a1 h1 a2 h2 a3 h3 a4 h4 a5 h5 a6 h6 hc x0 x1 x2 = k0_pay1 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  try sl_unfold_words
  rw [View.canon_unit_zero hz]
  simp only [View.readAt_eq_ld, h1.read_unread, h2.read_unread, h3.read_unread, h5.read_unread, h6.read_unread, View.ld_unit_zero (S := S2000x256) hz, View.ld_unit_zero (S := S256x512) hz, View.ld_unit_zero (S := S1x512) hz]

/-- First point, row of sums: the update of the zero row. -/
theorem outA4 (c : Dev nD) (i : grid0.Coords) (a1 : Memref sig .tc .vmem S2000x256 .f32) (h1 : a1.IsWhole) (a2 : Memref sig .tc .vmem S256x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : cond0_0 i) (x0 : Vec F S2000x256 .f32) (x1 : Vec F S256x512 .f32) (x2 : Vec F S1x512 .f32) :
    out0_A_4 c i a1 h1 a2 h2 a3 h3 a4 h4 a5 h5 a6 h6 hc x0 x1 x2 = k0_pay4 x0 x1 x2 (k0_pay2 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h5.read_unread, h6.read_unread, View.ld_unit_zero (S := S2000x256) hz, View.ld_unit_zero (S := S256x512) hz, View.ld_unit_zero (S := S1x512) hz]

/-- First point, row of sums of squares: the update of the zero row. -/
theorem outA5 (c : Dev nD) (i : grid0.Coords) (a1 : Memref sig .tc .vmem S2000x256 .f32) (h1 : a1.IsWhole) (a2 : Memref sig .tc .vmem S256x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : cond0_0 i) (x0 : Vec F S2000x256 .f32) (x1 : Vec F S256x512 .f32) (x2 : Vec F S1x512 .f32) :
    out0_A_5 c i a1 h1 a2 h2 a3 h3 a4 h4 a5 h5 a6 h6 hc x0 x1 x2 = k0_pay5 x0 x1 x2 (k0_pay3 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h5.read_unread, h6.read_unread, View.ld_unit_zero (S := S2000x256) hz, View.ld_unit_zero (S := S256x512) hz, View.ld_unit_zero (S := S1x512) hz]

/-- Later points, linear output: the linear block of the input blocks. -/
theorem outB3 (c : Dev nD) (i : grid0.Coords) (a1 : Memref sig .tc .vmem S2000x256 .f32) (h1 : a1.IsWhole) (a2 : Memref sig .tc .vmem S256x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : ¬cond0_0 i) (x0 : Vec F S2000x256 .f32) (x1 : Vec F S256x512 .f32) (x2 : Vec F S1x512 .f32) (xo4 xo5 : Vec F S1x512 .f32) :
    out0_B_3 c i a1 h1 a2 h2 a3 h3 a4 h4 a5 h5 a6 h6 hc x0 x1 x2 xo4 xo5 = k0_pay1 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  try sl_unfold_words
  rw [View.canon_unit_zero hz]
  simp only [View.readAt_eq_ld, h1.read_unread, h2.read_unread, h3.read_unread, h5.read_unread, h6.read_unread, View.ld_unit_zero (S := S2000x256) hz, View.ld_unit_zero (S := S256x512) hz, View.ld_unit_zero (S := S1x512) hz]

/-- Later points, row of sums: the update of what the row held. -/
theorem outB4 (c : Dev nD) (i : grid0.Coords) (a1 : Memref sig .tc .vmem S2000x256 .f32) (h1 : a1.IsWhole) (a2 : Memref sig .tc .vmem S256x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : ¬cond0_0 i) (x0 : Vec F S2000x256 .f32) (x1 : Vec F S256x512 .f32) (x2 : Vec F S1x512 .f32) (xo4 xo5 : Vec F S1x512 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  try sl_unfold_words
  rw [View.canon_unit_zero hz]
  simp only [View.readAt_eq_ld, h1.read_unread, h2.read_unread, h3.read_unread, h5.read_unread, h6.read_unread, View.ld_unit_zero (S := S2000x256) hz, View.ld_unit_zero (S := S256x512) hz, View.ld_unit_zero (S := S1x512) hz]

/-- Later points, row of sums of squares: the update of what the row held. -/
theorem outB5 (c : Dev nD) (i : grid0.Coords) (a1 : Memref sig .tc .vmem S2000x256 .f32) (h1 : a1.IsWhole) (a2 : Memref sig .tc .vmem S256x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : ¬cond0_0 i) (x0 : Vec F S2000x256 .f32) (x1 : Vec F S256x512 .f32) (x2 : Vec F S1x512 .f32) (xo4 xo5 : Vec F S1x512 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  try sl_unfold_words
  rw [View.canon_unit_zero hz]
  simp only [View.readAt_eq_ld, h1.read_unread, h2.read_unread, h3.read_unread, h5.read_unread, h6.read_unread, View.ld_unit_zero (S := S2000x256) hz, View.ld_unit_zero (S := S256x512) hz, View.ld_unit_zero (S := S1x512) hz]

end Cert.KernelIdeal.LinValue0

end
-- ==== Proof.LinValue0Blocks.lean ====
/-
  The linear layer's region, block by block.

  At grid point t the input window holds rows 2000 t .. 2000 t + 1999 of the aggregated input, the weight and bias
  windows hold their whole arrays. So after the body at point t the linear output's buffer holds, at (j, q), the linear
  layer's entry at row 2000 t + j and column q, in either control case.
-/
import proofs.«138176_j46557445489257_1_alg».proof.Proof.LinValue0Entry
import proofs.«138176_j46557445489257_1_alg».proof.Proof.LinValue0Pieces
import Idealize.ShloMosaic.Lib.Pipeline.Value

noncomputable section

open scoped BigOperators

namespace Cert.KernelIdeal.LinValue0

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The linear layer's entry at row r and column q, of the arrays the region finds. -/
abbrev lin0 (c : Dev nD) (r : Fin 100000) (q : Fin 512) : EReal :=
  Cert.Spec.linE (fun k : Fin 256 => V c main_v22 (ix2 r k)) (fun k : Fin 256 => V c main_arg4 (ix2 k q)) (V c main_v23 (ix2 0 q))

/-- The index maps over the grid: the input and the linear output move with the point along the rows; the weights, the
    bias and the two statistic rows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The input block at point t reads rows 2000 t + j of the input array. -/
theorem iblk_0_apply (c : Dev nD) (t : Fin cfg0.N) (j : Fin 2000) (k : Fin 256) (r : Fin 100000)
    (hr : r.val = 2000 * t.val + j.val) :
    (iblk0 V c 0 t : Vec Ideal S2000x256 .f32) (ix2 j k) = V c main_v22 (ix2 r k) := by
  obtain ⟨e0, e1, -⟩ := idx_facts t
  unfold iblk0
  rw [View.read_apply]
  show V c main_v22 _ = V c main_v22 _
  refine congrArg (V c main_v22) (funext fun a => Fin.ext ?_)
  match a with
  | ⟨0, _⟩ => show win0_0.index t 0 * 2000 + 1 * j.val = r.val; rw [e0, hr]; omega
  | ⟨1, _⟩ => show win0_0.index t 1 * 256 + 1 * k.val = k.val; rw [e1]; omega

/-- The weight block at every point is the weight array. -/
theorem iblk_1_apply (c : Dev nD) (t : Fin cfg0.N) (k : Fin 256) (q : Fin 512) :
    (iblk0 V c 1 t : Vec Ideal S256x512 .f32) (ix2 k q) = V c main_arg4 (ix2 k q) := by
  obtain ⟨-, -, e0, e1, -⟩ := idx_facts t
  unfold iblk0
  rw [View.read_apply]
  show V c main_arg4 _ = V c main_arg4 _
  refine congrArg (V c main_arg4) (funext fun a => Fin.ext ?_)
  match a with
  | ⟨0, _⟩ => show win0_1.index t 0 * 256 + 1 * k.val = k.val; rw [e0]; omega
  | ⟨1, _⟩ => show win0_1.index t 1 * 512 + 1 * q.val = q.val; rw [e1]; omega

/-- The bias block at every point is the bias row. -/
theorem iblk_2_apply (c : Dev nD) (t : Fin cfg0.N) (q : Fin 512) :
    (iblk0 V c 2 t : Vec Ideal S1x512 .f32) (ix2 0 q) = V c main_v23 (ix2 0 q) := by
  obtain ⟨-, -, -, -, e0, e1, -⟩ := idx_facts t
  unfold iblk0
  rw [View.read_apply]
  show V c main_v23 _ = V c main_v23 _
  refine congrArg (V c main_v23) (funext fun a => Fin.ext ?_)
  match a with
  | ⟨0, _⟩ => show win0_2.index t 0 * 1 + 1 * 0 = 0; rw [e0]
  | ⟨1, _⟩ => show win0_2.index t 1 * 512 + 1 * q.val = q.val; rw [e1]; omega

/-- A linear layer's entry depends only on the entries of its row, its column and its bias. -/
theorem linE_congr {K : ℕ} {x x' w w' : Fin K → EReal} {b b' : EReal} (hx : ∀ k, x k = x' k) (hw : ∀ k, w k = w' k)
    (hb : b = b') : Cert.Spec.linE x w b = Cert.Spec.linE x' w' b' := by
  rw [funext hx, funext hw, hb]

/-- The linear block of point t's blocks, at (j, q), is the layer's entry at row 2000 t + j and column q. -/
theorem blk_lin (c : Dev nD) (t : Fin cfg0.N) (j : Fin 2000) (q : Fin 512) (r : Fin 100000)
    (hr : r.val = 2000 * t.val + j.val) :
    k0_pay1 (F := Ideal) (iblk0 V c 0 t) (iblk0 V c 1 t) (iblk0 V c 2 t) (ix2 j q) = lin0 V c r q := by
  refine (pay1_apply (iblk0 V c 0 t) (iblk0 V c 1 t) (iblk0 V c 2 t) j q).trans ?_
  exact linE_congr (fun k => iblk_0_apply V c t j k r hr) (fun k => iblk_1_apply V c t k q) (iblk_2_apply V c t q)

/-- What the linear output's buffer holds after the body at point t, in either control case: the linear block of the
    point's blocks. -/
theorem out3_eq (c : Dev nD) (t : Fin cfg0.N) :
    (outsAt0 (F := Ideal) V c t.val t.isLt).1
      = k0_pay1 (F := Ideal) (iblk0 V c 0 t) (iblk0 V c 1 t) (iblk0 V c 2 t) := by
  by_cases h0 : t.val % 50 = 0
  · rw [outsAt0_A V c t h0]
    dsimp only
    exact (outA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0)
        (iblk0 V c 0 t) (iblk0 V c 1 t) (iblk0 V c 2 t))
  · rw [outsAt0_B V c t h0]
    dsimp only
    exact (outB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h))
        (iblk0 V c 0 t) (iblk0 V c 1 t) (iblk0 V c 2 t)
        (outsAt0 V c (t.val - 1) (Nat.lt_of_le_of_lt (Nat.sub_le _ _) t.isLt)).2.1
        (outsAt0 V c (t.val - 1) (Nat.lt_of_le_of_lt (Nat.sub_le _ _) t.isLt)).2.2)

end Cert.KernelIdeal.LinValue0

end
-- ==== Proof.LinValue0Lin.lean ====
/-
  The linear output array after the region.

  Every point writes its block back: rows 2000 t .. 2000 t + 1999 of the array, all 512 columns. The blocks of the 50
  points tile the 100000 rows, the point covering row r being r / 2000. So the array ends holding, at (p, q), the
  linear layer's entry at row p and column q.
-/
import proofs.«138176_j46557445489257_1_alg».proof.Proof.LinValue0Blocks

noncomputable section

open scoped BigOperators

namespace Cert.KernelIdeal.LinValue0

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The linear layer's output as one array: entry (p, q) is row p of the input against column q of the weights plus the
    bias at q. -/
abbrev linArr (c : Dev nD) : Buf (Elt Ideal) ((c : Thread nD τ).loc main_v24_0) :=
  fun i : S100000x512.Idx => lin0 V c (i 0) (i 1)

/-- What point t writes back is block t of that array. -/
theorem flushed3_eq (c : Dev nD) (t : Fin cfg0.N) :
    (dat0 (F := Ideal) V c).flushed 3 t = ((cfg0.win 3).blk t).view.read (Elt Ideal) (linArr V c) := by
  obtain ⟨-, -, -, -, -, -, e0, e1, -⟩ := idx_facts t
  have hN : t.val < 50 := lt_of_lt_of_eq t.isLt (show cfg0.N = 50 from N_0)
  show (cfg0.win 3).cut (grid0.coords t) ((dat0 (F := Ideal) V c).after 3 t) = _
  rw [after0_3, out3_eq]
  funext y
  rw [View.read_apply]
  have hy0 : (y 0).val < 2000 := (y 0).isLt
  have hy1 : (y 1).val < 512 := (y 1).isLt
  have hr : 2000 * t.val + (y 0).val < 100000 := by omega
  have hx : (cfg0.win 3).xinj (grid0.coords t) y = (ix2 ⟨(y 0).val, hy0⟩ ⟨(y 1).val, hy1⟩ : S2000x512.Idx) :=
    funext fun a => by
      match a with
      | ⟨0, _⟩ => rfl
      | ⟨1, _⟩ => rfl
  refine (congrArg (k0_pay1 (F := Ideal) (iblk0 V c 0 t) (iblk0 V c 1 t) (iblk0 V c 2 t)) hx).trans ?_
  refine (blk_lin V c t ⟨(y 0).val, hy0⟩ ⟨(y 1).val, hy1⟩ ⟨2000 * t.val + (y 0).val, hr⟩ rfl).trans ?_
  show lin0 V c ⟨2000 * t.val + (y 0).val, hr⟩ ⟨(y 1).val, hy1⟩
    = lin0 V c ((((cfg0.win 3).blk t).view.emb y) 0) ((((cfg0.win 3).blk t).view.emb y) 1)
  refine congrArg₂ (lin0 V c) (Fin.ext ?_) (Fin.ext ?_)
  · show 2000 * t.val + (y 0).val = win0_3.index t 0 * 2000 + 1 * (y 0).val; rw [e0]; omega
  · show (y 1).val = win0_3.index t 1 * 512 + 1 * (y 1).val; rw [e1]; omega

/-- An index of the array is in point t's block iff each coordinate is in the block's range on its axis. -/
theorem mem_blk3 (t : Fin cfg0.N) (i : S100000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v24_0).slice (win0_3.rect t)).set ↔ _
  rw [View.set_slice_whole, Rect.mem_set_unit]
  exact Iff.rfl

/-- Every index of the array is in the block of the point its row falls in. -/
theorem cover3 (i : S100000x512.Idx) :
    ∃ t : Fin cfg0.N, (cfg0.win 3).flush t = true ∧ i ∈ ((cfg0.win 3).blk t).view.set := by
  have hi0 : (i 0).val < 100000 := (i 0).isLt
  have hi1 : (i 1).val < 512 := (i 1).isLt
  have hN : cfg0.N = 50 := N_0
  have ht : (i 0).val / 2000 < cfg0.N := by rw [hN]; omega
  refine ⟨⟨(i 0).val / 2000, ht⟩, flush0_3 _, ?_⟩
  obtain ⟨-, -, -, -, -, -, e0, e1, -⟩ := idx_facts ⟨(i 0).val / 2000, ht⟩
  rw [mem_blk3]
  intro a
  match a with
  | ⟨0, _⟩ => show win0_3.index ⟨(i 0).val / 2000, ht⟩ (0 : Fin 2) * 2000 ≤ (i 0).val ∧ (i 0).val < win0_3.index ⟨(i 0).val / 2000, ht⟩ (0 : Fin 2) * 2000 + 2000
              rw [e0]; dsimp only; omega
  | ⟨1, _⟩ => show win0_3.index ⟨(i 0).val / 2000, ht⟩ (1 : Fin 2) * 512 ≤ (i 1).val ∧ (i 1).val < win0_3.index ⟨(i 0).val / 2000, ht⟩ (1 : Fin 2) * 512 + 512
              rw [e1]; omega

/-- The array after the region is the linear layer's output. -/
theorem final_lin_arr (c : Dev nD) : (dat0 (F := Ideal) V c).arrAt 3 cfg0.N = linArr V c :=
  (dat0 (F := Ideal) V c).arrAt_eq_of_cover 3 (linArr V c) (fun t _ => flushed3_eq V c t) cover3

/-- Entry (p, q) of the linear output array after the region. -/
theorem final_lin (V : (c : Dev nD) → (b : Ref sig .tc) → Buf (Elt Ideal) ((c : Thread nD τ).loc b)) (c : Dev nD)
    (p : Fin 100000) (q : Fin 512) :
    (Gen.dat0 (F := Ideal) V c).arrAt 3 cfg0.N (ix2 p q) = lin0 V c p q :=
  congrFun (final_lin_arr V c) (ix2 p q)

end Cert.KernelIdeal.LinValue0

end
-- ==== Proof.LibSumBlocks.lean ====
/-
  A sum over consecutive blocks is the sum over the whole range.

  For a function f on the natural numbers with values in an additive commutative monoid, adding up, block by
  block, the n values f (n * kb), ..., f (n * kb + n - 1) of each of the B blocks kb = 0, ..., B - 1 gives the
  sum of f over all of 0, ..., B * n - 1.
-/
import Mathlib.Algebra.BigOperators.Fin

namespace Cert.Hamming

/-- The sum over `B` consecutive blocks of length `n` (block `kb` holding the arguments `n * kb + j`, `j < n`)
is the sum over the whole range `0, ..., B * n - 1`. -/
theorem sum_blocks {M : Type*} [AddCommMonoid M] (B n : ℕ) (f : ℕ → M) :
    ∑ kb ∈ Finset.range B, ∑ j : Fin n, f (n * kb + j.val) = ∑ d : Fin (B * n), f d.val := by
  rw [Fin.sum_univ_eq_sum_range (fun d => f d) (B * n)]
  induction B with
  | zero => simp
  | succ B ih =>
    rw [Finset.sum_range_succ, ih, Nat.succ_mul, Finset.sum_range_add,
      Fin.sum_univ_eq_sum_range (fun j => f (n * B + j)) n, Nat.mul_comm n B]

/-- Ten blocks of length 1024 make up the range `0, ..., 10239`. -/
theorem sum_blocks_10_1024 {M : Type*} [AddCommMonoid M] (f : ℕ → M) :
    ∑ kb ∈ Finset.range 10, ∑ j : Fin 1024, f (1024 * kb + j.val) = ∑ d : Fin 10240, f d.val :=
  sum_blocks 10 1024 f

end Cert.Hamming
-- ==== Proof.LinValue0Sum.lean ====
/-
  The two statistic rows after the region.

  The rows of column sums and of column sums of squares stay in their buffers across the 50 points and are written back
  after the last one. At the first point they start from the zero rows; every point adds, at column q, the sum down
  column q of its linear block (of its entrywise square). So after point n the sum row holds, at column q, the sum
  over the points t ≤ n of the sum over the 2000 rows of block t of the layer's entry at that row and column q; after
  the last point the 50 blocks of 2000 rows are all 100000 rows.
-/
import proofs.«138176_j46557445489257_1_alg».proof.Proof.LinValue0Blocks
import proofs.«138176_j46557445489257_1_alg».proof.Proof.LibSumBlocks

noncomputable section

open scoped BigOperators

namespace Cert.KernelIdeal.LinValue0

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The layer's entry at a row given as a natural number (zero past the last row). -/
def linN (c : Dev nD) (q : Fin 512) (d : ℕ) : EReal := if h : d < 100000 then lin0 V c ⟨d, h⟩ q else 0

/-- The linear block of point t's blocks at (j, q), with the row as a natural number. -/
theorem blk_linN (c : Dev nD) (t : Fin cfg0.N) (j : Fin 2000) (q : Fin 512) :
    k0_pay1 (F := Ideal) (iblk0 V c 0 t) (iblk0 V c 1 t) (iblk0 V c 2 t) (ix2 j q) = linN V c q (2000 * t.val + j.val) := by
  have hN : t.val < 50 := lt_of_lt_of_eq t.isLt (show cfg0.N = 50 from N_0)
  have hj : j.val < 2000 := j.isLt
  have h : 2000 * t.val + j.val < 100000 := by omega
  unfold linN
  rw [dif_pos h]
  exact blk_lin V c t j q ⟨2000 * t.val + j.val, h⟩ rfl

/-- The sum row after the first point: the column sums of its linear block, added to zero. -/
theorem sum_A (c : Dev nD) (t : Fin cfg0.N) (h0 : t.val % 50 = 0) (q : Fin 512) :
    (outsAt0 (F := Ideal) V c t.val t.isLt).2.1 (ix2 0 q)
      = ∑ j : Fin 2000, linN V c q (2000 * t.val + j.val) := by
  rw [outsAt0_A V c t h0]
  dsimp only
  rw [outA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)]
  refine (pay4_apply (iblk0 V c 0 t) (iblk0 V c 1 t) (iblk0 V c 2 t) (k0_pay2 (F := Ideal)) q).trans ?_
  rw [pay2_apply, zero_add]
  exact Finset.sum_congr rfl fun j _ => blk_linN V c t j q

/-- The sum row after a later point: what it held after the point before plus the column sums of the linear block. -/
theorem sum_B (c : Dev nD) (t : Fin cfg0.N) (h0 : ¬t.val % 50 = 0) (q : Fin 512) :
    (outsAt0 (F := Ideal) V c t.val t.isLt).2.1 (ix2 0 q)
      = (outsAt0 (F := Ideal) V c (t.val - 1) (Nat.lt_of_le_of_lt (Nat.sub_le _ _) t.isLt)).2.1 (ix2 0 q)
        + ∑ j : Fin 2000, linN V c q (2000 * t.val + j.val) := by
  rw [outsAt0_B V c t h0]
  dsimp only
  rw [outB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
    (outsAt0 V c (t.val - 1) (Nat.lt_of_le_of_lt (Nat.sub_le _ _) t.isLt)).2.1
    (outsAt0 V c (t.val - 1) (Nat.lt_of_le_of_lt (Nat.sub_le _ _) t.isLt)).2.2]
  refine (pay4_apply (iblk0 V c 0 t) (iblk0 V c 1 t) (iblk0 V c 2 t)
    (outsAt0 V c (t.val - 1) (Nat.lt_of_le_of_lt (Nat.sub_le _ _) t.isLt)).2.1 q).trans ?_
  exact congrArg _ (Finset.sum_congr rfl fun j _ => blk_linN V c t j q)

/-- The sum-of-squares row after the first point. -/
theorem sq_A (c : Dev nD) (t : Fin cfg0.N) (h0 : t.val % 50 = 0) (q : Fin 512) :
    (outsAt0 (F := Ideal) V c t.val t.isLt).2.2 (ix2 0 q)
      = ∑ j : Fin 2000, linN V c q (2000 * t.val + j.val) * linN V c q (2000 * t.val + j.val) := by
  rw [outsAt0_A V c t h0]
  dsimp only
  rw [outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)]
  refine (pay5_apply (iblk0 V c 0 t) (iblk0 V c 1 t) (iblk0 V c 2 t) (k0_pay3 (F := Ideal)) q).trans ?_
  rw [pay3_apply, zero_add]
  exact Finset.sum_congr rfl fun j _ => congrArg₂ (· * ·) (blk_linN V c t j q) (blk_linN V c t j q)

/-- The sum-of-squares row after a later point. -/
theorem sq_B (c : Dev nD) (t : Fin cfg0.N) (h0 : ¬t.val % 50 = 0) (q : Fin 512) :
    (outsAt0 (F := Ideal) V c t.val t.isLt).2.2 (ix2 0 q)
      = (outsAt0 (F := Ideal) V c (t.val - 1) (Nat.lt_of_le_of_lt (Nat.sub_le _ _) t.isLt)).2.2 (ix2 0 q)
        + ∑ j : Fin 2000, linN V c q (2000 * t.val + j.val) * linN V c q (2000 * t.val + j.val) := by
  rw [outsAt0_B V c t h0]
  dsimp only
  rw [outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
    (outsAt0 V c (t.val - 1) (Nat.lt_of_le_of_lt (Nat.sub_le _ _) t.isLt)).2.1
    (outsAt0 V c (t.val - 1) (Nat.lt_of_le_of_lt (Nat.sub_le _ _) t.isLt)).2.2]
  refine (pay5_apply (iblk0 V c 0 t) (iblk0 V c 1 t) (iblk0 V c 2 t)
    (outsAt0 V c (t.val - 1) (Nat.lt_of_le_of_lt (Nat.sub_le _ _) t.isLt)).2.2 q).trans ?_
  exact congrArg _ (Finset.sum_congr rfl fun j _ => congrArg₂ (· * ·) (blk_linN V c t j q) (blk_linN V c t j q))

/-- THE INVARIANT over the points: after point n the sum row holds, at column q, the sum over the points t ≤ n of the
    sum over the rows of block t. By induction on the point. -/
theorem sum_inv (c : Dev nD) (q : Fin 512) : ∀ (n : ℕ) (h : n < cfg0.N),
    (outsAt0 (F := Ideal) V c n h).2.1 (ix2 0 q)
      = ∑ t ∈ Finset.range (n + 1), ∑ j : Fin 2000, linN V c q (2000 * t + j.val)
  | 0, h => by
    rw [Finset.sum_range_one]
    exact sum_A V c ⟨0, h⟩ (Nat.zero_mod _) q
  | n + 1, h => by
    have hN : cfg0.N = 50 := N_0
    have hB : ¬(⟨n + 1, h⟩ : Fin cfg0.N).val % 50 = 0 := by dsimp only; omega
    rw [Finset.sum_range_succ, ← sum_inv c q n (Nat.lt_of_succ_lt h)]
    exact sum_B V c ⟨n + 1, h⟩ hB q

/-- The same invariant for the row of sums of squares. -/
theorem sq_inv (c : Dev nD) (q : Fin 512) : ∀ (n : ℕ) (h : n < cfg0.N),
    (outsAt0 (F := Ideal) V c n h).2.2 (ix2 0 q)
      = ∑ t ∈ Finset.range (n + 1), ∑ j : Fin 2000, linN V c q (2000 * t + j.val) * linN V c q (2000 * t + j.val)
  | 0, h => by
    rw [Finset.sum_range_one]
    exact sq_A V c ⟨0, h⟩ (Nat.zero_mod _) q
  | n + 1, h => by
    have hN : cfg0.N = 50 := N_0
    have hB : ¬(⟨n + 1, h⟩ : Fin cfg0.N).val % 50 = 0 := by dsimp only; omega
    rw [Finset.sum_range_succ, ← sq_inv c q n (Nat.lt_of_succ_lt h)]
    exact sq_B V c ⟨n + 1, h⟩ hB q

/-- Fifty blocks of 2000 rows are the 100000 rows. -/
theorem sum_rows (f : ℕ → EReal) (g : Fin 100000 → EReal) (hfg : ∀ r : Fin 100000, f r.val = g r) :
    ∑ t ∈ Finset.range 50, ∑ j : Fin 2000, f (2000 * t + j.val) = ∑ r : Fin 100000, g r := by
  refine (Cert.Hamming.sum_blocks 50 2000 f).trans ?_
  show ∑ d : Fin 100000, f d.val = ∑ r : Fin 100000, g r
  exact Finset.sum_congr rfl fun r _ => hfg r

/-- After the last point the sum row holds the column sums of the whole linear output. -/
theorem last_sum (c : Dev nD) (q : Fin 512) (t : Fin cfg0.N) (h49 : t.val = 49) :
    (outsAt0 (F := Ideal) V c t.val t.isLt).2.1 (ix2 0 q) = ∑ r : Fin 100000, lin0 V c r q := by
  refine (sum_inv V c q t.val t.isLt).trans ?_
  rw [h49]
  exact sum_rows (linN V c q) (fun r => lin0 V c r q) fun r => dif_pos r.isLt

/-- After the last point the sum-of-squares row holds the column sums of squares of the whole linear output. -/
theorem last_sq (c : Dev nD) (q : Fin 512) (t : Fin cfg0.N) (h49 : t.val = 49) :
    (outsAt0 (F := Ideal) V c t.val t.isLt).2.2 (ix2 0 q) = ∑ r : Fin 100000, lin0 V c r q * lin0 V c r q := by
  refine (sq_inv V c q t.val t.isLt).trans ?_
  rw [h49]
  exact sum_rows (fun d => linN V c q d * linN V c q d) (fun r => lin0 V c r q * lin0 V c r q)
    fun r => by rw [show linN V c q r.val = lin0 V c r q from dif_pos r.isLt]

/-- The row of column sums as an array. -/
abbrev sumRow (c : Dev nD) : Buf (Elt Ideal) ((c : Thread nD τ).loc main_v24_1) :=
  fun i : S1x512.Idx => (∑ r : Fin 100000, lin0 V c r (i 1) : EReal)

/-- The row of column sums of squares as an array. -/
abbrev sqRow (c : Dev nD) : Buf (Elt Ideal) ((c : Thread nD τ).loc main_v24_2) :=
  fun i : S1x512.Idx => (∑ r : Fin 100000, lin0 V c r (i 1) * lin0 V c r (i 1) : EReal)

/-- The last grid point. -/
abbrev tLast : Fin cfg0.N := ⟨49, by rw [show cfg0.N = 50 from N_0]; decide⟩

/-- The one write-back of the sum row, after the last point, writes the column sums: the block is the whole array. -/
theorem flushed4_eq (c : Dev nD) (t : Fin cfg0.N) (hf : (cfg0.win 4).flush t = true) :
    (dat0 (F := Ideal) V c).flushed 4 t = ((cfg0.win 4).blk t).view.read (Elt Ideal) (sumRow V c) := by
  have hN : cfg0.N = 50 := N_0
  have h49 : t.val = 49 := by have := (flush0_4 t).mp hf; have := t.isLt; omega
  obtain ⟨-, -, -, -, -, -, -, -, e0, e1, -⟩ := idx_facts t
  have hrow : ((outsAt0 (F := Ideal) V c t.val t.isLt).2.1 : Vec Ideal S1x512 .f32) = sumRow V c := funext fun (y : S1x512.Idx) => by
    obtain ⟨u, q, rfl⟩ : ∃ (u : Fin 1) (q : Fin 512), y = ix2 u q := ⟨y 0, y 1, eq_ix2 y⟩
    obtain rfl : u = 0 := Subsingleton.elim u 0
    exact last_sum V c q t h49
  show (cfg0.win 4).cut (grid0.coords t) ((dat0 (F := Ideal) V c).after 4 t) = _
  rw [after0_4, hrow]
  have hz' : (fun a => win0_4.index t a * main_v24_1.ty.shape.size a) = fun _ => 0 := funext fun a => by
    match a with
    | ⟨0, _⟩ => show win0_4.index t 0 * 1 = 0; rw [e0]
    | ⟨1, _⟩ => show win0_4.index t 1 * 512 = 0; rw [e1]
  exact (Memref.read_access_unit_zero (Elt Ideal) main_v24_1 hz' (fun a => by rw [congrFun hz' a]; simp) (sumRow V c)).symm

/-- The one write-back of the sum-of-squares row likewise. -/
theorem flushed5_eq (c : Dev nD) (t : Fin cfg0.N) (hf : (cfg0.win 5).flush t = true) :
    (dat0 (F := Ideal) V c).flushed 5 t = ((cfg0.win 5).blk t).view.read (Elt Ideal) (sqRow V c) := by
  have hN : cfg0.N = 50 := N_0
  have h49 : t.val = 49 := by have := (flush0_5 t).mp hf; have := t.isLt; omega
  obtain ⟨-, -, -, -, -, -, -, -, -, -, e0, e1⟩ := idx_facts t
  have hrow : ((outsAt0 (F := Ideal) V c t.val t.isLt).2.2 : Vec Ideal S1x512 .f32) = sqRow V c := funext fun (y : S1x512.Idx) => by
    obtain ⟨u, q, rfl⟩ : ∃ (u : Fin 1) (q : Fin 512), y = ix2 u q := ⟨y 0, y 1, eq_ix2 y⟩
    obtain rfl : u = 0 := Subsingleton.elim u 0
    exact last_sq V c q t h49
  show (cfg0.win 5).cut (grid0.coords t) ((dat0 (F := Ideal) V c).after 5 t) = _
  rw [after0_5, hrow]
  have hz' : (fun a => win0_5.index t a * main_v24_2.ty.shape.size a) = fun _ => 0 := funext fun a => by
    match a with
    | ⟨0, _⟩ => show win0_5.index t 0 * 1 = 0; rw [e0]
    | ⟨1, _⟩ => show win0_5.index t 1 * 512 = 0; rw [e1]
  exact (Memref.read_access_unit_zero (Elt Ideal) main_v24_2 hz' (fun a => by rw [congrFun hz' a]; simp) (sqRow V c)).symm

/-- The sum row's array after the region. -/
theorem final_sum_arr (c : Dev nD) : (dat0 (F := Ideal) V c).arrAt 4 cfg0.N = sumRow V c :=
  (dat0 (F := Ideal) V c).arrAt_eq_of_cover 4 (sumRow V c) (flushed4_eq V c) fun i =>
    ⟨tLast, (flush0_4 tLast).mpr rfl, by
      show i ∈ ((View.whole main_v24_1).slice (win0_4.rect tLast)).set
      rw [View.set_slice_whole, Rect.mem_set_unit]
      intro a
      have h0 : (i 0 : Nat) < 1 := (i 0).isLt
      have h1 : (i 1 : Nat) < 512 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 512 from by decide +kernel]; omega⟩

/-- The sum-of-squares row's array after the region. -/
theorem final_sumsq_arr (c : Dev nD) : (dat0 (F := Ideal) V c).arrAt 5 cfg0.N = sqRow V c :=
  (dat0 (F := Ideal) V c).arrAt_eq_of_cover 5 (sqRow V c) (flushed5_eq V c) fun i =>
    ⟨tLast, (flush0_5 tLast).mpr rfl, by
      show i ∈ ((View.whole main_v24_2).slice (win0_5.rect tLast)).set
      rw [View.set_slice_whole, Rect.mem_set_unit]
      intro a
      have h0 : (i 0 : Nat) < 1 := (i 0).isLt
      have h1 : (i 1 : Nat) < 512 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 512 from by decide +kernel]; omega⟩

/-- Column q of the sum row after the region: the sum over all rows of the layer's entries in column q. -/
theorem final_sum (V : (c : Dev nD) → (b : Ref sig .tc) → Buf (Elt Ideal) ((c : Thread nD τ).loc b)) (c : Dev nD) (q : Fin 512) :
    (Gen.dat0 (F := Ideal) V c).arrAt 4 cfg0.N (ix2 0 q) = ∑ r : Fin 100000, lin0 V c r q :=
  congrFun (final_sum_arr V c) (ix2 0 q)

/-- Column q of the sum-of-squares row after the region: the sum over all rows of the squares of the layer's entries in
    column q. -/
theorem final_sumsq (V : (c : Dev nD) → (b : Ref sig .tc) → Buf (Elt Ideal) ((c : Thread nD τ).loc b)) (c : Dev nD) (q : Fin 512) :
    (Gen.dat0 (F := Ideal) V c).arrAt 5 cfg0.N (ix2 0 q) = ∑ r : Fin 100000, lin0 V c r q * lin0 V c r q :=
  congrFun (final_sumsq_arr V c) (ix2 0 q)

end Cert.KernelIdeal.LinValue0

end
-- ==== Proof.Chain0.lean ====
/-
  The first link of the kernel's chain: the host operations before the first region, and the first region.

  The host operations before the first region compute the aggregated input from the node indices, the edge list and the
  embedding table, and set the bias vector up as a row; they are the operations the reference program applies to the
  same arguments, so the aggregated input is the reference's aggregated input as a whole array.  The weights are an
  argument no host operation writes.  The first region leaves, in its three output arrays, the linear layer of the
  aggregated input, and the column sums of that layer and of its squares.  Read with the reference's own linear stage,
  entry (r, q) of the layer is the reference's linear stage at (r, q), and the two rows are the sums down column q of
  that stage and of its square.
-/
import proofs.«138176_j46557445489257_1_alg».proof.Proof.Gen.KernelIdeal.Frame
import proofs.«138176_j46557445489257_1_alg».proof.Proof.Gen.ReferenceIdeal.Read
import proofs.«138176_j46557445489257_1_alg».proof.Proof.RefLayer1
import proofs.«138176_j46557445489257_1_alg».proof.Proof.Spec
import proofs.«138176_j46557445489257_1_alg».proof.Proof.LinValue0Lin
import proofs.«138176_j46557445489257_1_alg».proof.Proof.LinValue0Sum
import Idealize.ShloMosaic.Lib.StableHlo.Run
import Idealize.ShloMosaic.Lib.ValueLayout
import Idealize.ShloMosaic.Lib.ValueIdx

set_option maxRecDepth 16384

noncomputable section

open scoped BigOperators

namespace Cert.KernelIdeal.Chain0

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ) (ρ : Dev nD → PrngReg) (c : Dev nD)

/-! ## The first region's three operands, from the arguments -/

set_option maxHeartbeats 2000000 in
/-- The aggregated input the first region reads is the reference's aggregated input of the node indices, the edge list
    and the embedding table: the same host operations applied to the same three arguments, as whole arrays. -/
theorem agg1 : (V1 (F := Ideal) m ρ c main_v22 : S100000x256.Idx → EReal)
    = Cert.ReferenceIdeal.Read.val_main_v22 (F := Ideal) (m ((c.tc : Thread nD τ).loc main_arg0))
        (m ((c.tc : Thread nD τ).loc main_arg1)) (m ((c.tc : Thread nD τ).loc main_arg3)) := by
  show StableHlo.after hostOps0 (W0 m ρ c) (Proc.devRef .tc main_v22) = _
  after_results_simp
  rfl

/-- The weight matrix the first region reads is the argument: no host operation before the region writes it. -/
theorem w1 : (V1 (F := Ideal) m ρ c main_arg4 : S256x512.Idx → EReal) = m ((c.tc : Thread nD τ).loc main_arg4) := by
  show StableHlo.after hostOps0 (W0 m ρ c) (Proc.devRef .tc main_arg4) = _
  refine (StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_
  rfl

set_option maxHeartbeats 2000000 in
/-- The bias row the first region reads is the bias argument set up as a row: its entry (0, q) is the argument's
    entry q. -/
theorem b1 (q : Fin 512) : (V1 (F := Ideal) m ρ c main_v23 : S1x512.Idx → EReal) (ix2 0 q)
    = (m ((c.tc : Thread nD τ).loc main_arg5) : S512.Idx → EReal) (ix1 q) := by
  have e : (V1 (F := Ideal) m ρ c main_v23 : S1x512.Idx → EReal)
      = shapeCast S1x512 (m ((c.tc : Thread nD τ).loc main_arg5) : S512.Idx → EReal) shapeCasts_S512_S1x512 := by
    show StableHlo.after hostOps0 (W0 m ρ c) (Proc.devRef .tc main_v23) = _
    after_results_simp
    rfl
  rw [e]
  exact shapeCast_a_1a_apply _ shapeCasts_S512_S1x512 0 q

/-! ## The linear entry is the reference's linear stage -/

/-- A linear entry respects equality of its row, its column and its bias. -/
theorem linE_congr {K : ℕ} {x x' w w' : Fin K → EReal} {b b' : EReal} (hx : x = x') (hw : w = w') (hb : b = b') :
    Cert.Spec.linE x w b = Cert.Spec.linE x' w' b' := by subst hx hw hb; rfl

/-- Entry (r, q) of the first region's linear layer, over the operands the region finds, is the reference's linear
    stage at (r, q): row r of the aggregated input against column q of the weights plus the bias at q, on both sides. -/
theorem lin0_eq (r : Fin 100000) (q : Fin 512) :
    LinValue0.lin0 (V1 (F := Ideal) m ρ) c r q
      = Cert.ReferenceIdeal.Read.val_main_v26 (F := Ideal) (m ((c.tc : Thread nD τ).loc main_arg0))
        (m ((c.tc : Thread nD τ).loc main_arg1)) (m ((c.tc : Thread nD τ).loc main_arg3))
        (m ((c.tc : Thread nD τ).loc main_arg4)) (m ((c.tc : Thread nD τ).loc main_arg5)) (ix2 r q) :=
  (linE_congr (funext fun k : Fin 256 => congrFun (agg1 m ρ c) (ix2 r k))
      (funext fun k : Fin 256 => congrFun (w1 m ρ c) (ix2 k q)) (b1 m ρ c q)).trans
    (Cert.ReferenceIdeal.RefValue.lin1_apply _ _ _ _ _ r q).symm

/-! ## The three output arrays at the first region's exit -/

/-- The linear output array at the region's exit is the reference's linear stage, as a whole array. -/
theorem lin1 : (W2 (F := Ideal) m ρ c (Proc.devRef .tc main_v24_0) : S100000x512.Idx → EReal)
    = Cert.ReferenceIdeal.Read.val_main_v26 (F := Ideal) (m ((c.tc : Thread nD τ).loc main_arg0))
        (m ((c.tc : Thread nD τ).loc main_arg1)) (m ((c.tc : Thread nD τ).loc main_arg3))
        (m ((c.tc : Thread nD τ).loc main_arg4)) (m ((c.tc : Thread nD τ).loc main_arg5)) := by
  funext j
  obtain ⟨p, q, rfl⟩ : ∃ (p : Fin 100000) (q : Fin 512), j = ix2 p q := ⟨j 0, j 1, eq_ix2 j⟩
  refine (congrFun (show W2 (F := Ideal) m ρ c (Proc.devRef .tc main_v24_0) = (dat0 (V1 m ρ) c).arrAt 3 cfg0.N
    from W2_arr m ρ c 3) (ix2 p q)).trans ?_
  exact (LinValue0.final_lin (V1 m ρ) c p q).trans (lin0_eq m ρ c p q)

/-- Column q of the sum row at the region's exit: the sum down column q of the reference's linear stage. -/
theorem sum1 (q : Fin 512) : (W2 (F := Ideal) m ρ c (Proc.devRef .tc main_v24_1) : S1x512.Idx → EReal) (ix2 0 q)
    = ∑ r : Fin 100000, Cert.ReferenceIdeal.Read.val_main_v26 (F := Ideal) (m ((c.tc : Thread nD τ).loc main_arg0))
        (m ((c.tc : Thread nD τ).loc main_arg1)) (m ((c.tc : Thread nD τ).loc main_arg3))
        (m ((c.tc : Thread nD τ).loc main_arg4)) (m ((c.tc : Thread nD τ).loc main_arg5)) (ix2 r q) := by
  refine (congrFun (show W2 (F := Ideal) m ρ c (Proc.devRef .tc main_v24_1) = (dat0 (V1 m ρ) c).arrAt 4 cfg0.N
    from W2_arr m ρ c 4) (ix2 0 q)).trans ?_
  have h : (∑ r : Fin 100000, LinValue0.lin0 (V1 (F := Ideal) m ρ) c r q : EReal) = _ :=
    Finset.sum_congr rfl fun r _ => lin0_eq m ρ c r q
  exact (LinValue0.final_sum (V1 m ρ) c q).trans h

/-- Column q of the sum-of-squares row at the region's exit: the sum down column q of the square of the reference's
    linear stage. -/
theorem sumsq1 (q : Fin 512) : (W2 (F := Ideal) m ρ c (Proc.devRef .tc main_v24_2) : S1x512.Idx → EReal) (ix2 0 q)
    = ∑ r : Fin 100000, Cert.ReferenceIdeal.Read.val_main_v26 (F := Ideal) (m ((c.tc : Thread nD τ).loc main_arg0))
        (m ((c.tc : Thread nD τ).loc main_arg1)) (m ((c.tc : Thread nD τ).loc main_arg3))
        (m ((c.tc : Thread nD τ).loc main_arg4)) (m ((c.tc : Thread nD τ).loc main_arg5)) (ix2 r q)
        * Cert.ReferenceIdeal.Read.val_main_v26 (F := Ideal) (m ((c.tc : Thread nD τ).loc main_arg0))
        (m ((c.tc : Thread nD τ).loc main_arg1)) (m ((c.tc : Thread nD τ).loc main_arg3))
        (m ((c.tc : Thread nD τ).loc main_arg4)) (m ((c.tc : Thread nD τ).loc main_arg5)) (ix2 r q) := by
  refine (congrFun (show W2 (F := Ideal) m ρ c (Proc.devRef .tc main_v24_2) = (dat0 (V1 m ρ) c).arrAt 5 cfg0.N
    from W2_arr m ρ c 5) (ix2 0 q)).trans ?_
  have h : (∑ r : Fin 100000, LinValue0.lin0 (V1 (F := Ideal) m ρ) c r q * LinValue0.lin0 (V1 (F := Ideal) m ρ) c r q : EReal) = _ :=
    Finset.sum_congr rfl fun r _ => congrArg₂ (· * ·) (lin0_eq m ρ c r q) (lin0_eq m ρ c r q)
  exact (LinValue0.final_sumsq (V1 m ρ) c q).trans h

end Cert.KernelIdeal.Chain0

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Glue.lean ====
/-
  The host arithmetic between a layer's two regions, read at an index.

  The first region of a layer leaves two rows: the column sums `s` of the linear output and the column sums `ss` of its
  squares. The host turns them into the mean `s / 100000` and the variance `ss / 100000 − mean · mean`, each laid out
  again as a row, and lays the learned scale and shift out as rows. Read at column `q` these are the expected quotients
  and products; the layouts (a row `[1, 512]` viewed as a vector `[512]` and back) move no entry.
  Also here: a buffer that no operation of a stretch of host operations writes keeps its contents, as a tactic.
-/
import proofs.«138176_j46557445489257_1_alg».proof.Proof.Gen.KernelIdeal.Frame
import proofs.«138176_j46557445489257_1_alg».proof.Proof.Spec
import proofs.«138176_j46557445489257_1_alg».proof.Proof.LibColumn
import Idealize.ShloMosaic.Lib.StableHlo.Run
import Idealize.ShloMosaic.Lib.ValueLayout
import Idealize.ShloMosaic.Lib.ValueIdx

set_option maxRecDepth 16384

noncomputable section

namespace Cert.KernelIdeal.Glue

open Cert.KernelIdeal Cert.KernelIdeal.Gen Idealize.ShloMosaic Idealize.ShloMosaic.TcCoe Idealize.ShloMosaic.ValueIdx
open Idealize.ShloMosaic.StableHlo Idealize.SL.Sem

/-- A buffer none of the stretch's operations writes: what it holds after the stretch is what it held before. The
    stretch is given by name; the side goals are inequalities of references, decided. -/
macro "host_kept" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The rows -/

/-- The node count spread over a length-512 vector. -/
def nVec : FVec Ideal S512 .f32 := broadcastInDim S512 ![] bcast_S_S512 (constant (F := Ideal) S_ .f32 0x47C35000#32)

theorem nVec_apply (i : S512.Idx) : nVec i = Cert.Spec.nNodes :=
  Cert.LibColumn.bcastInDim_scalar_apply (constant (F := Ideal) S_ .f32 0x47C35000#32) bcast_S_S512 i ix0

/-- A length-512 vector laid out as a row. -/
def rowOf (b : FVec Ideal S512 .f32) : FVec Ideal S1x512 .f32 := shapeCast S1x512 b shapeCasts_S512_S1x512

theorem rowOf_apply (b : FVec Ideal S512 .f32) (q : Fin 512) : rowOf b (ix2 (0 : Fin 1) q) = b (ix1 q) :=
  shapeCast_a_1a_apply b shapeCasts_S512_S1x512 0 q

/-- A row viewed as a length-512 vector. -/
def vecOf (s : FVec Ideal S1x512 .f32) : FVec Ideal S512 .f32 := shapeCast S512 s shapeCasts_S1x512_S512

theorem vecOf_apply (s : FVec Ideal S1x512 .f32) (q : Fin 512) : vecOf s (ix1 q) = s (ix2 (0 : Fin 1) q) :=
  shapeCast_1a_a_apply s shapeCasts_S1x512_S512 q

/-- The column means from the row of column sums. -/
def meanVec (s : FVec Ideal S1x512 .f32) : FVec Ideal S512 .f32 := Host.divf (F := Ideal) (vecOf s) nVec

theorem meanVec_apply (s : FVec Ideal S1x512 .f32) (q : Fin 512) :
    meanVec s (ix1 q) = Ideal.div (s (ix2 (0 : Fin 1) q)) Cert.Spec.nNodes := by
  show Ideal.div (vecOf s (ix1 q)) (nVec (ix1 q)) = _
  rw [vecOf_apply, nVec_apply]

/-- The column variances from the rows of column sums and of column sums of squares: mean of squares minus squared mean. -/
def varVec (s ss : FVec Ideal S1x512 .f32) : FVec Ideal S512 .f32 :=
  subf (Host.divf (F := Ideal) (vecOf ss) nVec) (mulf (meanVec s) (meanVec s))

theorem varVec_apply (s ss : FVec Ideal S1x512 .f32) (q : Fin 512) :
    varVec s ss (ix1 q) = Ideal.div (ss (ix2 (0 : Fin 1) q)) Cert.Spec.nNodes
      - Ideal.div (s (ix2 (0 : Fin 1) q)) Cert.Spec.nNodes * Ideal.div (s (ix2 (0 : Fin 1) q)) Cert.Spec.nNodes := by
  show Ideal.div (vecOf ss (ix1 q)) (nVec (ix1 q)) - meanVec s (ix1 q) * meanVec s (ix1 q) = _
  rw [vecOf_apply, nVec_apply, meanVec_apply]

end Cert.KernelIdeal.Glue

end
-- ==== Proof.LibFinite.lean ====
import Idealize.ShloMosaic.PureOps.Ideal
import Idealize.ShloMosaic.PureOps.Ideal.Laws
import Idealize.ShloMosaic.Lib.ValueIdx

/-!
  Extended reals that are real numbers, and the operations that keep them so.

  The ideal float values are extended reals. An entry that is the coercion of a real number (neither infinity) stays one
  under sums, products, maxima, finite sums, real powers, gathers, accumulating scatters and selections; and over such
  entries a dot product may be scaled inside the sum.
-/

noncomputable section

namespace Idealize.ShloMosaic.LibFinite

open Idealize.ShloMosaic Idealize.ShloMosaic.ValueIdx
open scoped BigOperators

/-- An extended real that is a real number: the coercion of some `r : ℝ`, so neither infinity. -/
def IsReal (x : EReal) : Prop := ∃ r : ℝ, x = (r : EReal)

/-- Zero is a real number. -/
theorem IsReal.zero : IsReal (0 : EReal) := ⟨0, rfl⟩

/-- The coercion of a real number is one. -/
theorem IsReal.coe (r : ℝ) : IsReal (r : EReal) := ⟨r, rfl⟩

/-- The sum of two real numbers is real. -/
theorem IsReal.add (a b : EReal) : IsReal a → IsReal b → IsReal (a + b) := by
  rintro ⟨x, rfl⟩ ⟨y, rfl⟩; exact ⟨x + y, (EReal.coe_add x y).symm⟩

/-- The product of two real numbers is real. -/
theorem IsReal.mul (a b : EReal) : IsReal a → IsReal b → IsReal (a * b) := by
  rintro ⟨x, rfl⟩ ⟨y, rfl⟩; exact ⟨x * y, (EReal.coe_mul x y).symm⟩

/-- The larger of two real numbers is real. -/
theorem IsReal.max (a b : EReal) : IsReal a → IsReal b → IsReal (Max.max a b) := by
  intro ha hb
  rcases le_total a b with h | h
  · rw [max_eq_right h]; exact hb
  · rw [max_eq_left h]; exact ha

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add _ _ (h a (Finset.mem_insert_self a s)) (ih fun i hi => h i (Finset.mem_insert_of_mem hi))

/-- A binary pattern whose exponent field is not all ones denotes a real number (a zero, a subnormal or a normal). -/
theorem isReal_ieee_of_exponent_ne (e m : ℕ) {w : ℕ} (b : BitVec w) (h : (b.extractLsb' m e).toNat ≠ 2 ^ e - 1) :
    IsReal (Ideal.ieee e m b) := by
  unfold Ideal.ieee
  dsimp only
  rw [if_neg h]
  split <;> exact ⟨_, rfl⟩

/-- The single-precision word of all zero bits denotes a real number (zero). -/
theorem isReal_ofBits_zero : IsReal (Ideal.ofBits .f32 0x00000000#32) := by
  rw [Ideal.ofBits_zero_f32]; exact IsReal.zero

/-- The single-precision word `0x3F800000` (one) denotes a real number. -/
theorem isReal_ofBits_one : IsReal (Ideal.ofBits .f32 0x3F800000#32) := by
  show IsReal (Ideal.ieee 8 23 (0x3F800000#32 : BitVec 32))
  exact isReal_ieee_of_exponent_ne 8 23 (0x3F800000#32 : BitVec 32) (by decide)

/-- The single-precision word `0xBF000000` (minus one half) denotes a real number. -/
theorem isReal_ofBits_neg_half : IsReal (Ideal.ofBits .f32 0xBF000000#32) := by
  show IsReal (Ideal.ieee 8 23 (0xBF000000#32 : BitVec 32))
  exact isReal_ieee_of_exponent_ne 8 23 (0xBF000000#32 : BitVec 32) (by decide)

/-- The power of a real base to a real exponent is real (the real power function). -/
theorem isReal_pow (x y : EReal) : IsReal x → IsReal y → IsReal (Ideal.pow x y) := by
  rintro ⟨a, rfl⟩ ⟨b, rfl⟩; exact ⟨Real.rpow a b, rfl⟩

/-- An accumulating scatter of real updates into a real array is real at every entry: the entry plus a finite sum of
    the updates that land on it. -/
theorem isReal_scatterAdd {s si su : Shape} (d : ScatterDims s si su) {w : Nat} (x : s.Idx → EReal) (idx : IVec si w)
    (u : su.Idx → EReal) (hx : ∀ i, IsReal (x i)) (hu : ∀ j, IsReal (u j)) (i : s.Idx) :
    IsReal (Host.scatterAdd (F := Ideal) (φ := .f32) d x idx u i) := by
  show IsReal (x i + ∑ j ∈ Finset.univ.filter (fun j => d.resultIdx? j idx = some i), u j)
  exact IsReal.add _ _ (hx i) (IsReal.sum _ _ fun j _ => hu j)

/-- A gather of a real array is real at every entry: each entry of the result is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- A selection between two real entries is real. -/
theorem isReal_select {s : Shape} (c : IVec s 1) (a b : s.Idx → EReal) (i : s.Idx) :
    IsReal (a i) → IsReal (b i) → IsReal (select c a b i) := by
  intro ha hb
  rw [select_apply]
  unfold Scalar.select
  split <;> assumption

/-- Over real entries a dot product scaled by a real number is the dot product of the scaled first factor:
    (∑ₖ aₖ·bₖ)·c = ∑ₖ (aₖ·c)·bₖ. -/
theorem dot_scale {K : ℕ} (a b : Fin K → EReal) (c : EReal) (ha : ∀ k, IsReal (a k)) (hb : ∀ k, IsReal (b k))
    (hc : IsReal c) : (∑ k, a k * b k) * c = ∑ k, (a k * c) * b k := by
  choose a' ha' using ha
  choose b' hb' using hb
  obtain ⟨c', rfl⟩ := hc
  have e1 : ∀ k, a k * b k = ((a' k * b' k : ℝ) : EReal) := fun k => by rw [ha' k, hb' k, EReal.coe_mul]
  have e2 : ∀ k, (a k * (c' : EReal)) * b k = ((a' k * c' * b' k : ℝ) : EReal) := fun k => by
    rw [ha' k, hb' k, EReal.coe_mul, EReal.coe_mul]
  simp only [e1, e2]
  rw [← coe_sum, ← coe_sum, ← EReal.coe_mul, Finset.sum_mul]
  congr 1
  exact Finset.sum_congr rfl fun k _ => by ring

/-- A dot product of real entries is real. -/
theorem isReal_dot {K : ℕ} (a b : Fin K → EReal) : (∀ k, IsReal (a k)) → (∀ k, IsReal (b k)) →
    IsReal (∑ k, a k * b k) :=
  fun ha hb => IsReal.sum _ _ fun k _ => IsReal.mul _ _ (ha k) (hb k)

end Idealize.ShloMosaic.LibFinite

end
-- ==== Proof.Val.LibVariance.lean ====
/-
  The variance of a finite family of real numbers, two ways, on the extended reals.

  For real numbers h_p (p ranging over a finite type with N ≠ 0 elements) put μ = (∑ h_p) / N. The mean of the squared
  deviations, (∑ (h_p − μ)²) / N, equals the mean of the squares minus the squared mean, (∑ h_p²) / N − μ². Over the
  extended reals the subtraction and the product are total but do not obey the ring laws at the infinities, so the
  identity is stated for entries that are real numbers: every sum and quotient is then the coercion of the real one,
  and the identity is the one of ℝ.
-/
import Idealize.ShloMosaic.PureOps.Ideal

noncomputable section

namespace Cert.Val.Variance

open Idealize.ShloMosaic

/-- A finite sum of real numbers, taken in the extended reals, is the real sum. -/
theorem coe_sum {ι : Type*} (s : Finset ι) (g : ι → ℝ) :
    (∑ p ∈ s, ((g p : ℝ) : EReal)) = ((∑ p ∈ s, g p : ℝ) : EReal) := by
  classical
  induction s using Finset.induction_on with
  | empty => simp
  | insert a s ha ih => rw [Finset.sum_insert ha, Finset.sum_insert ha, ih, EReal.coe_add]

/-- The quotient of two real numbers, the divisor not zero, is the real quotient. -/
theorem div_coe (a b : ℝ) (hb : b ≠ 0) : Ideal.div (a : EReal) (b : EReal) = ((a / b : ℝ) : EReal) := by
  have hb' : ((b : ℝ) : EReal) ≠ 0 := by exact_mod_cast hb
  unfold Ideal.div
  rw [if_neg hb', ← EReal.coe_inv, ← EReal.coe_mul, div_eq_mul_inv]

/-- The identity in ℝ: with N the number of terms, mean of squared deviations = mean of squares − squared mean. -/
theorem real_law {ι : Type*} [Fintype ι] (g : ι → ℝ) (N : ℝ) (hN : N ≠ 0) (hcard : (Fintype.card ι : ℝ) = N) :
    (∑ p, (g p - (∑ p, g p) / N) * (g p - (∑ p, g p) / N)) / N
      = (∑ p, g p * g p) / N - ((∑ p, g p) / N) * ((∑ p, g p) / N) := by
  set S : ℝ := ∑ p, g p with hS
  have e : ∀ p, (g p - S / N) * (g p - S / N) = g p * g p - (2 * (S / N)) * g p + (S / N) * (S / N) := fun p => by ring
  simp only [e]
  rw [Finset.sum_add_distrib, Finset.sum_sub_distrib, ← Finset.mul_sum, Finset.sum_const, Finset.card_univ,
    nsmul_eq_mul, hcard, ← hS]
  field_simp
  ring

/-- The same identity on the extended reals, for a family every member of which is a real number. The mean is taken
    of an arbitrary family `h` with `h p = g p`; the divisor is the real `N`, the number of terms. -/
theorem two_pass_eq_one_pass {ι : Type*} [Fintype ι] (h : ι → EReal) (hreal : ∀ p, ∃ r : ℝ, h p = (r : EReal))
    (N : ℝ) (hN : N ≠ 0) (hcard : (Fintype.card ι : ℝ) = N) :
    Ideal.div (∑ p, (h p - Ideal.div (∑ p, h p) (N : EReal)) * (h p - Ideal.div (∑ p, h p) (N : EReal))) (N : EReal)
      = Ideal.div (∑ p, h p * h p) (N : EReal)
        - Ideal.div (∑ p, h p) (N : EReal) * Ideal.div (∑ p, h p) (N : EReal) := by
  choose g hg using hreal
  have hh : h = fun p => ((g p : ℝ) : EReal) := funext hg
  subst hh
  rw [coe_sum, div_coe _ _ hN]
  simp only [← EReal.coe_sub, ← EReal.coe_mul]
  rw [coe_sum, coe_sum, div_coe _ _ hN, div_coe _ _ hN, ← EReal.coe_sub]
  exact congrArg _ (real_law g N hN hcard)

end Cert.Val.Variance

end
-- ==== Proof.Algebra.lean ====
/-
  The column statistics of a layer, and why the two programs' variances agree.

  For a column `h` of 100000 real numbers the mean is `μ = (∑ h) / 100000`. One program takes the variance as the mean
  of the squared deviations, `(∑ (h − μ)²) / 100000`, the other as the mean of the squares minus the squared mean,
  `(∑ h²) / 100000 − μ²`. On the real numbers these are one number; on the extended reals the identity needs every
  entry to be a real number, which is what the finiteness of the inputs gives. The variance is then a non-negative
  real, so the variance plus the (positive) stabiliser is a positive real, its reciprocal square root a real number,
  and the normalised, scaled, shifted and rectified entry is again a real number: realness passes from one layer to the
  next.
-/
import proofs.«138176_j46557445489257_1_alg».proof.Proof.Spec
import proofs.«138176_j46557445489257_1_alg».proof.Proof.LibFinite
import proofs.«138176_j46557445489257_1_alg».proof.Proof.Val.LibVariance

noncomputable section

open scoped BigOperators

namespace Cert.Algebra

open Idealize.ShloMosaic Idealize.ShloMosaic.LibFinite Cert.Spec

/-! ## The printed words -/

/-- The zero word denotes `0`. -/
theorem zero_eq : Cert.Spec.zero = 0 := by
  unfold Cert.Spec.zero
  simp [Ideal.ofBits, Ideal.ieee]

/-- The word `0x47C35000` denotes the real `100000`. -/
theorem nNodes_eq : Cert.Spec.nNodes = ((100000 : ℝ) : EReal) := by
  unfold Cert.Spec.nNodes
  simp [Ideal.ofBits, Ideal.ieee, -EReal.coe_mul]; norm_num

/-- The stabiliser's word denotes a positive real. -/
theorem eps_pos : ∃ e : ℝ, 0 < e ∧ Cert.Spec.eps = (e : EReal) := by
  refine ⟨(2 : ℝ) ^ (-17 : ℤ) * (1 + 2606508 / 8388608), by positivity, ?_⟩
  unfold Cert.Spec.eps
  simp [Ideal.ofBits, Ideal.ieee, -EReal.coe_mul]; norm_num

/-! ## Real numbers among the extended reals -/

theorem isReal_sub (a b : EReal) : IsReal a → IsReal b → IsReal (a - b) := by
  rintro ⟨x, rfl⟩ ⟨y, rfl⟩
  exact ⟨x - y, (EReal.coe_sub x y).symm⟩

/-- The quotient of a real by the number of nodes is real. -/
theorem isReal_div_nNodes (a : EReal) : IsReal a → IsReal (Ideal.div a Cert.Spec.nNodes) := by
  rintro ⟨x, rfl⟩
  rw [nNodes_eq, Cert.Val.Variance.div_coe x 100000 (by norm_num)]
  exact ⟨_, rfl⟩

/-- One entry of a linear layer over real rows, columns and bias is real. -/
theorem linE_real {K : ℕ} (x w : Fin K → EReal) (b : EReal) (hx : ∀ k, IsReal (x k)) (hw : ∀ k, IsReal (w k)) (hb : IsReal b) :
    IsReal (Cert.Spec.linE x w b) := by
  unfold Cert.Spec.linE
  exact IsReal.add _ _ (IsReal.sum _ _ fun k _ => IsReal.mul _ _ (hx k) (hw k)) hb

/-! ## The column statistics -/

/-- The column mean. -/
def mean (h : Fin 100000 → EReal) : EReal := Ideal.div (∑ r : Fin 100000, h r) Cert.Spec.nNodes

/-- The variance as the mean of the squared deviations. -/
def varDev (h : Fin 100000 → EReal) : EReal :=
  Ideal.div (∑ r : Fin 100000, (h r - mean h) * (h r - mean h)) Cert.Spec.nNodes

/-- The variance as the mean of the squares minus the squared mean. -/
def varSq (h : Fin 100000 → EReal) : EReal :=
  Ideal.div (∑ r : Fin 100000, h r * h r) Cert.Spec.nNodes - mean h * mean h

theorem mean_real (h : Fin 100000 → EReal) (hreal : ∀ r, IsReal (h r)) : IsReal (mean h) :=
  isReal_div_nNodes _ (IsReal.sum _ _ fun r _ => hreal r)

/-- On a column of real numbers the two variances are one number. -/
theorem varDev_eq_varSq (h : Fin 100000 → EReal) (hreal : ∀ r, IsReal (h r)) : varDev h = varSq h := by
  unfold varDev varSq mean
  rw [nNodes_eq]
  exact Cert.Val.Variance.two_pass_eq_one_pass h hreal 100000 (by norm_num) (by simp)

/-- The variance of a column of real numbers is a non-negative real. -/
theorem varDev_nonneg (h : Fin 100000 → EReal) (hreal : ∀ r, IsReal (h r)) : ∃ v : ℝ, 0 ≤ v ∧ varDev h = (v : EReal) := by
  obtain ⟨μ, hμ⟩ := mean_real h hreal
  choose g hg using hreal
  refine ⟨(∑ r : Fin 100000, (g r - μ) * (g r - μ)) / 100000, ?_, ?_⟩
  · exact div_nonneg (Finset.sum_nonneg fun r _ => mul_self_nonneg _) (by norm_num)
  · unfold varDev
    rw [hμ, nNodes_eq]
    have e : ∀ r, (h r - (μ : EReal)) * (h r - (μ : EReal)) = (((g r - μ) * (g r - μ) : ℝ) : EReal) := fun r => by
      rw [hg r, ← EReal.coe_sub, ← EReal.coe_mul]
    simp only [e]
    rw [Cert.Val.Variance.coe_sum, Cert.Val.Variance.div_coe _ _ (by norm_num)]

/-- The reciprocal square root of a positive real is a real number. -/
theorem rsqrt_real (x : ℝ) (hx : 0 < x) : IsReal (Ideal.rsqrt (x : EReal)) := by
  refine ⟨(Real.sqrt x)⁻¹, ?_⟩
  show (if x < 0 then (⊥ : EReal) else if x = 0 then ⊤ else (((Real.sqrt x)⁻¹ : ℝ) : EReal)) = _
  rw [if_neg (not_lt.mpr hx.le), if_neg hx.ne']

/-- The normalised, scaled, shifted and rectified entry is real when its inputs are and the variance is a
    non-negative real. -/
theorem bnRelu_real (y mu var g be : EReal) (hy : IsReal y) (hmu : IsReal mu) (hvar : ∃ v : ℝ, 0 ≤ v ∧ var = (v : EReal))
    (hg : IsReal g) (hbe : IsReal be) : IsReal (Cert.Spec.bnRelu y mu var g be) := by
  obtain ⟨v, hv, rfl⟩ := hvar
  obtain ⟨e, he, hee⟩ := eps_pos
  unfold Cert.Spec.bnRelu
  rw [hee, zero_eq, ← EReal.coe_add]
  exact IsReal.max _ _ (IsReal.add _ _ (IsReal.mul _ _ (IsReal.mul _ _ (isReal_sub _ _ hy hmu)
    (rsqrt_real (v + e) (by positivity))) hg) hbe) IsReal.zero

end Cert.Algebra

end
-- ==== Proof.BnEntry.lean ====
/-
  The normalise-and-rectify body, entry by entry.

  The body takes one block of 2000 rows of a layer's linear output and four rows of 512 entries: the column means,
  the column variances, the learned scale and the learned shift. Entry (p, q) of what it stores is
  max(((y p q - mean q) * rsqrt(var q + eps)) * scale q + shift q, 0): every operation of the body is entrywise, a row
  is read at column q whatever the row p (a [1,512] row broadcast over 2000 rows), and a cast between equal shapes
  changes nothing. The two layers' bodies have the same text, so the second is the first.
-/
import proofs.«138176_j46557445489257_1_alg».proof.Proof.Gen.KernelIdeal.Skeleton
import proofs.«138176_j46557445489257_1_alg».proof.Proof.Spec
import Idealize.ShloMosaic.Lib.ValueIdx
import Idealize.ShloMosaic.Lib.ValueLayout
import Idealize.ShloMosaic.Lib.Pipeline.Value

noncomputable section

namespace Cert.KernelIdeal.BnEntry

open Cert.KernelIdeal Cert.KernelIdeal.Gen Idealize.ShloMosaic Idealize.ShloMosaic.ValueIdx

/-- A row of 512 entries broadcast over 2000 rows reads, at (p, q), the row's entry q. -/
theorem row_at (v : FVec Ideal S1x512 .f32) (p : Fin 2000) (q : Fin 512) :
    broadcastTo S2000x512 v broadcasts_S1x512_S2000x512 (ix2 p q) = v (ix2 (0 : Fin 1) q) :=
  broadcastTo_1b_ab_apply v broadcasts_S1x512_S2000x512 p q

/-- Entry (p, q) of the first layer's body: the block's entry normalised by column q's mean and variance, scaled,
    shifted and rectified. The arguments are, in the body's order, the variance row, the block, the mean row, the scale
    row and the shift row. -/
theorem pay1_apply (var : Vec Ideal S1x512 .f32) (y : Vec Ideal S2000x512 .f32) (mu g be : Vec Ideal S1x512 .f32)
    (p : Fin 2000) (q : Fin 512) :
    k1_pay1 (F := Ideal) var y mu g be (ix2 p q)
      = Cert.Spec.bnRelu (y (ix2 p q)) (mu (ix2 (0 : Fin 1) q)) (var (ix2 (0 : Fin 1) q)) (g (ix2 (0 : Fin 1) q)) (be (ix2 (0 : Fin 1) q)) := by
  unfold k1_pay1
  simp only [shapeCast_self]
  simp only [maximumf_apply, addf_apply, mulf_apply, subf_apply, broadcast_apply, row_at]
  rfl

/-- The second layer's body is the first's: the same operations in the same order. -/
theorem pay3_eq (var : Vec Ideal S1x512 .f32) (y : Vec Ideal S2000x512 .f32) (mu g be : Vec Ideal S1x512 .f32) :
    k3_pay1 (F := Ideal) var y mu g be = k1_pay1 (F := Ideal) var y mu g be := rfl

/-- Entry (p, q) of the second layer's body. -/
theorem pay3_apply (var : Vec Ideal S1x512 .f32) (y : Vec Ideal S2000x512 .f32) (mu g be : Vec Ideal S1x512 .f32)
    (p : Fin 2000) (q : Fin 512) :
    k3_pay1 (F := Ideal) var y mu g be (ix2 p q)
      = Cert.Spec.bnRelu (y (ix2 p q)) (mu (ix2 (0 : Fin 1) q)) (var (ix2 (0 : Fin 1) q)) (g (ix2 (0 : Fin 1) q)) (be (ix2 (0 : Fin 1) q)) :=
  (congrFun (pay3_eq var y mu g be) (ix2 p q)).trans (pay1_apply var y mu g be p q)

end Cert.KernelIdeal.BnEntry

end
-- ==== Proof.BnValue1.lean ====
/-
  The array the normalise-and-rectify region of layer one leaves, entry by entry.

  The region walks 50 points; point t takes rows 2000 t … 2000 t + 1999 of the layer's linear output and the four rows
  (mean, variance, scale, shift), and stores the block of the same rows of the result. So entry (p, q) of the result
  is the normalised, scaled, shifted and rectified entry (p, q) of the linear output, with column q's statistics:
  every block written back is the block of ONE function of the arrays the region finds, and the 50 blocks tile the
  100000 rows (row p lies in the block of point p / 2000).
-/
import proofs.«138176_j46557445489257_1_alg».proof.Proof.Gen.KernelIdeal.Frame
import proofs.«138176_j46557445489257_1_alg».proof.Proof.BnEntry
import Idealize.ShloMosaic.Lib.Pipeline.Value

noncomputable section

namespace Cert.KernelIdeal.BnValue1

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-- The result as one function of the arrays: entry i of the linear output with the statistics of column i 1. -/
def G (y : S100000x512.Idx → EReal) (mu var g be : S1x512.Idx → EReal) : S100000x512.Idx → EReal :=
  fun i => Cert.Spec.bnRelu (y i) (mu (ix2 (0 : Fin 1) (i 1 : Fin 512))) (var (ix2 (0 : Fin 1) (i 1 : Fin 512)))
    (g (ix2 (0 : Fin 1) (i 1 : Fin 512))) (be (ix2 (0 : Fin 1) (i 1 : Fin 512)))

/-- The block indices, decided over the 50 points: the linear output's and the result's block at point t is block
    (t, 0); each of the four rows is block (0, 0) at every point. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Entry (p, q) of the linear output's block at point t is the array's entry in row 2000 t + p, column q. -/
theorem blk0_apply (c : Dev nD) (t : Fin cfg1.N) (p : Fin 2000) (q : Fin 512) (i : S100000x512.Idx)
    (h0 : (i 0).val = t.val * 2000 + p.val) (h1 : (i 1).val = q.val) :
    (iblk1 V c 0 t : Vec Ideal S2000x512 .f32) (ix2 p q) = V c main_v24_0 i := by
  obtain ⟨e0, e1, -⟩ := idx_facts t
  unfold iblk1
  rw [View.read_apply]
  show V c main_v24_0 _ = V c main_v24_0 i
  congr 1
  funext a
  apply Fin.ext
  match a with
  | ⟨0, _⟩ => show win1_0.index t (0 : Fin 2) * 2000 + 1 * p.val = (i 0).val; rw [e0, h0]; omega
  | ⟨1, _⟩ => show win1_0.index t (1 : Fin 2) * 512 + 1 * q.val = (i 1).val; rw [e1, h1]; omega

/-- Entry q of the mean row's block at any point is the row's entry q. -/
theorem row1_apply (c : Dev nD) (t : Fin cfg1.N) (q : Fin 512) :
    (iblk1 V c 1 t : Vec Ideal S1x512 .f32) (ix2 (0 : Fin 1) q) = V c main_v33 (ix2 (0 : Fin 1) q) := by
  obtain ⟨-, -, -, -, e1a, e1b, e2a, e2b, e3a, e3b, e4a, e4b⟩ := idx_facts t
  unfold iblk1
  rw [View.read_apply]
  show V c main_v33 _ = V c main_v33 (ix2 (0 : Fin 1) q)
  congr 1
  funext a
  apply Fin.ext
  match a with
  | ⟨0, _⟩ => show win1_1.index t (0 : Fin 2) * 1 + 1 * (0 : Fin 1).val = (0 : Fin 1).val; rw [e1a]; rfl
  | ⟨1, _⟩ => show win1_1.index t (1 : Fin 2) * 512 + 1 * q.val = q.val; rw [e1b]; omega

/-- Entry q of the variance row's block at any point is the row's entry q. -/
theorem row2_apply (c : Dev nD) (t : Fin cfg1.N) (q : Fin 512) :
    (iblk1 V c 2 t : Vec Ideal S1x512 .f32) (ix2 (0 : Fin 1) q) = V c main_v34 (ix2 (0 : Fin 1) q) := by
  obtain ⟨-, -, -, -, e1a, e1b, e2a, e2b, e3a, e3b, e4a, e4b⟩ := idx_facts t
  unfold iblk1
  rw [View.read_apply]
  show V c main_v34 _ = V c main_v34 (ix2 (0 : Fin 1) q)
  congr 1
  funext a
  apply Fin.ext
  match a with
  | ⟨0, _⟩ => show win1_2.index t (0 : Fin 2) * 1 + 1 * (0 : Fin 1).val = (0 : Fin 1).val; rw [e2a]; rfl
  | ⟨1, _⟩ => show win1_2.index t (1 : Fin 2) * 512 + 1 * q.val = q.val; rw [e2b]; omega

/-- Entry q of the scale row's block at any point is the row's entry q. -/
theorem row3_apply (c : Dev nD) (t : Fin cfg1.N) (q : Fin 512) :
    (iblk1 V c 3 t : Vec Ideal S1x512 .f32) (ix2 (0 : Fin 1) q) = V c main_v35 (ix2 (0 : Fin 1) q) := by
  obtain ⟨-, -, -, -, e1a, e1b, e2a, e2b, e3a, e3b, e4a, e4b⟩ := idx_facts t
  unfold iblk1
  rw [View.read_apply]
  show V c main_v35 _ = V c main_v35 (ix2 (0 : Fin 1) q)
  congr 1
  funext a
  apply Fin.ext
  match a with
  | ⟨0, _⟩ => show win1_3.index t (0 : Fin 2) * 1 + 1 * (0 : Fin 1).val = (0 : Fin 1).val; rw [e3a]; rfl
  | ⟨1, _⟩ => show win1_3.index t (1 : Fin 2) * 512 + 1 * q.val = q.val; rw [e3b]; omega

/-- Entry q of the shift row's block at any point is the row's entry q. -/
theorem row4_apply (c : Dev nD) (t : Fin cfg1.N) (q : Fin 512) :
    (iblk1 V c 4 t : Vec Ideal S1x512 .f32) (ix2 (0 : Fin 1) q) = V c main_v36 (ix2 (0 : Fin 1) q) := by
  obtain ⟨-, -, -, -, e1a, e1b, e2a, e2b, e3a, e3b, e4a, e4b⟩ := idx_facts t
  unfold iblk1
  rw [View.read_apply]
  show V c main_v36 _ = V c main_v36 (ix2 (0 : Fin 1) q)
  congr 1
  funext a
  apply Fin.ext
  match a with
  | ⟨0, _⟩ => show win1_4.index t (0 : Fin 2) * 1 + 1 * (0 : Fin 1).val = (0 : Fin 1).val; rw [e4a]; rfl
  | ⟨1, _⟩ => show win1_4.index t (1 : Fin 2) * 512 + 1 * q.val = q.val; rw [e4b]; omega

/-- What point t writes back is block t of the one function of the arrays. -/
theorem flushed_eq (c : Dev nD) (t : Fin cfg1.N) :
    (dat1 (F := Ideal) V c).flushed 5 t
      = ((cfg1.win 5).blk t).view.read (Elt Ideal) (G (V c main_v24_0) (V c main_v33) (V c main_v34) (V c main_v35) (V c main_v36)) := by
  show (cfg1.win 5).cut (grid1.coords t) ((dat1 V c).after 5 t) = _
  rw [after1_5]
  unfold out1_5
  rw [View.canon_unit_zero hz]
  simp only [View.ld_unit_zero (S := S1x512) hz, View.ld_unit_zero (S := S2000x512) hz]
  obtain ⟨-, -, e2, e3, -⟩ := idx_facts t
  have ht : t.val < 50 := Nat.lt_of_lt_of_eq t.isLt N_1
  funext j
  obtain ⟨p, q, rfl⟩ : ∃ (p : Fin 2000) (q : Fin 512), j = ix2 p q := ⟨j 0, j 1, eq_ix2 j⟩
  have hp : p.val < 2000 := p.isLt
  have hemb : ((cfg1.win 5).blk t).view.emb (ix2 p q)
      = (ix2 (⟨t.val * 2000 + p.val, by omega⟩ : Fin 100000) q : S100000x512.Idx) := by
    funext a
    apply Fin.ext
    match a with
    | ⟨0, _⟩ => show win1_5.index t (0 : Fin 2) * 2000 + 1 * p.val = t.val * 2000 + p.val; rw [e2]; omega
    | ⟨1, _⟩ => show win1_5.index t (1 : Fin 2) * 512 + 1 * q.val = q.val; rw [e3]; omega
  show k1_pay1 (F := Ideal) (iblk1 V c 2 t) (iblk1 V c 0 t) (iblk1 V c 1 t) (iblk1 V c 3 t) (iblk1 V c 4 t) (ix2 p q)
      = G (V c main_v24_0) (V c main_v33) (V c main_v34) (V c main_v35) (V c main_v36) (((cfg1.win 5).blk t).view.emb (ix2 p q))
  rw [hemb]
  refine (BnEntry.pay1_apply (iblk1 V c 2 t) (iblk1 V c 0 t) (iblk1 V c 1 t) (iblk1 V c 3 t) (iblk1 V c 4 t) p q).trans ?_
  rw [blk0_apply V c t p q (ix2 (⟨t.val * 2000 + p.val, by omega⟩ : Fin 100000) q) rfl rfl,
    row1_apply V c t q, row2_apply V c t q, row3_apply V c t q, row4_apply V c t q]
  rfl

/-- An index of the result is in point t's block iff each coordinate is in the block's range on its axis. -/
theorem mem_blk (t : Fin cfg1.N) (i : S100000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v37).slice (win1_5.rect t)).set ↔ _
  rw [View.set_slice_whole, Rect.mem_set_unit]
  exact Iff.rfl

/-- The 50 blocks tile the result: row r lies in the block of point r / 2000, and every point writes back. -/
theorem cover (i : S100000x512.Idx) :
    ∃ t : Fin cfg1.N, (cfg1.win 5).flush t = true ∧ i ∈ ((cfg1.win 5).blk t).view.set := by
  have hi0 : (i 0).val < 100000 := (i 0).isLt
  have hi1 : (i 1).val < 512 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, e2, e3, -⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; rw [e2, ht]; omega
  | ⟨1, _⟩ => show win1_5.index t (1 : Fin 2) * 512 ≤ (i 1).val ∧ (i 1).val < win1_5.index t (1 : Fin 2) * 512 + 512; rw [e3]; omega

/-- The array after the region: the one function of the arrays the region finds. -/
theorem arr_eq (c : Dev nD) :
    (dat1 (F := Ideal) V c).arrAt 5 cfg1.N = G (V c main_v24_0) (V c main_v33) (V c main_v34) (V c main_v35) (V c main_v36) :=
  (dat1 (F := Ideal) V c).arrAt_eq_of_cover 5 (G (V c main_v24_0) (V c main_v33) (V c main_v34) (V c main_v35) (V c main_v36))
    (fun t _ => flushed_eq V c t) cover

/-- Entry (p, q) of the array the region leaves: the linear output's entry (p, q) normalised by column q's mean and
    variance, scaled, shifted and rectified. -/
theorem final (V : (c : Dev nD) → (b : Ref sig .tc) → Buf (Elt Ideal) ((c : Thread nD τ).loc b)) (c : Dev nD) (p : Fin 100000) (q : Fin 512) :
    (Gen.dat1 (F := Ideal) V c).arrAt 5 cfg1.N (ix2 p q)
      = Cert.Spec.bnRelu (V c main_v24_0 (ix2 p q)) (V c main_v33 (ix2 0 q)) (V c main_v34 (ix2 0 q)) (V c main_v35 (ix2 0 q)) (V c main_v36 (ix2 0 q)) :=
  (congrFun (arr_eq V c) (ix2 p q)).trans rfl

end Cert.KernelIdeal.BnValue1

end
-- ==== Proof.Chain1.lean ====
/-
  Layer 1, second half: from the linear output and its column sums to the normalised, rectified activations.

  The first region of the layer left the linear output `y` and the rows `s = ∑ y`, `ss = ∑ y²` (sums over the 100000
  rows, column by column). The host forms the mean `s / 100000` and the variance `ss / 100000 − mean²`; the second region
  normalises every entry of `y` by its column's mean and variance, scales, shifts and rectifies. The reference takes
  the same mean and the variance as the mean of the squared deviations; the two variances are one number when the
  column is real (the hypothesis `hvar`, which the finiteness of the inputs supplies), so the activations of the two
  programs are one array.
-/
import proofs.«138176_j46557445489257_1_alg».proof.Proof.Glue
import proofs.«138176_j46557445489257_1_alg».proof.Proof.Algebra
import proofs.«138176_j46557445489257_1_alg».proof.Proof.BnValue1
import proofs.«138176_j46557445489257_1_alg».proof.Proof.RefLayer1

set_option maxRecDepth 16384

noncomputable section

open scoped BigOperators

namespace Cert.KernelIdeal.Chain1

open Cert.KernelIdeal Cert.KernelIdeal.Gen Cert.KernelIdeal.Glue Idealize.ShloMosaic Idealize.ShloMosaic.TcCoe Idealize.ShloMosaic.ValueIdx
open Idealize.ShloMosaic.StableHlo Idealize.SL.Sem

variable (m : (ℓ : Loc nD τ sig) → Buf (Elt Ideal) ℓ) (ρ : Dev nD → PrngReg) (c : Dev nD)

/-! ## The host stretch between the layer's regions -/

/-- The mean row is the row of column sums divided by the node count. -/
theorem mean_row : (V3 (F := Ideal) m ρ c main_v33 : FVec Ideal S1x512 .f32)
    = rowOf (meanVec (W2 m ρ c (Proc.devRef .tc main_v24_1))) := by
  show StableHlo.after hostOps1 (W2 m ρ c) (Proc.devRef .tc main_v33) = _
  after_results
  rfl

/-- The variance row is the mean of squares minus the squared mean. -/
theorem var_row : (V3 (F := Ideal) m ρ c main_v34 : FVec Ideal S1x512 .f32)
    = rowOf (varVec (W2 m ρ c (Proc.devRef .tc main_v24_1)) (W2 m ρ c (Proc.devRef .tc main_v24_2))) := by
  show StableHlo.after hostOps1 (W2 m ρ c) (Proc.devRef .tc main_v34) = _
  after_results
  rfl

/-- The scale, laid out as a row. -/
theorem scale_row : (V3 (F := Ideal) m ρ c main_v35 : FVec Ideal S1x512 .f32)
    = rowOf (W2 m ρ c (Proc.devRef .tc main_arg6)) := by
  show StableHlo.after hostOps1 (W2 m ρ c) (Proc.devRef .tc main_v35) = _
  after_results
  rfl

/-- The shift, laid out as a row. -/
theorem shift_row : (V3 (F := Ideal) m ρ c main_v36 : FVec Ideal S1x512 .f32)
    = rowOf (W2 m ρ c (Proc.devRef .tc main_arg7)) := by
  show StableHlo.after hostOps1 (W2 m ρ c) (Proc.devRef .tc main_v36) = _
  after_results
  rfl

/-- The stretch does not write the linear output. -/
theorem lin_kept : V3 (F := Ideal) m ρ c main_v24_0 = W2 m ρ c (Proc.devRef .tc main_v24_0) := by
  show StableHlo.after hostOps1 (W2 m ρ c) (Proc.devRef .tc main_v24_0) = _
  host_kept hostOps1

/-- The scale and the shift are still the launch arguments when the stretch reads them. -/
theorem scale_arg : W2 (F := Ideal) m ρ c (Proc.devRef .tc main_arg6) = m ((c.tc : Thread nD τ).loc main_arg6) :=
  (W2_of_ne m ρ c _ (by decide)).trans ((show W1 (F := Ideal) m ρ c _ = W0 m ρ c _ from by host_kept hostOps0).trans rfl)
theorem shift_arg : W2 (F := Ideal) m ρ c (Proc.devRef .tc main_arg7) = m ((c.tc : Thread nD τ).loc main_arg7) :=
  (W2_of_ne m ρ c _ (by decide)).trans ((show W1 (F := Ideal) m ρ c _ = W0 m ρ c _ from by host_kept hostOps0).trans rfl)

/-! ## The activations -/

-- the buffers' types are table look-ups whose cost grows with the buffer's number
set_option maxHeartbeats 2000000 in
/-- The layer's activations are the reference's. -/
theorem act
    (hlin : (W2 (F := Ideal) m ρ c (Proc.devRef .tc main_v24_0) : S100000x512.Idx → EReal) = Cert.ReferenceIdeal.Read.val_main_v26 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)))
    (hsum : ∀ q : Fin 512, (W2 (F := Ideal) m ρ c (Proc.devRef .tc main_v24_1) : S1x512.Idx → EReal) (ix2 0 q)
      = ∑ r : Fin 100000, Cert.ReferenceIdeal.Read.val_main_v26 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (ix2 r q))
    (hsq : ∀ q : Fin 512, (W2 (F := Ideal) m ρ c (Proc.devRef .tc main_v24_2) : S1x512.Idx → EReal) (ix2 0 q)
      = ∑ r : Fin 100000, Cert.ReferenceIdeal.Read.val_main_v26 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (ix2 r q) * Cert.ReferenceIdeal.Read.val_main_v26 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (ix2 r q))
    (hvar : ∀ q : Fin 512, Cert.ReferenceIdeal.Read.val_main_v36 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (ix1 q) = Cert.Algebra.varSq (fun r : Fin 100000 => Cert.ReferenceIdeal.Read.val_main_v26 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (ix2 r q))) :
    (W4 (F := Ideal) m ρ c (Proc.devRef .tc main_v37) : S100000x512.Idx → EReal) = Cert.ReferenceIdeal.Read.val_main_v52 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have harr : W4 (F := Ideal) m ρ c (Proc.devRef .tc main_v37) = (dat1 (V3 m ρ) c).arrAt 5 cfg1.N := W4_arr m ρ c 5
  rw [harr]
  funext i
  obtain ⟨p, q, rfl⟩ : ∃ (p : Fin 100000) (q : Fin 512), i = ix2 p q := ⟨i 0, i 1, eq_ix2 i⟩
  have hmean : Cert.ReferenceIdeal.Read.val_main_v29 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (ix1 q) = Cert.Algebra.mean (fun r : Fin 100000 => Cert.ReferenceIdeal.Read.val_main_v26 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (ix2 r q)) :=
    Cert.ReferenceIdeal.RefValue.mean1_apply (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) q
  have e0 : (V3 (F := Ideal) m ρ c main_v24_0 : S100000x512.Idx → EReal) (ix2 p q) = Cert.ReferenceIdeal.Read.val_main_v26 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (ix2 p q) := by
    rw [lin_kept, hlin]
  have e1 : (V3 (F := Ideal) m ρ c main_v33 : S1x512.Idx → EReal) (ix2 0 q) = Cert.ReferenceIdeal.Read.val_main_v29 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (ix1 q) := by
    rw [mean_row, rowOf_apply, meanVec_apply, hsum, hmean]; rfl
  have e2 : (V3 (F := Ideal) m ρ c main_v34 : S1x512.Idx → EReal) (ix2 0 q) = Cert.ReferenceIdeal.Read.val_main_v36 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (ix1 q) := by
    rw [var_row, rowOf_apply, varVec_apply, hsum, hsq, hvar]; rfl
  have e3 : (V3 (F := Ideal) m ρ c main_v35 : S1x512.Idx → EReal) (ix2 0 q) = (m ((c.tc : Thread nD τ).loc main_arg6)) (ix1 q) := by
    rw [scale_row, rowOf_apply, scale_arg]
  have e4 : (V3 (F := Ideal) m ρ c main_v36 : S1x512.Idx → EReal) (ix2 0 q) = (m ((c.tc : Thread nD τ).loc main_arg7)) (ix1 q) := by
    rw [shift_row, rowOf_apply, shift_arg]
  rw [Cert.KernelIdeal.BnValue1.final (V3 m ρ) c p q, e0, e1, e2, e3, e4]
  exact (Cert.ReferenceIdeal.RefValue.act1_apply (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) p q).symm

end Cert.KernelIdeal.Chain1

end
-- ==== Proof.RefLayer2.lean ====
/-
  The second layer of the reference network, entry by entry, on the extended reals.

  With the second aggregated input kept as an array, the linear stage's entry (p, q) is row p of that array against column
  q of the second weights plus the second bias at q; the column mean and the column variance are the sums over the 100000
  rows divided by the node count; the activated entry is the batch-norm expression of the linear entry, its column's mean
  and variance, and the second learned scale and shift at q, rectified at zero.
-/
import proofs.«138176_j46557445489257_1_alg».proof.Proof.Gen.ReferenceIdeal.Read
import proofs.«138176_j46557445489257_1_alg».proof.Proof.Spec

noncomputable section

open scoped BigOperators

namespace Cert.ReferenceIdeal.RefValue

open Cert.ReferenceIdeal Cert.ReferenceIdeal.Read Idealize.ShloMosaic Idealize.ShloMosaic.ValueIdx

variable (x0 : (⟨S100000x1, .i32⟩ : BufTy).Contents (Elt Ideal)) (x1 : (⟨S2x250000, .i32⟩ : BufTy).Contents (Elt Ideal))
  (x3 : (⟨S1000x256, .f32⟩ : BufTy).Contents (Elt Ideal)) (x4 : (⟨S256x512, .f32⟩ : BufTy).Contents (Elt Ideal))
  (x5 x6 x7 : (⟨S512, .f32⟩ : BufTy).Contents (Elt Ideal)) (x8 : (⟨S512x512, .f32⟩ : BufTy).Contents (Elt Ideal))
  (x9 x10 x11 : (⟨S512, .f32⟩ : BufTy).Contents (Elt Ideal))

/-- The linear stage at (p, q): the contraction over the 512 input features plus the bias, the bias being read through
    its two row spreads at q. -/
theorem lin2_apply (p : Fin 100000) (q : Fin 512) :
    val_main_v71 (F := Ideal) x0 x1 x3 x4 x5 x6 x7 x8 x9 (ix2 p q)
      = Cert.Spec.linE (fun k : Fin 512 => val_main_v67 (F := Ideal) x0 x1 x3 x4 x5 x6 x7 (ix2 p k)) (fun k : Fin 512 => x8 (ix2 k q)) (x9 (ix1 q)) := by
  have el : ∀ k : Fin 512, lidx_main_v68 (ix2 p q) k = ix2 p k := fun k =>
    funext fun a => Fin.ext (by match a with | ⟨0, _⟩ => rfl | ⟨1, _⟩ => rfl)
  have er : ∀ k : Fin 512, ridx_main_v68 (ix2 p q) k = ix2 k q := fun k =>
    funext fun a => Fin.ext (by match a with | ⟨0, _⟩ => rfl | ⟨1, _⟩ => rfl)
  have eb : idx_main_v69 (idx_main_v70 (ix2 p q)) = ix1 q :=
    funext fun a => Fin.ext (by match a with | ⟨0, _⟩ => rfl)
  rw [val_main_v71_apply, val_main_v68_apply, val_main_v70_apply, val_main_v69_apply]
  simp only [el, er, eb, Ideal.addf_def]
  rfl

/-- The column mean at q: the sum of the linear stage down column q, started from the zero word, over the node count
    (the printed word spread over the 512 columns). -/
theorem mean2_apply (q : Fin 512) :
    val_main_v74 (F := Ideal) x0 x1 x3 x4 x5 x6 x7 x8 x9 (ix1 q)
      = Ideal.div (∑ r : Fin 100000, val_main_v71 (F := Ideal) x0 x1 x3 x4 x5 x6 x7 x8 x9 (ix2 r q)) Cert.Spec.nNodes := by
  have es : ∀ k : Fin 100000, idx_main_v72 (ix1 q) k = ix2 k q := fun k =>
    funext fun a => Fin.ext (by match a with | ⟨0, _⟩ => rfl | ⟨1, _⟩ => rfl)
  rw [val_main_v74_apply, val_main_v72_apply, val_main_v73_apply, val_main_cst_11_apply, val_main_cst_12_apply]
  simp only [es, Ideal.hostDivf_def, Ideal.ofBits_def, Ideal.ofBits_zero_f32, zero_add]
  rfl

/-- The column variance at q: the sum down column q of the squared deviation of the linear stage from the column mean
    (the mean being read through its two row spreads), started from the zero word, over the node count. -/
theorem var2_apply (q : Fin 512) :
    val_main_v81 (F := Ideal) x0 x1 x3 x4 x5 x6 x7 x8 x9 (ix1 q)
      = Ideal.div (∑ r : Fin 100000,
          (val_main_v71 (F := Ideal) x0 x1 x3 x4 x5 x6 x7 x8 x9 (ix2 r q) - val_main_v74 (F := Ideal) x0 x1 x3 x4 x5 x6 x7 x8 x9 (ix1 q))
            * (val_main_v71 (F := Ideal) x0 x1 x3 x4 x5 x6 x7 x8 x9 (ix2 r q) - val_main_v74 (F := Ideal) x0 x1 x3 x4 x5 x6 x7 x8 x9 (ix1 q)))
          Cert.Spec.nNodes := by
  have es : ∀ k : Fin 100000, idx_main_v79 (ix1 q) k = ix2 k q := fun k =>
    funext fun a => Fin.ext (by match a with | ⟨0, _⟩ => rfl | ⟨1, _⟩ => rfl)
  have em : ∀ k : Fin 100000, idx_main_v75 (idx_main_v76 (ix2 k q)) = ix1 q := fun k =>
    funext fun a => Fin.ext (by match a with | ⟨0, _⟩ => rfl)
  rw [val_main_v81_apply, val_main_v79_apply, val_main_v80_apply, val_main_cst_13_apply, val_main_cst_14_apply]
  simp only [val_main_v78_apply, val_main_v77_apply, val_main_v76_apply, val_main_v75_apply, es, em,
    Ideal.hostDivf_def, Ideal.mulf_def, Ideal.subf_def, Ideal.ofBits_def, Ideal.ofBits_zero_f32, zero_add]
  rfl

/-- The activated entry at (p, q): the deviation of the linear entry from its column's mean, times the reciprocal square
    root of the column's variance plus the stabiliser, times the learned scale at q, plus the learned shift at q, rectified
    at the zero word. The mean, the reciprocal square root, the scale and the shift are each read through two row spreads. -/
theorem act2_apply (p : Fin 100000) (q : Fin 512) :
    val_main_v97 (F := Ideal) x0 x1 x3 x4 x5 x6 x7 x8 x9 x10 x11 (ix2 p q)
      = Cert.Spec.bnRelu (val_main_v71 (F := Ideal) x0 x1 x3 x4 x5 x6 x7 x8 x9 (ix2 p q)) (val_main_v74 (F := Ideal) x0 x1 x3 x4 x5 x6 x7 x8 x9 (ix1 q))
          (val_main_v81 (F := Ideal) x0 x1 x3 x4 x5 x6 x7 x8 x9 (ix1 q)) (x10 (ix1 q)) (x11 (ix1 q)) := by
  have em : idx_main_v82 (idx_main_v83 (ix2 p q)) = ix1 q :=
    funext fun a => Fin.ext (by match a with | ⟨0, _⟩ => rfl)
  have er : idx_main_v88 (idx_main_v89 (ix2 p q)) = ix1 q :=
    funext fun a => Fin.ext (by match a with | ⟨0, _⟩ => rfl)
  have eg : idx_main_v91 (idx_main_v92 (ix2 p q)) = ix1 q :=
    funext fun a => Fin.ext (by match a with | ⟨0, _⟩ => rfl)
  have eb : idx_main_v94 (idx_main_v95 (ix2 p q)) = ix1 q :=
    funext fun a => Fin.ext (by match a with | ⟨0, _⟩ => rfl)
  rw [val_main_v97_apply, val_main_v96_apply, val_main_v93_apply, val_main_v90_apply, val_main_v84_apply,
    val_main_v83_apply, val_main_v82_apply, val_main_v89_apply, val_main_v88_apply, val_main_v87_apply,
    val_main_v86_apply, val_main_v85_apply, val_main_cst_15_apply, val_main_v92_apply, val_main_v91_apply,
    val_main_v95_apply, val_main_v94_apply, val_main_call1_v0_apply, val_main_call1_cst_apply]
  simp only [em, er, eg, eb, Ideal.maximumf_def, Ideal.addf_def, Ideal.mulf_def, Ideal.subf_def,
    Ideal.hostUnary_rsqrt_def, Ideal.ofBits_def]
  rfl

end Cert.ReferenceIdeal.RefValue

end
-- ==== Proof.Chain2Host.lean ====
/-
  Between the layers: the aggregated input of the second layer, its weights and its bias.

  The host gathers the first layer's activations along the edge sources, adds them up at the edge targets and adds the
  activations themselves. The edge rows are the two rows of the edge array, sliced and laid out as vectors before the
  first region and written by nothing since. The reference does the same operations on the same arrays, so once the
  activations are the reference's (the hypothesis `hact`) the aggregated input is the reference's, as whole arrays: no
  gather and no scatter is ever read at an index. The weights are the launch argument, the bias the launch argument
  laid out as a row.
-/
import proofs.«138176_j46557445489257_1_alg».proof.Proof.Glue
import proofs.«138176_j46557445489257_1_alg».proof.Proof.RefLayer2

set_option maxRecDepth 16384

noncomputable section

open scoped BigOperators

namespace Cert.KernelIdeal.Chain2

open Cert.KernelIdeal Cert.KernelIdeal.Gen Cert.KernelIdeal.Glue Idealize.ShloMosaic Idealize.ShloMosaic.TcCoe Idealize.ShloMosaic.ValueIdx
open Idealize.ShloMosaic.StableHlo Idealize.SL.Sem

variable (m : (ℓ : Loc nD τ sig) → Buf (Elt Ideal) ℓ) (ρ : Dev nD → PrngReg) (c : Dev nD)

/-! ## The edge rows -/

set_option maxHeartbeats 2000000 in
/-- The row of edge sources, as the stretch before the first region leaves it: the first row of the edge array, laid
    out as a vector. -/
theorem src_at1 : (W1 (F := Ideal) m ρ c (Proc.devRef .tc main_v2) : S250000.Idx → BitVec 32)
    = Cert.ReferenceIdeal.Read.val_main_v54 (F := Ideal) (m ((c.tc : Thread nD τ).loc main_arg1)) := by
  show StableHlo.after hostOps0 (W0 m ρ c) (Proc.devRef .tc main_v2) = _
  after_results_simp
  rfl

set_option maxHeartbeats 2000000 in
/-- The row of edge targets: the second row of the edge array, laid out as a vector. -/
theorem dst_at1 : (W1 (F := Ideal) m ρ c (Proc.devRef .tc main_v4) : S250000.Idx → BitVec 32)
    = Cert.ReferenceIdeal.Read.val_main_v56 (F := Ideal) (m ((c.tc : Thread nD τ).loc main_arg1)) := by
  show StableHlo.after hostOps0 (W0 m ρ c) (Proc.devRef .tc main_v4) = _
  after_results_simp
  rfl

/-- Neither the first layer's regions nor the stretch between them writes the edge rows. -/
theorem src_at4 : (W4 (F := Ideal) m ρ c (Proc.devRef .tc main_v2) : S250000.Idx → BitVec 32)
    = Cert.ReferenceIdeal.Read.val_main_v54 (F := Ideal) (m ((c.tc : Thread nD τ).loc main_arg1)) :=
  (W4_of_ne m ρ c _ (by decide)).trans ((show W3 (F := Ideal) m ρ c _ = W2 m ρ c _ from by host_kept hostOps1).trans
    ((W2_of_ne m ρ c _ (by decide)).trans (src_at1 m ρ c)))

theorem dst_at4 : (W4 (F := Ideal) m ρ c (Proc.devRef .tc main_v4) : S250000.Idx → BitVec 32)
    = Cert.ReferenceIdeal.Read.val_main_v56 (F := Ideal) (m ((c.tc : Thread nD τ).loc main_arg1)) :=
  (W4_of_ne m ρ c _ (by decide)).trans ((show W3 (F := Ideal) m ρ c _ = W2 m ρ c _ from by host_kept hostOps1).trans
    ((W2_of_ne m ρ c _ (by decide)).trans (dst_at1 m ρ c)))

/-! ## The aggregated input of the second layer -/

set_option maxHeartbeats 2000000 in
/-- The stretch between the layers gathers the activations along the edge sources, adds them up at the edge targets and
    adds the activations themselves: the same operations, on the same arrays, as the reference's. -/
theorem agg2 (hact : (W4 (F := Ideal) m ρ c (Proc.devRef .tc main_v37) : S100000x512.Idx → EReal) = Cert.ReferenceIdeal.Read.val_main_v52 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :
    (V5 (F := Ideal) m ρ c main_v48 : S100000x512.Idx → EReal) = Cert.ReferenceIdeal.Read.val_main_v67 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps2 (W4 m ρ c) (Proc.devRef .tc main_v48) = _
  after_results
  rw [hact, src_at4, dst_at4]
  rfl

/-! ## The weights and the bias -/

/-- The second layer's weights are still the launch argument when the second layer's first region reads them. -/
theorem weights_at5 : V5 (F := Ideal) m ρ c main_arg8 = (m ((c.tc : Thread nD τ).loc main_arg8)) :=
  (show W5 (F := Ideal) m ρ c _ = W4 m ρ c _ from by host_kept hostOps2).trans ((W4_of_ne m ρ c _ (by decide)).trans ((show W3 (F := Ideal) m ρ c _ = W2 m ρ c _ from by host_kept hostOps1).trans
    ((W2_of_ne m ρ c _ (by decide)).trans ((show W1 (F := Ideal) m ρ c _ = W0 m ρ c _ from by host_kept hostOps0).trans rfl))))

/-- The bias, laid out as a row. -/
theorem bias_row : (V5 (F := Ideal) m ρ c main_v49 : FVec Ideal S1x512 .f32) = rowOf (W4 m ρ c (Proc.devRef .tc main_arg9)) := by
  show StableHlo.after hostOps2 (W4 m ρ c) (Proc.devRef .tc main_v49) = _
  after_results
  rfl

/-- The bias is still the launch argument when the stretch reads it. -/
theorem bias_arg : W4 (F := Ideal) m ρ c (Proc.devRef .tc main_arg9) = (m ((c.tc : Thread nD τ).loc main_arg9)) :=
  (W4_of_ne m ρ c _ (by decide)).trans ((show W3 (F := Ideal) m ρ c _ = W2 m ρ c _ from by host_kept hostOps1).trans
    ((W2_of_ne m ρ c _ (by decide)).trans ((show W1 (F := Ideal) m ρ c _ = W0 m ρ c _ from by host_kept hostOps0).trans rfl)))

end Cert.KernelIdeal.Chain2

end
-- ==== Proof.LinValue2Entry.lean ====
/-
  The arithmetic of the second linear layer's block, entry by entry, over the extended reals.

  A block of 2000 rows of the aggregated input (2000 x 512), the weight matrix (512 x 512) and the bias row (1 x 512)
  give the block of the linear output: entry (p, q) is row p of the input block against column q of the weights plus
  the bias at q (the two narrowings are the identity on extended reals; the product is accumulated from the zero splat).
  The two statistic rows add to what they held, at column q, the sum down column q of the block and the sum down
  column q of its entrywise square. The rows stored at the first point are zero.
-/
import proofs.«138176_j46557445489257_1_alg».proof.Proof.Gen.KernelIdeal.Skeleton
import proofs.«138176_j46557445489257_1_alg».proof.Proof.Spec
import proofs.«138176_j46557445489257_1_alg».proof.Proof.LibMatmulAt
import proofs.«138176_j46557445489257_1_alg».proof.Proof.LibColReduce
import Idealize.ShloMosaic.Lib.ValueLayout
import Idealize.ShloMosaic.Lib.Pipeline.Value

noncomputable section

open scoped BigOperators

namespace Cert.KernelIdeal.LinValue2

open Idealize.ShloMosaic Idealize.ShloMosaic.ValueIdx Cert.KernelIdeal Cert.KernelIdeal.Gen

/-- Entry (p, q) of the linear block: row p of the input block against column q of the weights, plus the bias at q. -/
theorem pay1_apply (x0 : Vec Ideal S2000x512 .f32) (x1 : Vec Ideal S512x512 .f32) (x2 : Vec Ideal S1x512 .f32)
    (p : Fin 2000) (q : Fin 512) :
    k2_pay1 (F := Ideal) x0 x1 x2 (ix2 p q)
      = Cert.Spec.linE (fun k : Fin 512 => x0 (ix2 p k)) (fun k : Fin 512 => x1 (ix2 k q)) (x2 (ix2 0 q)) := by
  have e0 : shapeCast S2000x512 x0 shapeCasts_S2000x512_S2000x512 = x0 := shapeCast_self x0 _
  have e2 : shapeCast S1x512 x2 shapeCasts_S1x512_S1x512 = x2 := shapeCast_self x2 _
  unfold k2_pay1 Cert.Spec.linE
  dsimp only
  rw [e0, e2]
  exact congrArg₂ (· + ·)
    (Cert.LibMatmulAt.matmul_zero_apply dot_S2000x512_S512x512_S2000x512_1_0_0_1_n_n rfl rfl rfl rfl rfl rfl none
      (truncf .bf16 x0 bitsLt_bf16_f32) (truncf .bf16 x1 bitsLt_bf16_f32) p q)
    (broadcastTo_1b_ab_apply x2 broadcasts_S1x512_S2000x512 p q)

/-- The zero row stored at the first point reads zero at every column. -/
theorem pay2_apply (q : Fin 512) : k2_pay2 (F := Ideal) (ix2 0 q) = 0 := Ideal.ofBits_zero_f32

/-- The second zero row likewise. -/
theorem pay3_apply (q : Fin 512) : k2_pay3 (F := Ideal) (ix2 0 q) = 0 := Ideal.ofBits_zero_f32

/-- The row of column sums after a point: what it held at column q plus the sum down column q of the linear block. -/
theorem pay4_apply (x0 : Vec Ideal S2000x512 .f32) (x1 : Vec Ideal S512x512 .f32) (x2 : Vec Ideal S1x512 .f32)
    (xo : Vec Ideal S1x512 .f32) (q : Fin 512) :
    k2_pay4 (F := Ideal) x0 x1 x2 xo (ix2 0 q)
      = xo (ix2 0 q) + ∑ j : Fin 2000, k2_pay1 (F := Ideal) x0 x1 x2 (ix2 j q) := by
  unfold k2_pay4
  dsimp only
  exact congrArg₂ (· + ·) (congrFun (shapeCast_self xo shapeCasts_S1x512_S1x512) (ix2 0 q))
    ((shapeCast_a_1a_apply _ shapeCasts_S512_S1x512 0 q).trans
      (Cert.LibColReduce.colSum_f32 (k2_pay1 (F := Ideal) x0 x1 x2) reduces_S2000x512_S512 (.inl rfl) rfl q))

/-- The row of column sums of squares after a point: what it held at column q plus the sum down column q of the
    entrywise square of the linear block. -/
theorem pay5_apply (x0 : Vec Ideal S2000x512 .f32) (x1 : Vec Ideal S512x512 .f32) (x2 : Vec Ideal S1x512 .f32)
    (xo : Vec Ideal S1x512 .f32) (q : Fin 512) :
    k2_pay5 (F := Ideal) x0 x1 x2 xo (ix2 0 q)
      = xo (ix2 0 q) + ∑ j : Fin 2000, k2_pay1 (F := Ideal) x0 x1 x2 (ix2 j q) * k2_pay1 (F := Ideal) x0 x1 x2 (ix2 j q) := by
  unfold k2_pay5
  dsimp only
  exact congrArg₂ (· + ·) (congrFun (shapeCast_self xo shapeCasts_S1x512_S1x512) (ix2 0 q))
    ((shapeCast_a_1a_apply _ shapeCasts_S512_S1x512 0 q).trans
      (Cert.LibColReduce.colSum_f32 (mulf (k2_pay1 (F := Ideal) x0 x1 x2) (k2_pay1 (F := Ideal) x0 x1 x2))
        reduces_S2000x512_S512 (.inl rfl) rfl q))

end Cert.KernelIdeal.LinValue2

end
-- ==== Proof.LinValue2Pieces.lean ====
/-
  What each control case of the linear layer's body leaves in its three output buffers, as the block arithmetic of the
  buffers it read.

  In both cases the linear output's buffer ends at the linear block of the three input blocks. At the first point the
  two statistic rows are first set to the zero rows and then updated from them; at every later point they are updated
  from what they held when the point began. Each buffer is covered by its last whole store, whose value is read here.
-/
import proofs.«138176_j46557445489257_1_alg».proof.Proof.Gen.KernelIdeal.Frame
import Idealize.ShloMosaic.Lib.Pipeline.Value

noncomputable section

namespace Cert.KernelIdeal.LinValue2

open Idealize.ShloMosaic Idealize.ShloMosaic.TcCoe Idealize.SL.Sem Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- First point, linear output: the linear block of the input blocks. -/
theorem outA3 (c : Dev nD) (i : grid0.Coords) (a1 : Memref sig .tc .vmem S2000x512 .f32) (h1 : a1.IsWhole) (a2 : Memref sig .tc .vmem S512x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : cond2_0 i) (x0 : Vec F S2000x512 .f32) (x1 : Vec F S512x512 .f32) (x2 : Vec F S1x512 .f32) :
    out2_A_3 c i a1 h1 a2 h2 a3 h3 a4 h4 a5 h5 a6 h6 hc x0 x1 x2 = k2_pay1 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  try sl_unfold_words
  rw [View.canon_unit_zero hz]
  simp only [View.readAt_eq_ld, h1.read_unread, h2.read_unread, h3.read_unread, h5.read_unread, h6.read_unread, View.ld_unit_zero (S := S2000x512) hz, View.ld_unit_zero (S := S512x512) hz, View.ld_unit_zero (S := S1x512) hz]

/-- First point, row of sums: the update of the zero row. -/
theorem outA4 (c : Dev nD) (i : grid0.Coords) (a1 : Memref sig .tc .vmem S2000x512 .f32) (h1 : a1.IsWhole) (a2 : Memref sig .tc .vmem S512x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : cond2_0 i) (x0 : Vec F S2000x512 .f32) (x1 : Vec F S512x512 .f32) (x2 : Vec F S1x512 .f32) :
    out2_A_4 c i a1 h1 a2 h2 a3 h3 a4 h4 a5 h5 a6 h6 hc x0 x1 x2 = k2_pay4 x0 x1 x2 (k2_pay2 (F := F)) := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x512) hz, View.readCov_unit_zero (S := S1x512) _ hz]
  simp only [View.readAt_eq_ld, h1.read_unread, h2.read_unread, h3.read_unread, h5.read_unread, h6.read_unread, View.ld_unit_zero (S := S2000x512) hz, View.ld_unit_zero (S := S512x512) hz, View.ld_unit_zero (S := S1x512) hz]

/-- First point, row of sums of squares: the update of the zero row. -/
theorem outA5 (c : Dev nD) (i : grid0.Coords) (a1 : Memref sig .tc .vmem S2000x512 .f32) (h1 : a1.IsWhole) (a2 : Memref sig .tc .vmem S512x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : cond2_0 i) (x0 : Vec F S2000x512 .f32) (x1 : Vec F S512x512 .f32) (x2 : Vec F S1x512 .f32) :
    out2_A_5 c i a1 h1 a2 h2 a3 h3 a4 h4 a5 h5 a6 h6 hc x0 x1 x2 = k2_pay5 x0 x1 x2 (k2_pay3 (F := F)) := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x512) hz, View.readCov_unit_zero (S := S1x512) _ hz]
  simp only [View.readAt_eq_ld, h1.read_unread, h2.read_unread, h3.read_unread, h5.read_unread, h6.read_unread, View.ld_unit_zero (S := S2000x512) hz, View.ld_unit_zero (S := S512x512) hz, View.ld_unit_zero (S := S1x512) hz]

/-- Later points, linear output: the linear block of the input blocks. -/
theorem outB3 (c : Dev nD) (i : grid0.Coords) (a1 : Memref sig .tc .vmem S2000x512 .f32) (h1 : a1.IsWhole) (a2 : Memref sig .tc .vmem S512x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : ¬cond2_0 i) (x0 : Vec F S2000x512 .f32) (x1 : Vec F S512x512 .f32) (x2 : Vec F S1x512 .f32) (xo4 xo5 : Vec F S1x512 .f32) :
    out2_B_3 c i a1 h1 a2 h2 a3 h3 a4 h4 a5 h5 a6 h6 hc x0 x1 x2 xo4 xo5 = k2_pay1 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  try sl_unfold_words
  rw [View.canon_unit_zero hz]
  simp only [View.readAt_eq_ld, h1.read_unread, h2.read_unread, h3.read_unread, h5.read_unread, h6.read_unread, View.ld_unit_zero (S := S2000x512) hz, View.ld_unit_zero (S := S512x512) hz, View.ld_unit_zero (S := S1x512) hz]

/-- Later points, row of sums: the update of what the row held. -/
theorem outB4 (c : Dev nD) (i : grid0.Coords) (a1 : Memref sig .tc .vmem S2000x512 .f32) (h1 : a1.IsWhole) (a2 : Memref sig .tc .vmem S512x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : ¬cond2_0 i) (x0 : Vec F S2000x512 .f32) (x1 : Vec F S512x512 .f32) (x2 : Vec F S1x512 .f32) (xo4 xo5 : Vec F S1x512 .f32) :
    out2_B_4 c i a1 h1 a2 h2 a3 h3 a4 h4 a5 h5 a6 h6 hc x0 x1 x2 xo4 xo5 = k2_pay4 x0 x1 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  try sl_unfold_words
  rw [View.canon_unit_zero hz]
  simp only [View.readAt_eq_ld, h1.read_unread, h2.read_unread, h3.read_unread, h5.read_unread, h6.read_unread, View.ld_unit_zero (S := S2000x512) hz, View.ld_unit_zero (S := S512x512) hz, View.ld_unit_zero (S := S1x512) hz]

/-- Later points, row of sums of squares: the update of what the row held. -/
theorem outB5 (c : Dev nD) (i : grid0.Coords) (a1 : Memref sig .tc .vmem S2000x512 .f32) (h1 : a1.IsWhole) (a2 : Memref sig .tc .vmem S512x512 .f32) (h2 : a2.IsWhole) (a3 : Memref sig .tc .vmem S1x512 .f32) (h3 : a3.IsWhole) (a4 : Memref sig .tc .vmem S2000x512 .f32) (h4 : a4.IsWhole) (a5 : Memref sig .tc .vmem S1x512 .f32) (h5 : a5.IsWhole) (a6 : Memref sig .tc .vmem S1x512 .f32) (h6 : a6.IsWhole) (hc : ¬cond2_0 i) (x0 : Vec F S2000x512 .f32) (x1 : Vec F S512x512 .f32) (x2 : Vec F S1x512 .f32) (xo4 xo5 : Vec F S1x512 .f32) :
    out2_B_5 c i a1 h1 a2 h2 a3 h3 a4 h4 a5 h5 a6 h6 hc x0 x1 x2 xo4 xo5 = k2_pay5 x0 x1 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  try sl_unfold_words
  rw [View.canon_unit_zero hz]
  simp only [View.readAt_eq_ld, h1.read_unread, h2.read_unread, h3.read_unread, h5.read_unread, h6.read_unread, View.ld_unit_zero (S := S2000x512) hz, View.ld_unit_zero (S := S512x512) hz, View.ld_unit_zero (S := S1x512) hz]

end Cert.KernelIdeal.LinValue2

end
-- ==== Proof.LinValue2Blocks.lean ====
/-
  The linear layer's region, block by block.

  At grid point t the input window holds rows 2000 t .. 2000 t + 1999 of the aggregated input, the weight and bias
  windows hold their whole arrays. So after the body at point t the linear output's buffer holds, at (j, q), the linear
  layer's entry at row 2000 t + j and column q, in either control case.
-/
import proofs.«138176_j46557445489257_1_alg».proof.Proof.LinValue2Entry
import proofs.«138176_j46557445489257_1_alg».proof.Proof.LinValue2Pieces
import Idealize.ShloMosaic.Lib.Pipeline.Value

noncomputable section

open scoped BigOperators

namespace Cert.KernelIdeal.LinValue2

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The linear layer's entry at row r and column q, of the arrays the region finds. -/
abbrev lin2 (c : Dev nD) (r : Fin 100000) (q : Fin 512) : EReal :=
  Cert.Spec.linE (fun k : Fin 512 => V c main_v48 (ix2 r k)) (fun k : Fin 512 => V c main_arg8 (ix2 k q)) (V c main_v49 (ix2 0 q))

/-- The index maps over the grid: the input and the linear output move with the point along the rows; the weights, the
    bias and the two statistic rows stay at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The input block at point t reads rows 2000 t + j of the input array. -/
theorem iblk_0_apply (c : Dev nD) (t : Fin cfg2.N) (j : Fin 2000) (k : Fin 512) (r : Fin 100000)
    (hr : r.val = 2000 * t.val + j.val) :
    (iblk2 V c 0 t : Vec Ideal S2000x512 .f32) (ix2 j k) = V c main_v48 (ix2 r k) := by
  obtain ⟨e0, e1, -⟩ := idx_facts t
  unfold iblk2
  rw [View.read_apply]
  show V c main_v48 _ = V c main_v48 _
  refine congrArg (V c main_v48) (funext fun a => Fin.ext ?_)
  match a with
  | ⟨0, _⟩ => show win2_0.index t 0 * 2000 + 1 * j.val = r.val; rw [e0, hr]; omega
  | ⟨1, _⟩ => show win2_0.index t 1 * 512 + 1 * k.val = k.val; rw [e1]; omega

/-- The weight block at every point is the weight array. -/
theorem iblk_1_apply (c : Dev nD) (t : Fin cfg2.N) (k : Fin 512) (q : Fin 512) :
    (iblk2 V c 1 t : Vec Ideal S512x512 .f32) (ix2 k q) = V c main_arg8 (ix2 k q) := by
  obtain ⟨-, -, e0, e1, -⟩ := idx_facts t
  unfold iblk2
  rw [View.read_apply]
  show V c main_arg8 _ = V c main_arg8 _
  refine congrArg (V c main_arg8) (funext fun a => Fin.ext ?_)
  match a with
  | ⟨0, _⟩ => show win2_1.index t 0 * 512 + 1 * k.val = k.val; rw [e0]; omega
  | ⟨1, _⟩ => show win2_1.index t 1 * 512 + 1 * q.val = q.val; rw [e1]; omega

/-- The bias block at every point is the bias row. -/
theorem iblk_2_apply (c : Dev nD) (t : Fin cfg2.N) (q : Fin 512) :
    (iblk2 V c 2 t : Vec Ideal S1x512 .f32) (ix2 0 q) = V c main_v49 (ix2 0 q) := by
  obtain ⟨-, -, -, -, e0, e1, -⟩ := idx_facts t
  unfold iblk2
  rw [View.read_apply]
  show V c main_v49 _ = V c main_v49 _
  refine congrArg (V c main_v49) (funext fun a => Fin.ext ?_)
  match a with
  | ⟨0, _⟩ => show win2_2.index t 0 * 1 + 1 * 0 = 0; rw [e0]
  | ⟨1, _⟩ => show win2_2.index t 1 * 512 + 1 * q.val = q.val; rw [e1]; omega

/-- A linear layer's entry depends only on the entries of its row, its column and its bias. -/
theorem linE_congr {K : ℕ} {x x' w w' : Fin K → EReal} {b b' : EReal} (hx : ∀ k, x k = x' k) (hw : ∀ k, w k = w' k)
    (hb : b = b') : Cert.Spec.linE x w b = Cert.Spec.linE x' w' b' := by
  rw [funext hx, funext hw, hb]

/-- The linear block of point t's blocks, at (j, q), is the layer's entry at row 2000 t + j and column q. -/
theorem blk_lin (c : Dev nD) (t : Fin cfg2.N) (j : Fin 2000) (q : Fin 512) (r : Fin 100000)
    (hr : r.val = 2000 * t.val + j.val) :
    k2_pay1 (F := Ideal) (iblk2 V c 0 t) (iblk2 V c 1 t) (iblk2 V c 2 t) (ix2 j q) = lin2 V c r q := by
  refine (pay1_apply (iblk2 V c 0 t) (iblk2 V c 1 t) (iblk2 V c 2 t) j q).trans ?_
  exact linE_congr (fun k => iblk_0_apply V c t j k r hr) (fun k => iblk_1_apply V c t k q) (iblk_2_apply V c t q)

/-- What the linear output's buffer holds after the body at point t, in either control case: the linear block of the
    point's blocks. -/
theorem out3_eq (c : Dev nD) (t : Fin cfg2.N) :
    (outsAt2 (F := Ideal) V c t.val t.isLt).1
      = k2_pay1 (F := Ideal) (iblk2 V c 0 t) (iblk2 V c 1 t) (iblk2 V c 2 t) := by
  by_cases h0 : t.val % 50 = 0
  · rw [outsAt2_A V c t h0]
    dsimp only
    exact (outA3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0)
        (iblk2 V c 0 t) (iblk2 V c 1 t) (iblk2 V c 2 t))
  · rw [outsAt2_B V c t h0]
    dsimp only
    exact (outB3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h))
        (iblk2 V c 0 t) (iblk2 V c 1 t) (iblk2 V c 2 t)
        (outsAt2 V c (t.val - 1) (Nat.lt_of_le_of_lt (Nat.sub_le _ _) t.isLt)).2.1
        (outsAt2 V c (t.val - 1) (Nat.lt_of_le_of_lt (Nat.sub_le _ _) t.isLt)).2.2)

end Cert.KernelIdeal.LinValue2

end
-- ==== Proof.LinValue2Lin.lean ====
/-
  The linear output array after the region.

  Every point writes its block back: rows 2000 t .. 2000 t + 1999 of the array, all 512 columns. The blocks of the 50
  points tile the 100000 rows, the point covering row r being r / 2000. So the array ends holding, at (p, q), the
  linear layer's entry at row p and column q.
-/
import proofs.«138176_j46557445489257_1_alg».proof.Proof.LinValue2Blocks

noncomputable section

open scoped BigOperators

namespace Cert.KernelIdeal.LinValue2

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The linear layer's output as one array: entry (p, q) is row p of the input against column q of the weights plus the
    bias at q. -/
abbrev linArr (c : Dev nD) : Buf (Elt Ideal) ((c : Thread nD τ).loc main_v50_0) :=
  fun i : S100000x512.Idx => lin2 V c (i 0) (i 1)

/-- What point t writes back is block t of that array. -/
theorem flushed3_eq (c : Dev nD) (t : Fin cfg2.N) :
    (dat2 (F := Ideal) V c).flushed 3 t = ((cfg2.win 3).blk t).view.read (Elt Ideal) (linArr V c) := by
  obtain ⟨-, -, -, -, -, -, e0, e1, -⟩ := idx_facts t
  have hN : t.val < 50 := lt_of_lt_of_eq t.isLt (show cfg2.N = 50 from N_2)
  show (cfg2.win 3).cut (grid2.coords t) ((dat2 (F := Ideal) V c).after 3 t) = _
  rw [after2_3, out3_eq]
  funext y
  rw [View.read_apply]
  have hy0 : (y 0).val < 2000 := (y 0).isLt
  have hy1 : (y 1).val < 512 := (y 1).isLt
  have hr : 2000 * t.val + (y 0).val < 100000 := by omega
  have hx : (cfg2.win 3).xinj (grid2.coords t) y = (ix2 ⟨(y 0).val, hy0⟩ ⟨(y 1).val, hy1⟩ : S2000x512.Idx) :=
    funext fun a => by
      match a with
      | ⟨0, _⟩ => rfl
      | ⟨1, _⟩ => rfl
  refine (congrArg (k2_pay1 (F := Ideal) (iblk2 V c 0 t) (iblk2 V c 1 t) (iblk2 V c 2 t)) hx).trans ?_
  refine (blk_lin V c t ⟨(y 0).val, hy0⟩ ⟨(y 1).val, hy1⟩ ⟨2000 * t.val + (y 0).val, hr⟩ rfl).trans ?_
  show lin2 V c ⟨2000 * t.val + (y 0).val, hr⟩ ⟨(y 1).val, hy1⟩
    = lin2 V c ((((cfg2.win 3).blk t).view.emb y) 0) ((((cfg2.win 3).blk t).view.emb y) 1)
  refine congrArg₂ (lin2 V c) (Fin.ext ?_) (Fin.ext ?_)
  · show 2000 * t.val + (y 0).val = win2_3.index t 0 * 2000 + 1 * (y 0).val; rw [e0]; omega
  · show (y 1).val = win2_3.index t 1 * 512 + 1 * (y 1).val; rw [e1]; omega

/-- An index of the array is in point t's block iff each coordinate is in the block's range on its axis. -/
theorem mem_blk3 (t : Fin cfg2.N) (i : S100000x512.Idx) :
    i ∈ ((cfg2.win 3).blk t).view.set ↔ ∀ a : Fin 2, win2_3.index t a * S2000x512.size a ≤ (i a).val ∧ (i a).val < win2_3.index t a * S2000x512.size a + S2000x512.size a := by
  show i ∈ ((View.whole main_v50_0).slice (win2_3.rect t)).set ↔ _
  rw [View.set_slice_whole, Rect.mem_set_unit]
  exact Iff.rfl

/-- Every index of the array is in the block of the point its row falls in. -/
theorem cover3 (i : S100000x512.Idx) :
    ∃ t : Fin cfg2.N, (cfg2.win 3).flush t = true ∧ i ∈ ((cfg2.win 3).blk t).view.set := by
  have hi0 : (i 0).val < 100000 := (i 0).isLt
  have hi1 : (i 1).val < 512 := (i 1).isLt
  have hN : cfg2.N = 50 := N_2
  have ht : (i 0).val / 2000 < cfg2.N := by rw [hN]; omega
  refine ⟨⟨(i 0).val / 2000, ht⟩, flush2_3 _, ?_⟩
  obtain ⟨-, -, -, -, -, -, e0, e1, -⟩ := idx_facts ⟨(i 0).val / 2000, ht⟩
  rw [mem_blk3]
  intro a
  match a with
  | ⟨0, _⟩ => show win2_3.index ⟨(i 0).val / 2000, ht⟩ (0 : Fin 2) * 2000 ≤ (i 0).val ∧ (i 0).val < win2_3.index ⟨(i 0).val / 2000, ht⟩ (0 : Fin 2) * 2000 + 2000
              rw [e0]; dsimp only; omega
  | ⟨1, _⟩ => show win2_3.index ⟨(i 0).val / 2000, ht⟩ (1 : Fin 2) * 512 ≤ (i 1).val ∧ (i 1).val < win2_3.index ⟨(i 0).val / 2000, ht⟩ (1 : Fin 2) * 512 + 512
              rw [e1]; omega

/-- The array after the region is the linear layer's output. -/
theorem final_lin_arr (c : Dev nD) : (dat2 (F := Ideal) V c).arrAt 3 cfg2.N = linArr V c :=
  (dat2 (F := Ideal) V c).arrAt_eq_of_cover 3 (linArr V c) (fun t _ => flushed3_eq V c t) cover3

/-- Entry (p, q) of the linear output array after the region. -/
theorem final_lin (V : (c : Dev nD) → (b : Ref sig .tc) → Buf (Elt Ideal) ((c : Thread nD τ).loc b)) (c : Dev nD)
    (p : Fin 100000) (q : Fin 512) :
    (Gen.dat2 (F := Ideal) V c).arrAt 3 cfg2.N (ix2 p q) = lin2 V c p q :=
  congrFun (final_lin_arr V c) (ix2 p q)

end Cert.KernelIdeal.LinValue2

end
-- ==== Proof.LinValue2Sum.lean ====
/-
  The two statistic rows after the region.

  The rows of column sums and of column sums of squares stay in their buffers across the 50 points and are written back
  after the last one. At the first point they start from the zero rows; every point adds, at column q, the sum down
  column q of its linear block (of its entrywise square). So after point n the sum row holds, at column q, the sum
  over the points t ≤ n of the sum over the 2000 rows of block t of the layer's entry at that row and column q; after
  the last point the 50 blocks of 2000 rows are all 100000 rows.
-/
import proofs.«138176_j46557445489257_1_alg».proof.Proof.LinValue2Blocks
import proofs.«138176_j46557445489257_1_alg».proof.Proof.LibSumBlocks

noncomputable section

open scoped BigOperators

namespace Cert.KernelIdeal.LinValue2

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The layer's entry at a row given as a natural number (zero past the last row). -/
def linN (c : Dev nD) (q : Fin 512) (d : ℕ) : EReal := if h : d < 100000 then lin2 V c ⟨d, h⟩ q else 0

/-- The linear block of point t's blocks at (j, q), with the row as a natural number. -/
theorem blk_linN (c : Dev nD) (t : Fin cfg2.N) (j : Fin 2000) (q : Fin 512) :
    k2_pay1 (F := Ideal) (iblk2 V c 0 t) (iblk2 V c 1 t) (iblk2 V c 2 t) (ix2 j q) = linN V c q (2000 * t.val + j.val) := by
  have hN : t.val < 50 := lt_of_lt_of_eq t.isLt (show cfg2.N = 50 from N_2)
  have hj : j.val < 2000 := j.isLt
  have h : 2000 * t.val + j.val < 100000 := by omega
  unfold linN
  rw [dif_pos h]
  exact blk_lin V c t j q ⟨2000 * t.val + j.val, h⟩ rfl

/-- The sum row after the first point: the column sums of its linear block, added to zero. -/
theorem sum_A (c : Dev nD) (t : Fin cfg2.N) (h0 : t.val % 50 = 0) (q : Fin 512) :
    (outsAt2 (F := Ideal) V c t.val t.isLt).2.1 (ix2 0 q)
      = ∑ j : Fin 2000, linN V c q (2000 * t.val + j.val) := by
  rw [outsAt2_A V c t h0]
  dsimp only
  rw [outA4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)]
  refine (pay4_apply (iblk2 V c 0 t) (iblk2 V c 1 t) (iblk2 V c 2 t) (k2_pay2 (F := Ideal)) q).trans ?_
  rw [pay2_apply, zero_add]
  exact Finset.sum_congr rfl fun j _ => blk_linN V c t j q

/-- The sum row after a later point: what it held after the point before plus the column sums of the linear block. -/
theorem sum_B (c : Dev nD) (t : Fin cfg2.N) (h0 : ¬t.val % 50 = 0) (q : Fin 512) :
    (outsAt2 (F := Ideal) V c t.val t.isLt).2.1 (ix2 0 q)
      = (outsAt2 (F := Ideal) V c (t.val - 1) (Nat.lt_of_le_of_lt (Nat.sub_le _ _) t.isLt)).2.1 (ix2 0 q)
        + ∑ j : Fin 2000, linN V c q (2000 * t.val + j.val) := by
  rw [outsAt2_B V c t h0]
  dsimp only
  rw [outB4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t)
    (outsAt2 V c (t.val - 1) (Nat.lt_of_le_of_lt (Nat.sub_le _ _) t.isLt)).2.1
    (outsAt2 V c (t.val - 1) (Nat.lt_of_le_of_lt (Nat.sub_le _ _) t.isLt)).2.2]
  refine (pay4_apply (iblk2 V c 0 t) (iblk2 V c 1 t) (iblk2 V c 2 t)
    (outsAt2 V c (t.val - 1) (Nat.lt_of_le_of_lt (Nat.sub_le _ _) t.isLt)).2.1 q).trans ?_
  exact congrArg _ (Finset.sum_congr rfl fun j _ => blk_linN V c t j q)

/-- The sum-of-squares row after the first point. -/
theorem sq_A (c : Dev nD) (t : Fin cfg2.N) (h0 : t.val % 50 = 0) (q : Fin 512) :
    (outsAt2 (F := Ideal) V c t.val t.isLt).2.2 (ix2 0 q)
      = ∑ j : Fin 2000, linN V c q (2000 * t.val + j.val) * linN V c q (2000 * t.val + j.val) := by
  rw [outsAt2_A V c t h0]
  dsimp only
  rw [outA5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)]
  refine (pay5_apply (iblk2 V c 0 t) (iblk2 V c 1 t) (iblk2 V c 2 t) (k2_pay3 (F := Ideal)) q).trans ?_
  rw [pay3_apply, zero_add]
  exact Finset.sum_congr rfl fun j _ => congrArg₂ (· * ·) (blk_linN V c t j q) (blk_linN V c t j q)

/-- The sum-of-squares row after a later point. -/
theorem sq_B (c : Dev nD) (t : Fin cfg2.N) (h0 : ¬t.val % 50 = 0) (q : Fin 512) :
    (outsAt2 (F := Ideal) V c t.val t.isLt).2.2 (ix2 0 q)
      = (outsAt2 (F := Ideal) V c (t.val - 1) (Nat.lt_of_le_of_lt (Nat.sub_le _ _) t.isLt)).2.2 (ix2 0 q)
        + ∑ j : Fin 2000, linN V c q (2000 * t.val + j.val) * linN V c q (2000 * t.val + j.val) := by
  rw [outsAt2_B V c t h0]
  dsimp only
  rw [outB5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t)
    (outsAt2 V c (t.val - 1) (Nat.lt_of_le_of_lt (Nat.sub_le _ _) t.isLt)).2.1
    (outsAt2 V c (t.val - 1) (Nat.lt_of_le_of_lt (Nat.sub_le _ _) t.isLt)).2.2]
  refine (pay5_apply (iblk2 V c 0 t) (iblk2 V c 1 t) (iblk2 V c 2 t)
    (outsAt2 V c (t.val - 1) (Nat.lt_of_le_of_lt (Nat.sub_le _ _) t.isLt)).2.2 q).trans ?_
  exact congrArg _ (Finset.sum_congr rfl fun j _ => congrArg₂ (· * ·) (blk_linN V c t j q) (blk_linN V c t j q))

/-- THE INVARIANT over the points: after point n the sum row holds, at column q, the sum over the points t ≤ n of the
    sum over the rows of block t. By induction on the point. -/
theorem sum_inv (c : Dev nD) (q : Fin 512) : ∀ (n : ℕ) (h : n < cfg2.N),
    (outsAt2 (F := Ideal) V c n h).2.1 (ix2 0 q)
      = ∑ t ∈ Finset.range (n + 1), ∑ j : Fin 2000, linN V c q (2000 * t + j.val)
  | 0, h => by
    rw [Finset.sum_range_one]
    exact sum_A V c ⟨0, h⟩ (Nat.zero_mod _) q
  | n + 1, h => by
    have hN : cfg2.N = 50 := N_2
    have hB : ¬(⟨n + 1, h⟩ : Fin cfg2.N).val % 50 = 0 := by dsimp only; omega
    rw [Finset.sum_range_succ, ← sum_inv c q n (Nat.lt_of_succ_lt h)]
    exact sum_B V c ⟨n + 1, h⟩ hB q

/-- The same invariant for the row of sums of squares. -/
theorem sq_inv (c : Dev nD) (q : Fin 512) : ∀ (n : ℕ) (h : n < cfg2.N),
    (outsAt2 (F := Ideal) V c n h).2.2 (ix2 0 q)
      = ∑ t ∈ Finset.range (n + 1), ∑ j : Fin 2000, linN V c q (2000 * t + j.val) * linN V c q (2000 * t + j.val)
  | 0, h => by
    rw [Finset.sum_range_one]
    exact sq_A V c ⟨0, h⟩ (Nat.zero_mod _) q
  | n + 1, h => by
    have hN : cfg2.N = 50 := N_2
    have hB : ¬(⟨n + 1, h⟩ : Fin cfg2.N).val % 50 = 0 := by dsimp only; omega
    rw [Finset.sum_range_succ, ← sq_inv c q n (Nat.lt_of_succ_lt h)]
    exact sq_B V c ⟨n + 1, h⟩ hB q

/-- Fifty blocks of 2000 rows are the 100000 rows. -/
theorem sum_rows (f : ℕ → EReal) (g : Fin 100000 → EReal) (hfg : ∀ r : Fin 100000, f r.val = g r) :
    ∑ t ∈ Finset.range 50, ∑ j : Fin 2000, f (2000 * t + j.val) = ∑ r : Fin 100000, g r := by
  refine (Cert.Hamming.sum_blocks 50 2000 f).trans ?_
  show ∑ d : Fin 100000, f d.val = ∑ r : Fin 100000, g r
  exact Finset.sum_congr rfl fun r _ => hfg r

/-- After the last point the sum row holds the column sums of the whole linear output. -/
theorem last_sum (c : Dev nD) (q : Fin 512) (t : Fin cfg2.N) (h49 : t.val = 49) :
    (outsAt2 (F := Ideal) V c t.val t.isLt).2.1 (ix2 0 q) = ∑ r : Fin 100000, lin2 V c r q := by
  refine (sum_inv V c q t.val t.isLt).trans ?_
  rw [h49]
  exact sum_rows (linN V c q) (fun r => lin2 V c r q) fun r => dif_pos r.isLt

/-- After the last point the sum-of-squares row holds the column sums of squares of the whole linear output. -/
theorem last_sq (c : Dev nD) (q : Fin 512) (t : Fin cfg2.N) (h49 : t.val = 49) :
    (outsAt2 (F := Ideal) V c t.val t.isLt).2.2 (ix2 0 q) = ∑ r : Fin 100000, lin2 V c r q * lin2 V c r q := by
  refine (sq_inv V c q t.val t.isLt).trans ?_
  rw [h49]
  exact sum_rows (fun d => linN V c q d * linN V c q d) (fun r => lin2 V c r q * lin2 V c r q)
    fun r => by rw [show linN V c q r.val = lin2 V c r q from dif_pos r.isLt]

/-- The row of column sums as an array. -/
abbrev sumRow (c : Dev nD) : Buf (Elt Ideal) ((c : Thread nD τ).loc main_v50_1) :=
  fun i : S1x512.Idx => (∑ r : Fin 100000, lin2 V c r (i 1) : EReal)

/-- The row of column sums of squares as an array. -/
abbrev sqRow (c : Dev nD) : Buf (Elt Ideal) ((c : Thread nD τ).loc main_v50_2) :=
  fun i : S1x512.Idx => (∑ r : Fin 100000, lin2 V c r (i 1) * lin2 V c r (i 1) : EReal)

/-- The last grid point. -/
abbrev tLast : Fin cfg2.N := ⟨49, by rw [show cfg2.N = 50 from N_2]; decide⟩

/-- The one write-back of the sum row, after the last point, writes the column sums: the block is the whole array. -/
theorem flushed4_eq (c : Dev nD) (t : Fin cfg2.N) (hf : (cfg2.win 4).flush t = true) :
    (dat2 (F := Ideal) V c).flushed 4 t = ((cfg2.win 4).blk t).view.read (Elt Ideal) (sumRow V c) := by
  have hN : cfg2.N = 50 := N_2
  have h49 : t.val = 49 := by have := (flush2_4 t).mp hf; have := t.isLt; omega
  obtain ⟨-, -, -, -, -, -, -, -, e0, e1, -⟩ := idx_facts t
  have hrow : ((outsAt2 (F := Ideal) V c t.val t.isLt).2.1 : Vec Ideal S1x512 .f32) = sumRow V c := funext fun (y : S1x512.Idx) => by
    obtain ⟨u, q, rfl⟩ : ∃ (u : Fin 1) (q : Fin 512), y = ix2 u q := ⟨y 0, y 1, eq_ix2 y⟩
    obtain rfl : u = 0 := Subsingleton.elim u 0
    exact last_sum V c q t h49
  show (cfg2.win 4).cut (grid2.coords t) ((dat2 (F := Ideal) V c).after 4 t) = _
  rw [after2_4, hrow]
  have hz' : (fun a => win2_4.index t a * main_v50_1.ty.shape.size a) = fun _ => 0 := funext fun a => by
    match a with
    | ⟨0, _⟩ => show win2_4.index t 0 * 1 = 0; rw [e0]
    | ⟨1, _⟩ => show win2_4.index t 1 * 512 = 0; rw [e1]
  exact (Memref.read_access_unit_zero (Elt Ideal) main_v50_1 hz' (fun a => by rw [congrFun hz' a]; simp) (sumRow V c)).symm

/-- The one write-back of the sum-of-squares row likewise. -/
theorem flushed5_eq (c : Dev nD) (t : Fin cfg2.N) (hf : (cfg2.win 5).flush t = true) :
    (dat2 (F := Ideal) V c).flushed 5 t = ((cfg2.win 5).blk t).view.read (Elt Ideal) (sqRow V c) := by
  have hN : cfg2.N = 50 := N_2
  have h49 : t.val = 49 := by have := (flush2_5 t).mp hf; have := t.isLt; omega
  obtain ⟨-, -, -, -, -, -, -, -, -, -, e0, e1⟩ := idx_facts t
  have hrow : ((outsAt2 (F := Ideal) V c t.val t.isLt).2.2 : Vec Ideal S1x512 .f32) = sqRow V c := funext fun (y : S1x512.Idx) => by
    obtain ⟨u, q, rfl⟩ : ∃ (u : Fin 1) (q : Fin 512), y = ix2 u q := ⟨y 0, y 1, eq_ix2 y⟩
    obtain rfl : u = 0 := Subsingleton.elim u 0
    exact last_sq V c q t h49
  show (cfg2.win 5).cut (grid2.coords t) ((dat2 (F := Ideal) V c).after 5 t) = _
  rw [after2_5, hrow]
  have hz' : (fun a => win2_5.index t a * main_v50_2.ty.shape.size a) = fun _ => 0 := funext fun a => by
    match a with
    | ⟨0, _⟩ => show win2_5.index t 0 * 1 = 0; rw [e0]
    | ⟨1, _⟩ => show win2_5.index t 1 * 512 = 0; rw [e1]
  exact (Memref.read_access_unit_zero (Elt Ideal) main_v50_2 hz' (fun a => by rw [congrFun hz' a]; simp) (sqRow V c)).symm

/-- The sum row's array after the region. -/
theorem final_sum_arr (c : Dev nD) : (dat2 (F := Ideal) V c).arrAt 4 cfg2.N = sumRow V c :=
  (dat2 (F := Ideal) V c).arrAt_eq_of_cover 4 (sumRow V c) (flushed4_eq V c) fun i =>
    ⟨tLast, (flush2_4 tLast).mpr rfl, by
      show i ∈ ((View.whole main_v50_1).slice (win2_4.rect tLast)).set
      rw [View.set_slice_whole, Rect.mem_set_unit]
      intro a
      have h0 : (i 0 : Nat) < 1 := (i 0).isLt
      have h1 : (i 1 : Nat) < 512 := (i 1).isLt
      match a with
      | ⟨0, _⟩ => show win2_4.index tLast 0 * win2_4.size 0 ≤ (i 0 : Nat) ∧ (i 0 : Nat) < win2_4.index tLast 0 * win2_4.size 0 + win2_4.xsize (grid2.coords tLast) 0
                  rw [show win2_4.index tLast 0 * win2_4.size 0 = 0 from by decide +kernel, show win2_4.xsize (grid2.coords tLast) 0 = 1 from by decide +kernel]; omega
      | ⟨1, _⟩ => show win2_4.index tLast 1 * win2_4.size 1 ≤ (i 1 : Nat) ∧ (i 1 : Nat) < win2_4.index tLast 1 * win2_4.size 1 + win2_4.xsize (grid2.coords tLast) 1
                  rw [show win2_4.index tLast 1 * win2_4.size 1 = 0 from by decide +kernel, show win2_4.xsize (grid2.coords tLast) 1 = 512 from by decide +kernel]; omega⟩

/-- The sum-of-squares row's array after the region. -/
theorem final_sumsq_arr (c : Dev nD) : (dat2 (F := Ideal) V c).arrAt 5 cfg2.N = sqRow V c :=
  (dat2 (F := Ideal) V c).arrAt_eq_of_cover 5 (sqRow V c) (flushed5_eq V c) fun i =>
    ⟨tLast, (flush2_5 tLast).mpr rfl, by
      show i ∈ ((View.whole main_v50_2).slice (win2_5.rect tLast)).set
      rw [View.set_slice_whole, Rect.mem_set_unit]
      intro a
      have h0 : (i 0 : Nat) < 1 := (i 0).isLt
      have h1 : (i 1 : Nat) < 512 := (i 1).isLt
      match a with
      | ⟨0, _⟩ => show win2_5.index tLast 0 * win2_5.size 0 ≤ (i 0 : Nat) ∧ (i 0 : Nat) < win2_5.index tLast 0 * win2_5.size 0 + win2_5.xsize (grid2.coords tLast) 0
                  rw [show win2_5.index tLast 0 * win2_5.size 0 = 0 from by decide +kernel, show win2_5.xsize (grid2.coords tLast) 0 = 1 from by decide +kernel]; omega
      | ⟨1, _⟩ => show win2_5.index tLast 1 * win2_5.size 1 ≤ (i 1 : Nat) ∧ (i 1 : Nat) < win2_5.index tLast 1 * win2_5.size 1 + win2_5.xsize (grid2.coords tLast) 1
                  rw [show win2_5.index tLast 1 * win2_5.size 1 = 0 from by decide +kernel, show win2_5.xsize (grid2.coords tLast) 1 = 512 from by decide +kernel]; omega⟩

/-- Column q of the sum row after the region: the sum over all rows of the layer's entries in column q. -/
theorem final_sum (V : (c : Dev nD) → (b : Ref sig .tc) → Buf (Elt Ideal) ((c : Thread nD τ).loc b)) (c : Dev nD) (q : Fin 512) :
    (Gen.dat2 (F := Ideal) V c).arrAt 4 cfg2.N (ix2 0 q) = ∑ r : Fin 100000, lin2 V c r q :=
  congrFun (final_sum_arr V c) (ix2 0 q)

/-- Column q of the sum-of-squares row after the region: the sum over all rows of the squares of the layer's entries in
    column q. -/
theorem final_sumsq (V : (c : Dev nD) → (b : Ref sig .tc) → Buf (Elt Ideal) ((c : Thread nD τ).loc b)) (c : Dev nD) (q : Fin 512) :
    (Gen.dat2 (F := Ideal) V c).arrAt 5 cfg2.N (ix2 0 q) = ∑ r : Fin 100000, lin2 V c r q * lin2 V c r q :=
  congrFun (final_sumsq_arr V c) (ix2 0 q)

end Cert.KernelIdeal.LinValue2

end
-- ==== Proof.Chain2.lean ====
/-
  Layer 2, first half: the second layer's linear output and its column sums are the reference's.

  The second layer's first region takes every row of the aggregated input against the weights plus the bias, and sums
  each column and each column of squares over the 100000 rows. The aggregated input is the reference's, the weights and
  the bias are the launch arguments, so entry by entry the linear output is the reference's linear stage, and the two
  rows are its column sums and the column sums of its squares.
-/
import proofs.«138176_j46557445489257_1_alg».proof.Proof.Chain2Host
import proofs.«138176_j46557445489257_1_alg».proof.Proof.LinValue2Lin
import proofs.«138176_j46557445489257_1_alg».proof.Proof.LinValue2Sum

set_option maxRecDepth 16384

noncomputable section

open scoped BigOperators

namespace Cert.KernelIdeal.Chain2

open Cert.KernelIdeal Cert.KernelIdeal.Gen Cert.KernelIdeal.Glue Idealize.ShloMosaic Idealize.ShloMosaic.TcCoe Idealize.ShloMosaic.ValueIdx
open Idealize.ShloMosaic.StableHlo Idealize.SL.Sem

variable (m : (ℓ : Loc nD τ sig) → Buf (Elt Ideal) ℓ) (ρ : Dev nD → PrngReg) (c : Dev nD)

/-! ## The linear output and its column sums -/

/-- Entry (r, q) of the second layer's linear output, as the region computes it from what it finds, is the reference's. -/
theorem lin2_eq (hact : (W4 (F := Ideal) m ρ c (Proc.devRef .tc main_v37) : S100000x512.Idx → EReal) = Cert.ReferenceIdeal.Read.val_main_v52 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (r : Fin 100000) (q : Fin 512) :
    Cert.KernelIdeal.LinValue2.lin2 (V5 (F := Ideal) m ρ) c r q
      = Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 r q) := by
  rw [Cert.ReferenceIdeal.RefValue.lin2_apply (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) r q]
  show Cert.Spec.linE (fun k : Fin 512 => (V5 (F := Ideal) m ρ c main_v48 : S100000x512.Idx → EReal) (ix2 r k))
      (fun k : Fin 512 => (V5 (F := Ideal) m ρ c main_arg8 : S512x512.Idx → EReal) (ix2 k q))
      ((V5 (F := Ideal) m ρ c main_v49 : FVec Ideal S1x512 .f32) (ix2 (0 : Fin 1) q)) = _
  rw [agg2 m ρ c hact, weights_at5, bias_row, rowOf_apply, bias_arg]

/-- The second layer's linear output is the reference's. -/
theorem lin2 (hact : (W4 (F := Ideal) m ρ c (Proc.devRef .tc main_v37) : S100000x512.Idx → EReal) = Cert.ReferenceIdeal.Read.val_main_v52 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :
    (W6 (F := Ideal) m ρ c (Proc.devRef .tc main_v50_0) : S100000x512.Idx → EReal) = Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have harr : W6 (F := Ideal) m ρ c (Proc.devRef .tc main_v50_0) = (dat2 (V5 m ρ) c).arrAt 3 cfg2.N := W6_arr m ρ c 3
  rw [harr]
  funext i
  obtain ⟨p, q, rfl⟩ : ∃ (p : Fin 100000) (q : Fin 512), i = ix2 p q := ⟨i 0, i 1, eq_ix2 i⟩
  rw [Cert.KernelIdeal.LinValue2.final_lin (V5 m ρ) c p q]
  exact lin2_eq m ρ c hact p q

/-- The row of column sums of the second layer's linear output. -/
theorem sum2 (hact : (W4 (F := Ideal) m ρ c (Proc.devRef .tc main_v37) : S100000x512.Idx → EReal) = Cert.ReferenceIdeal.Read.val_main_v52 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (q : Fin 512) :
    (W6 (F := Ideal) m ρ c (Proc.devRef .tc main_v50_1) : S1x512.Idx → EReal) (ix2 0 q)
      = ∑ r : Fin 100000, Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 r q) := by
  have harr : W6 (F := Ideal) m ρ c (Proc.devRef .tc main_v50_1) = (dat2 (V5 m ρ) c).arrAt 4 cfg2.N := W6_arr m ρ c 4
  rw [harr, Cert.KernelIdeal.LinValue2.final_sum (V5 m ρ) c q]
  show (∑ r : Fin 100000, Cert.KernelIdeal.LinValue2.lin2 (V5 (F := Ideal) m ρ) c r q : EReal) = _
  exact Finset.sum_congr rfl fun r _ => lin2_eq m ρ c hact r q

/-- The row of column sums of its squares. -/
theorem sumsq2 (hact : (W4 (F := Ideal) m ρ c (Proc.devRef .tc main_v37) : S100000x512.Idx → EReal) = Cert.ReferenceIdeal.Read.val_main_v52 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (q : Fin 512) :
    (W6 (F := Ideal) m ρ c (Proc.devRef .tc main_v50_2) : S1x512.Idx → EReal) (ix2 0 q)
      = ∑ r : Fin 100000, Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 r q) * Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 r q) := by
  have harr : W6 (F := Ideal) m ρ c (Proc.devRef .tc main_v50_2) = (dat2 (V5 m ρ) c).arrAt 5 cfg2.N := W6_arr m ρ c 5
  rw [harr, Cert.KernelIdeal.LinValue2.final_sumsq (V5 m ρ) c q]
  show (∑ r : Fin 100000, Cert.KernelIdeal.LinValue2.lin2 (V5 (F := Ideal) m ρ) c r q * Cert.KernelIdeal.LinValue2.lin2 (V5 (F := Ideal) m ρ) c r q : EReal) = _
  exact Finset.sum_congr rfl fun r _ => by rw [lin2_eq m ρ c hact r q]

end Cert.KernelIdeal.Chain2

end
-- ==== Proof.BnValue3.lean ====
/-
  The array the normalise-and-rectify region of layer two leaves, entry by entry.

  The region walks 50 points; point t takes rows 2000 t … 2000 t + 1999 of the layer's linear output and the four rows
  (mean, variance, scale, shift), and stores the block of the same rows of the result. So entry (p, q) of the result
  is the normalised, scaled, shifted and rectified entry (p, q) of the linear output, with column q's statistics:
  every block written back is the block of ONE function of the arrays the region finds, and the 50 blocks tile the
  100000 rows (row p lies in the block of point p / 2000).
-/
import proofs.«138176_j46557445489257_1_alg».proof.Proof.Gen.KernelIdeal.Frame
import proofs.«138176_j46557445489257_1_alg».proof.Proof.BnEntry
import Idealize.ShloMosaic.Lib.Pipeline.Value

noncomputable section

namespace Cert.KernelIdeal.BnValue3

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-- The result as one function of the arrays: entry i of the linear output with the statistics of column i 1. -/
def G (y : S100000x512.Idx → EReal) (mu var g be : S1x512.Idx → EReal) : S100000x512.Idx → EReal :=
  fun i => Cert.Spec.bnRelu (y i) (mu (ix2 (0 : Fin 1) (i 1 : Fin 512))) (var (ix2 (0 : Fin 1) (i 1 : Fin 512)))
    (g (ix2 (0 : Fin 1) (i 1 : Fin 512))) (be (ix2 (0 : Fin 1) (i 1 : Fin 512)))

/-- The block indices, decided over the 50 points: the linear output's and the result's block at point t is block
    (t, 0); each of the four rows is block (0, 0) at every point. -/
theorem idx_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Entry (p, q) of the linear output's block at point t is the array's entry in row 2000 t + p, column q. -/
theorem blk0_apply (c : Dev nD) (t : Fin cfg3.N) (p : Fin 2000) (q : Fin 512) (i : S100000x512.Idx)
    (h0 : (i 0).val = t.val * 2000 + p.val) (h1 : (i 1).val = q.val) :
    (iblk3 V c 0 t : Vec Ideal S2000x512 .f32) (ix2 p q) = V c main_v50_0 i := by
  obtain ⟨e0, e1, -⟩ := idx_facts t
  unfold iblk3
  rw [View.read_apply]
  show V c main_v50_0 _ = V c main_v50_0 i
  congr 1
  funext a
  apply Fin.ext
  match a with
  | ⟨0, _⟩ => show win3_0.index t (0 : Fin 2) * 2000 + 1 * p.val = (i 0).val; rw [e0, h0]; omega
  | ⟨1, _⟩ => show win3_0.index t (1 : Fin 2) * 512 + 1 * q.val = (i 1).val; rw [e1, h1]; omega

/-- Entry q of the mean row's block at any point is the row's entry q. -/
theorem row1_apply (c : Dev nD) (t : Fin cfg3.N) (q : Fin 512) :
    (iblk3 V c 1 t : Vec Ideal S1x512 .f32) (ix2 (0 : Fin 1) q) = V c main_v59 (ix2 (0 : Fin 1) q) := by
  obtain ⟨-, -, -, -, e1a, e1b, e2a, e2b, e3a, e3b, e4a, e4b⟩ := idx_facts t
  unfold iblk3
  rw [View.read_apply]
  show V c main_v59 _ = V c main_v59 (ix2 (0 : Fin 1) q)
  congr 1
  funext a
  apply Fin.ext
  match a with
  | ⟨0, _⟩ => show win3_1.index t (0 : Fin 2) * 1 + 1 * (0 : Fin 1).val = (0 : Fin 1).val; rw [e1a]; rfl
  | ⟨1, _⟩ => show win3_1.index t (1 : Fin 2) * 512 + 1 * q.val = q.val; rw [e1b]; omega

/-- Entry q of the variance row's block at any point is the row's entry q. -/
theorem row2_apply (c : Dev nD) (t : Fin cfg3.N) (q : Fin 512) :
    (iblk3 V c 2 t : Vec Ideal S1x512 .f32) (ix2 (0 : Fin 1) q) = V c main_v60 (ix2 (0 : Fin 1) q) := by
  obtain ⟨-, -, -, -, e1a, e1b, e2a, e2b, e3a, e3b, e4a, e4b⟩ := idx_facts t
  unfold iblk3
  rw [View.read_apply]
  show V c main_v60 _ = V c main_v60 (ix2 (0 : Fin 1) q)
  congr 1
  funext a
  apply Fin.ext
  match a with
  | ⟨0, _⟩ => show win3_2.index t (0 : Fin 2) * 1 + 1 * (0 : Fin 1).val = (0 : Fin 1).val; rw [e2a]; rfl
  | ⟨1, _⟩ => show win3_2.index t (1 : Fin 2) * 512 + 1 * q.val = q.val; rw [e2b]; omega

/-- Entry q of the scale row's block at any point is the row's entry q. -/
theorem row3_apply (c : Dev nD) (t : Fin cfg3.N) (q : Fin 512) :
    (iblk3 V c 3 t : Vec Ideal S1x512 .f32) (ix2 (0 : Fin 1) q) = V c main_v61 (ix2 (0 : Fin 1) q) := by
  obtain ⟨-, -, -, -, e1a, e1b, e2a, e2b, e3a, e3b, e4a, e4b⟩ := idx_facts t
  unfold iblk3
  rw [View.read_apply]
  show V c main_v61 _ = V c main_v61 (ix2 (0 : Fin 1) q)
  congr 1
  funext a
  apply Fin.ext
  match a with
  | ⟨0, _⟩ => show win3_3.index t (0 : Fin 2) * 1 + 1 * (0 : Fin 1).val = (0 : Fin 1).val; rw [e3a]; rfl
  | ⟨1, _⟩ => show win3_3.index t (1 : Fin 2) * 512 + 1 * q.val = q.val; rw [e3b]; omega

/-- Entry q of the shift row's block at any point is the row's entry q. -/
theorem row4_apply (c : Dev nD) (t : Fin cfg3.N) (q : Fin 512) :
    (iblk3 V c 4 t : Vec Ideal S1x512 .f32) (ix2 (0 : Fin 1) q) = V c main_v62 (ix2 (0 : Fin 1) q) := by
  obtain ⟨-, -, -, -, e1a, e1b, e2a, e2b, e3a, e3b, e4a, e4b⟩ := idx_facts t
  unfold iblk3
  rw [View.read_apply]
  show V c main_v62 _ = V c main_v62 (ix2 (0 : Fin 1) q)
  congr 1
  funext a
  apply Fin.ext
  match a with
  | ⟨0, _⟩ => show win3_4.index t (0 : Fin 2) * 1 + 1 * (0 : Fin 1).val = (0 : Fin 1).val; rw [e4a]; rfl
  | ⟨1, _⟩ => show win3_4.index t (1 : Fin 2) * 512 + 1 * q.val = q.val; rw [e4b]; omega

/-- What point t writes back is block t of the one function of the arrays. -/
theorem flushed_eq (c : Dev nD) (t : Fin cfg3.N) :
    (dat3 (F := Ideal) V c).flushed 5 t
      = ((cfg3.win 5).blk t).view.read (Elt Ideal) (G (V c main_v50_0) (V c main_v59) (V c main_v60) (V c main_v61) (V c main_v62)) := by
  show (cfg3.win 5).cut (grid3.coords t) ((dat3 V c).after 5 t) = _
  rw [after3_5]
  unfold out3_5
  rw [View.canon_unit_zero hz]
  simp only [View.ld_unit_zero (S := S1x512) hz, View.ld_unit_zero (S := S2000x512) hz]
  obtain ⟨-, -, e2, e3, -⟩ := idx_facts t
  have ht : t.val < 50 := Nat.lt_of_lt_of_eq t.isLt N_3
  funext j
  obtain ⟨p, q, rfl⟩ : ∃ (p : Fin 2000) (q : Fin 512), j = ix2 p q := ⟨j 0, j 1, eq_ix2 j⟩
  have hp : p.val < 2000 := p.isLt
  have hemb : ((cfg3.win 5).blk t).view.emb (ix2 p q)
      = (ix2 (⟨t.val * 2000 + p.val, by omega⟩ : Fin 100000) q : S100000x512.Idx) := by
    funext a
    apply Fin.ext
    match a with
    | ⟨0, _⟩ => show win3_5.index t (0 : Fin 2) * 2000 + 1 * p.val = t.val * 2000 + p.val; rw [e2]; omega
    | ⟨1, _⟩ => show win3_5.index t (1 : Fin 2) * 512 + 1 * q.val = q.val; rw [e3]; omega
  show k3_pay1 (F := Ideal) (iblk3 V c 2 t) (iblk3 V c 0 t) (iblk3 V c 1 t) (iblk3 V c 3 t) (iblk3 V c 4 t) (ix2 p q)
      = G (V c main_v50_0) (V c main_v59) (V c main_v60) (V c main_v61) (V c main_v62) (((cfg3.win 5).blk t).view.emb (ix2 p q))
  rw [hemb]
  refine (BnEntry.pay3_apply (iblk3 V c 2 t) (iblk3 V c 0 t) (iblk3 V c 1 t) (iblk3 V c 3 t) (iblk3 V c 4 t) p q).trans ?_
  rw [blk0_apply V c t p q (ix2 (⟨t.val * 2000 + p.val, by omega⟩ : Fin 100000) q) rfl rfl,
    row1_apply V c t q, row2_apply V c t q, row3_apply V c t q, row4_apply V c t q]
  rfl

/-- An index of the result is in point t's block iff each coordinate is in the block's range on its axis. -/
theorem mem_blk (t : Fin cfg3.N) (i : S100000x512.Idx) :
    i ∈ ((cfg3.win 5).blk t).view.set ↔ ∀ a : Fin 2, win3_5.index t a * S2000x512.size a ≤ (i a).val ∧ (i a).val < win3_5.index t a * S2000x512.size a + S2000x512.size a := by
  show i ∈ ((View.whole main_v63).slice (win3_5.rect t)).set ↔ _
  rw [View.set_slice_whole, Rect.mem_set_unit]
  exact Iff.rfl

/-- The 50 blocks tile the result: row r lies in the block of point r / 2000, and every point writes back. -/
theorem cover (i : S100000x512.Idx) :
    ∃ t : Fin cfg3.N, (cfg3.win 5).flush t = true ∧ i ∈ ((cfg3.win 5).blk t).view.set := by
  have hi0 : (i 0).val < 100000 := (i 0).isLt
  have hi1 : (i 1).val < 512 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, e2, e3, -⟩ := idx_facts t
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; rw [e2, ht]; omega
  | ⟨1, _⟩ => show win3_5.index t (1 : Fin 2) * 512 ≤ (i 1).val ∧ (i 1).val < win3_5.index t (1 : Fin 2) * 512 + 512; rw [e3]; omega

/-- The array after the region: the one function of the arrays the region finds. -/
theorem arr_eq (c : Dev nD) :
    (dat3 (F := Ideal) V c).arrAt 5 cfg3.N = G (V c main_v50_0) (V c main_v59) (V c main_v60) (V c main_v61) (V c main_v62) :=
  (dat3 (F := Ideal) V c).arrAt_eq_of_cover 5 (G (V c main_v50_0) (V c main_v59) (V c main_v60) (V c main_v61) (V c main_v62))
    (fun t _ => flushed_eq V c t) cover

/-- Entry (p, q) of the array the region leaves: the linear output's entry (p, q) normalised by column q's mean and
    variance, scaled, shifted and rectified. -/
theorem final (V : (c : Dev nD) → (b : Ref sig .tc) → Buf (Elt Ideal) ((c : Thread nD τ).loc b)) (c : Dev nD) (p : Fin 100000) (q : Fin 512) :
    (Gen.dat3 (F := Ideal) V c).arrAt 5 cfg3.N (ix2 p q)
      = Cert.Spec.bnRelu (V c main_v50_0 (ix2 p q)) (V c main_v59 (ix2 0 q)) (V c main_v60 (ix2 0 q)) (V c main_v61 (ix2 0 q)) (V c main_v62 (ix2 0 q)) :=
  (congrFun (arr_eq V c) (ix2 p q)).trans rfl

end Cert.KernelIdeal.BnValue3

end
-- ==== Proof.Chain3.lean ====
/-
  Layer 2, second half: from the linear output and its column sums to the normalised, rectified activations.

  The first region of the layer left the linear output `y` and the rows `s = ∑ y`, `ss = ∑ y²` (sums over the 100000
  rows, column by column). The host forms the mean `s / 100000` and the variance `ss / 100000 − mean²`; the second region
  normalises every entry of `y` by its column's mean and variance, scales, shifts and rectifies. The reference takes
  the same mean and the variance as the mean of the squared deviations; the two variances are one number when the
  column is real (the hypothesis `hvar`, which the finiteness of the inputs supplies), so the activations of the two
  programs are one array.
-/
import proofs.«138176_j46557445489257_1_alg».proof.Proof.Glue
import proofs.«138176_j46557445489257_1_alg».proof.Proof.Algebra
import proofs.«138176_j46557445489257_1_alg».proof.Proof.BnValue3
import proofs.«138176_j46557445489257_1_alg».proof.Proof.RefLayer2

set_option maxRecDepth 16384

noncomputable section

open scoped BigOperators

namespace Cert.KernelIdeal.Chain3

open Cert.KernelIdeal Cert.KernelIdeal.Gen Cert.KernelIdeal.Glue Idealize.ShloMosaic Idealize.ShloMosaic.TcCoe Idealize.ShloMosaic.ValueIdx
open Idealize.ShloMosaic.StableHlo Idealize.SL.Sem

variable (m : (ℓ : Loc nD τ sig) → Buf (Elt Ideal) ℓ) (ρ : Dev nD → PrngReg) (c : Dev nD)

/-! ## The host stretch between the layer's regions -/

/-- The mean row is the row of column sums divided by the node count. -/
theorem mean_row : (V7 (F := Ideal) m ρ c main_v59 : FVec Ideal S1x512 .f32)
    = rowOf (meanVec (W6 m ρ c (Proc.devRef .tc main_v50_1))) := by
  show StableHlo.after hostOps3 (W6 m ρ c) (Proc.devRef .tc main_v59) = _
  after_results
  rfl

/-- The variance row is the mean of squares minus the squared mean. -/
theorem var_row : (V7 (F := Ideal) m ρ c main_v60 : FVec Ideal S1x512 .f32)
    = rowOf (varVec (W6 m ρ c (Proc.devRef .tc main_v50_1)) (W6 m ρ c (Proc.devRef .tc main_v50_2))) := by
  show StableHlo.after hostOps3 (W6 m ρ c) (Proc.devRef .tc main_v60) = _
  after_results
  rfl

/-- The scale, laid out as a row. -/
theorem scale_row : (V7 (F := Ideal) m ρ c main_v61 : FVec Ideal S1x512 .f32)
    = rowOf (W6 m ρ c (Proc.devRef .tc main_arg10)) := by
  show StableHlo.after hostOps3 (W6 m ρ c) (Proc.devRef .tc main_v61) = _
  after_results
  rfl

/-- The shift, laid out as a row. -/
theorem shift_row : (V7 (F := Ideal) m ρ c main_v62 : FVec Ideal S1x512 .f32)
    = rowOf (W6 m ρ c (Proc.devRef .tc main_arg11)) := by
  show StableHlo.after hostOps3 (W6 m ρ c) (Proc.devRef .tc main_v62) = _
  after_results
  rfl

/-- The stretch does not write the linear output. -/
theorem lin_kept : V7 (F := Ideal) m ρ c main_v50_0 = W6 m ρ c (Proc.devRef .tc main_v50_0) := by
  show StableHlo.after hostOps3 (W6 m ρ c) (Proc.devRef .tc main_v50_0) = _
  host_kept hostOps3

/-- The scale and the shift are still the launch arguments when the stretch reads them. -/
theorem scale_arg : W6 (F := Ideal) m ρ c (Proc.devRef .tc main_arg10) = m ((c.tc : Thread nD τ).loc main_arg10) :=
  (W6_of_ne m ρ c _ (by decide)).trans ((show W5 (F := Ideal) m ρ c _ = W4 m ρ c _ from by host_kept hostOps2).trans ((W4_of_ne m ρ c _ (by decide)).trans ((show W3 (F := Ideal) m ρ c _ = W2 m ρ c _ from by host_kept hostOps1).trans ((W2_of_ne m ρ c _ (by decide)).trans ((show W1 (F := Ideal) m ρ c _ = W0 m ρ c _ from by host_kept hostOps0).trans rfl)))))
theorem shift_arg : W6 (F := Ideal) m ρ c (Proc.devRef .tc main_arg11) = m ((c.tc : Thread nD τ).loc main_arg11) :=
  (W6_of_ne m ρ c _ (by decide)).trans ((show W5 (F := Ideal) m ρ c _ = W4 m ρ c _ from by host_kept hostOps2).trans ((W4_of_ne m ρ c _ (by decide)).trans ((show W3 (F := Ideal) m ρ c _ = W2 m ρ c _ from by host_kept hostOps1).trans ((W2_of_ne m ρ c _ (by decide)).trans ((show W1 (F := Ideal) m ρ c _ = W0 m ρ c _ from by host_kept hostOps0).trans rfl)))))

/-! ## The activations -/

-- the buffers' types are table look-ups whose cost grows with the buffer's number
set_option maxHeartbeats 2000000 in
/-- The layer's activations are the reference's. -/
theorem act
    (hlin : (W6 (F := Ideal) m ρ c (Proc.devRef .tc main_v50_0) : S100000x512.Idx → EReal) = Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
    (hsum : ∀ q : Fin 512, (W6 (F := Ideal) m ρ c (Proc.devRef .tc main_v50_1) : S1x512.Idx → EReal) (ix2 0 q)
      = ∑ r : Fin 100000, Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 r q))
    (hsq : ∀ q : Fin 512, (W6 (F := Ideal) m ρ c (Proc.devRef .tc main_v50_2) : S1x512.Idx → EReal) (ix2 0 q)
      = ∑ r : Fin 100000, Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 r q) * Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 r q))
    (hvar : ∀ q : Fin 512, Cert.ReferenceIdeal.Read.val_main_v81 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix1 q) = Cert.Algebra.varSq (fun r : Fin 100000 => Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 r q))) :
    (W8 (F := Ideal) m ρ c (Proc.devRef .tc main_v63) : S100000x512.Idx → EReal) = Cert.ReferenceIdeal.Read.val_main_v97 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have harr : W8 (F := Ideal) m ρ c (Proc.devRef .tc main_v63) = (dat3 (V7 m ρ) c).arrAt 5 cfg3.N := W8_arr m ρ c 5
  rw [harr]
  funext i
  obtain ⟨p, q, rfl⟩ : ∃ (p : Fin 100000) (q : Fin 512), i = ix2 p q := ⟨i 0, i 1, eq_ix2 i⟩
  have hmean : Cert.ReferenceIdeal.Read.val_main_v74 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix1 q) = Cert.Algebra.mean (fun r : Fin 100000 => Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 r q)) :=
    Cert.ReferenceIdeal.RefValue.mean2_apply (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) q
  have e0 : (V7 (F := Ideal) m ρ c main_v50_0 : S100000x512.Idx → EReal) (ix2 p q) = Cert.ReferenceIdeal.Read.val_main_v71 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 p q) := by
    rw [lin_kept, hlin]
  have e1 : (V7 (F := Ideal) m ρ c main_v59 : S1x512.Idx → EReal) (ix2 0 q) = Cert.ReferenceIdeal.Read.val_main_v74 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix1 q) := by
    rw [mean_row, rowOf_apply, meanVec_apply, hsum, hmean]; rfl
  have e2 : (V7 (F := Ideal) m ρ c main_v60 : S1x512.Idx → EReal) (ix2 0 q) = Cert.ReferenceIdeal.Read.val_main_v81 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix1 q) := by
    rw [var_row, rowOf_apply, varVec_apply, hsum, hsq, hvar]; rfl
  have e3 : (V7 (F := Ideal) m ρ c main_v61 : S1x512.Idx → EReal) (ix2 0 q) = (m ((c.tc : Thread nD τ).loc main_arg10)) (ix1 q) := by
    rw [scale_row, rowOf_apply, scale_arg]
  have e4 : (V7 (F := Ideal) m ρ c main_v62 : S1x512.Idx → EReal) (ix2 0 q) = (m ((c.tc : Thread nD τ).loc main_arg11)) (ix1 q) := by
    rw [shift_row, rowOf_apply, shift_arg]
  rw [Cert.KernelIdeal.BnValue3.final (V7 m ρ) c p q, e0, e1, e2, e3, e4]
  exact (Cert.ReferenceIdeal.RefValue.act2_apply (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) p q).symm

end Cert.KernelIdeal.Chain3

end
-- ==== Proof.MlpEntry.lean ====
/-
  The read-out perceptron's arithmetic, read at one entry.

  The body multiplies the pooled rows by the first weight matrix, adds the first bias row to every row, rectifies
  against zero, multiplies by the second weight matrix and adds the second bias row.  On the extended reals the
  narrowing of the operands is the identity and each product into the zero accumulator is the plain sum over the
  contracted index, so entry (p, q) of the result is the two-layer perceptron of row p of the pooled rows, output q.
-/
import proofs.«138176_j46557445489257_1_alg».proof.Proof.Gen.KernelIdeal.Skeleton
import proofs.«138176_j46557445489257_1_alg».proof.Proof.Spec
import proofs.«138176_j46557445489257_1_alg».proof.Proof.LibMatmulAt
import Idealize.ShloMosaic.Lib.ValueIdx
import Idealize.ShloMosaic.Lib.ValueLayout
import Idealize.ShloMosaic.Lib.Pipeline.Value

noncomputable section

open scoped BigOperators

namespace Cert.KernelIdeal.MlpEntry

open Cert.KernelIdeal Cert.KernelIdeal.Gen Idealize.ShloMosaic Idealize.ShloMosaic.ValueIdx Cert.LibMatmulAt

/-- Entry (p, q) of the body's result, for any five operand arrays: the perceptron of row p of the first operand with
    the weights and bias rows the other four hold, read at output q.  It depends on row p of `x0`, all of `x1`,
    row 0 of `x2`, column q of `x3` and entry (0, q) of `x4`. -/
theorem pay_apply (x0 : Vec Ideal S512x512 .f32) (x1 : Vec Ideal S512x256 .f32) (x2 : Vec Ideal S1x256 .f32)
    (x3 : Vec Ideal S256x128 .f32) (x4 : Vec Ideal S1x128 .f32) (p : Fin 512) (q : Fin 128) :
    Gen.k4_pay1 (F := Ideal) x0 x1 x2 x3 x4 (ix2 p q)
      = Cert.Spec.mlpE (fun k : Fin 512 => x0 (ix2 p k)) (fun (k : Fin 512) (l : Fin 256) => x1 (ix2 k l))
          (fun l : Fin 256 => x2 (ix2 0 l)) (fun l : Fin 256 => x3 (ix2 l q)) (x4 (ix2 0 q)) := by
  unfold Gen.k4_pay1 Cert.Spec.mlpE
  dsimp only
  refine (addf_apply _ _ (ix2 p q)).trans ?_
  refine congrArg₂ (· + ·) ?_ ?_
  · -- the second product at (p, q): the sum over the hidden units
    refine (matmul_zero_apply dot_S512x256_S256x128_S512x128_1_0_0_1_n_n rfl rfl rfl rfl rfl rfl none _ _ p q).trans ?_
    refine Finset.sum_congr rfl fun l _ => ?_
    refine congrArg₂ (· * ·) ?_ rfl
    -- hidden unit l of row p: the rectified first layer
    refine (truncf_apply (ψ := .bf16) (φ := .f32) _ bitsLt_bf16_f32 (ix2 p l)).trans ?_
    refine (maximumf_apply _ _ (ix2 p l)).trans ?_
    refine congrArg₂ max ?_ rfl
    refine (addf_apply _ _ (ix2 p l)).trans ?_
    refine congrArg₂ (· + ·) ?_ ?_
    · -- the first product at (p, l): the sum over the pooled row
      refine (matmul_zero_apply dot_S512x512_S512x256_S512x256_1_0_0_1_n_n rfl rfl rfl rfl rfl rfl none _ _ p l).trans ?_
      refine Finset.sum_congr rfl fun k _ => ?_
      refine congrArg₂ (· * ·) ?_ rfl
      exact congrFun (shapeCast_self x0 shapeCasts_S512x512_S512x512) (ix2 p k)
    · -- the first bias row, the same for every row p
      refine (broadcastTo_1b_ab_apply _ broadcasts_S1x256_S512x256 p l).trans ?_
      exact congrFun (shapeCast_self x2 shapeCasts_S1x256_S1x256) (ix2 0 l)
  · -- the second bias row
    refine (broadcastTo_1b_ab_apply _ broadcasts_S1x128_S512x128 p q).trans ?_
    exact congrFun (shapeCast_self x4 shapeCasts_S1x128_S1x128) (ix2 0 q)

end Cert.KernelIdeal.MlpEntry

end
-- ==== Proof.MlpValue4.lean ====
/-
  The read-out region's output array, read at an entry.

  The region's grid is one point and every window is its whole array at block (0, 0): each input block is the array
  as the region finds it, the one store of the body fills the output's buffer with the body's result, and the one
  write-back covers the output array.  So the output array ends holding the body's arithmetic of the five input
  arrays, and its entry (p, q) is the two-layer perceptron of row p of the pooled rows, output q.
-/
import proofs.«138176_j46557445489257_1_alg».proof.Proof.Gen.KernelIdeal.Frame
import proofs.«138176_j46557445489257_1_alg».proof.Proof.MlpEntry
import Idealize.ShloMosaic.Lib.Pipeline.Value

noncomputable section

open scoped BigOperators

namespace Cert.KernelIdeal.MlpValue4

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The zero offsets of a rank-2 access, as the constant function. -/
theorem hz : (![0, 0] : Fin 2 → Nat) = fun _ => 0 := funext fun a => by fin_cases a <;> rfl

/-- The body's one store is of the whole buffer and its five loads are of whole buffers: what it leaves in the
    output's buffer is its arithmetic of the five input buffers. -/
theorem out_eq (x0 : Vec Ideal S512x512 .f32) (x1 : Vec Ideal S512x256 .f32) (x2 : Vec Ideal S1x256 .f32)
    (x3 : Vec Ideal S256x128 .f32) (x4 : Vec Ideal S1x128 .f32) :
    Gen.out4_5 (F := Ideal) x0 x1 x2 x3 x4 = Gen.k4_pay1 (F := Ideal) x0 x1 x2 x3 x4 := by
  unfold Gen.out4_5
  rw [View.canon_unit_zero hz]
  simp only [View.ld_unit_zero (S := S512x512) hz, View.ld_unit_zero (S := S512x256) hz,
    View.ld_unit_zero (S := S1x256) hz, View.ld_unit_zero (S := S256x128) hz, View.ld_unit_zero (S := S1x128) hz]

/-- The body's arithmetic respects equality of its operands. -/
theorem pay_congr {x0 y0 : Vec Ideal S512x512 .f32} {x1 y1 : Vec Ideal S512x256 .f32} {x2 y2 : Vec Ideal S1x256 .f32}
    {x3 y3 : Vec Ideal S256x128 .f32} {x4 y4 : Vec Ideal S1x128 .f32}
    (h0 : x0 = y0) (h1 : x1 = y1) (h2 : x2 = y2) (h3 : x3 = y3) (h4 : x4 = y4) :
    Gen.k4_pay1 (F := Ideal) x0 x1 x2 x3 x4 = Gen.k4_pay1 (F := Ideal) y0 y1 y2 y3 y4 := by
  subst h0 h1 h2 h3 h4; rfl

/-! ## Each input block is its whole array -/

theorem iblk_0 (c : Dev nD) : (Gen.iblk4 V c 0 t4_0 : Vec Ideal S512x512 .f32) = V c main_v75 := by
  unfold Gen.iblk4
  have hz' : (fun a => win4_0.index t4_0 a * main_v75.ty.shape.size a) = fun _ => 0 := funext fun a => by fin_cases a <;> decide +kernel
  exact Memref.read_access_unit_zero (Elt Ideal) main_v75 hz' (fun a => by rw [congrFun hz' a]; simp) (V c main_v75)

theorem iblk_1 (c : Dev nD) : (Gen.iblk4 V c 1 t4_0 : Vec Ideal S512x256 .f32) = V c main_arg12 := by
  unfold Gen.iblk4
  have hz' : (fun a => win4_1.index t4_0 a * main_arg12.ty.shape.size a) = fun _ => 0 := funext fun a => by fin_cases a <;> decide +kernel
  exact Memref.read_access_unit_zero (Elt Ideal) main_arg12 hz' (fun a => by rw [congrFun hz' a]; simp) (V c main_arg12)

theorem iblk_2 (c : Dev nD) : (Gen.iblk4 V c 2 t4_0 : Vec Ideal S1x256 .f32) = V c main_v76 := by
  unfold Gen.iblk4
  have hz' : (fun a => win4_2.index t4_0 a * main_v76.ty.shape.size a) = fun _ => 0 := funext fun a => by fin_cases a <;> decide +kernel
  exact Memref.read_access_unit_zero (Elt Ideal) main_v76 hz' (fun a => by rw [congrFun hz' a]; simp) (V c main_v76)

theorem iblk_3 (c : Dev nD) : (Gen.iblk4 V c 3 t4_0 : Vec Ideal S256x128 .f32) = V c main_arg14 := by
  unfold Gen.iblk4
  have hz' : (fun a => win4_3.index t4_0 a * main_arg14.ty.shape.size a) = fun _ => 0 := funext fun a => by fin_cases a <;> decide +kernel
  exact Memref.read_access_unit_zero (Elt Ideal) main_arg14 hz' (fun a => by rw [congrFun hz' a]; simp) (V c main_arg14)

theorem iblk_4 (c : Dev nD) : (Gen.iblk4 V c 4 t4_0 : Vec Ideal S1x128 .f32) = V c main_v77 := by
  unfold Gen.iblk4
  have hz' : (fun a => win4_4.index t4_0 a * main_v77.ty.shape.size a) = fun _ => 0 := funext fun a => by fin_cases a <;> decide +kernel
  exact Memref.read_access_unit_zero (Elt Ideal) main_v77 hz' (fun a => by rw [congrFun hz' a]; simp) (V c main_v77)

/-! ## The output array -/

/-- The body's arithmetic of the five input arrays as the region finds them. -/
abbrev G (c : Dev nD) : Buf (Elt Ideal) ((c : Thread nD τ).loc main_v78) :=
  Gen.k4_pay1 (F := Ideal) (V c main_v75) (V c main_arg12) (V c main_v76) (V c main_arg14) (V c main_v77)

/-- What the one point writes back is block (0, 0), the whole, of `G`. -/
theorem flushed_eq (c : Dev nD) (t : Fin cfg4.N) :
    (Gen.dat4 (F := Ideal) V c).flushed 5 t = ((cfg4.win 5).blk t).view.read (Elt Ideal) (G V c) := by
  obtain rfl := fin_N4 t
  show (cfg4.win 5).cut (grid4.coords t4_0) ((Gen.dat4 (F := Ideal) V c).after 5 t4_0) = _
  rw [after4_5, out_eq, pay_congr (iblk_0 V c) (iblk_1 V c) (iblk_2 V c) (iblk_3 V c) (iblk_4 V c)]
  have hz' : (fun a => win4_5.index t4_0 a * main_v78.ty.shape.size a) = fun _ => 0 := funext fun a => by fin_cases a <;> decide +kernel
  exact (Memref.read_access_unit_zero (Elt Ideal) main_v78 hz' (fun a => by rw [congrFun hz' a]; simp) (G V c)).symm

/-- The output array after the region: `G`, the one block covering it. -/
theorem arr_eq (c : Dev nD) : (Gen.dat4 (F := Ideal) V c).arrAt 5 cfg4.N = G V c :=
  (Gen.dat4 (F := Ideal) V c).arrAt_eq_of_cover 5 (G V c) (fun t _ => flushed_eq V c t) fun i =>
    ⟨t4_0, flush4_5 t4_0, by
      show i ∈ ((View.whole main_v78).slice (win4_5.rect t4_0)).set
      rw [View.set_slice_whole, Rect.mem_set_unit]
      intro a
      have h0 : (i 0 : Nat) < 512 := (i 0).isLt
      have h1 : (i 1 : Nat) < 128 := (i 1).isLt
      match a with
      | ⟨0, _⟩ =>
        show win4_5.index t4_0 0 * win4_5.size 0 ≤ (i 0 : Nat) ∧ (i 0 : Nat) < win4_5.index t4_0 0 * win4_5.size 0 + win4_5.xsize (grid4.coords t4_0) 0
        rw [show win4_5.index t4_0 0 * win4_5.size 0 = 0 from by decide +kernel, show win4_5.xsize (grid4.coords t4_0) 0 = 512 from by decide +kernel]; omega
      | ⟨1, _⟩ =>
        show win4_5.index t4_0 1 * win4_5.size 1 ≤ (i 1 : Nat) ∧ (i 1 : Nat) < win4_5.index t4_0 1 * win4_5.size 1 + win4_5.xsize (grid4.coords t4_0) 1
        rw [show win4_5.index t4_0 1 * win4_5.size 1 = 0 from by decide +kernel, show win4_5.xsize (grid4.coords t4_0) 1 = 128 from by decide +kernel]; omega⟩

/-- Entry (p, q) of the output array after the region: the perceptron of row p of the pooled rows, output q, with the
    weights and bias rows the region finds in its other four input arrays. -/
theorem final (V : (c : Dev nD) → (b : Ref sig .tc) → Buf (Elt Ideal) ((c : Thread nD τ).loc b)) (c : Dev nD) (p : Fin 512) (q : Fin 128) :
    (Gen.dat4 (F := Ideal) V c).arrAt 5 cfg4.N (ix2 p q)
      = Cert.Spec.mlpE (fun k : Fin 512 => V c main_v75 (ix2 p k)) (fun (k : Fin 512) (l : Fin 256) => V c main_arg12 (ix2 k l)) (fun l : Fin 256 => V c main_v76 (ix2 0 l)) (fun l : Fin 256 => V c main_arg14 (ix2 l q)) (V c main_v77 (ix2 0 q)) :=
  (congrFun (arr_eq V c) (ix2 p q)).trans
    (MlpEntry.pay_apply (V c main_v75) (V c main_arg12) (V c main_v76) (V c main_arg14) (V c main_v77) p q)

end Cert.KernelIdeal.MlpValue4

end
-- ==== Proof.RefReadout.lean ====
/-
  The read-out of the reference network, entry by entry, on the extended reals.

  With the pooled rows kept as an array, the output entry (p, q) is a two-layer perceptron of pooled row p: each of the 256
  hidden units l is row p against column l of the first weights plus the first bias at l, rectified at the zero word; the
  output is the hidden row against column q of the second weights plus the second bias at q.
-/
import proofs.«138176_j46557445489257_1_alg».proof.Proof.Gen.ReferenceIdeal.Read
import proofs.«138176_j46557445489257_1_alg».proof.Proof.Spec

noncomputable section

open scoped BigOperators

namespace Cert.ReferenceIdeal.RefValue

open Cert.ReferenceIdeal Cert.ReferenceIdeal.Read Idealize.ShloMosaic Idealize.ShloMosaic.ValueIdx

variable (x0 : (⟨S100000x1, .i32⟩ : BufTy).Contents (Elt Ideal)) (x1 : (⟨S2x250000, .i32⟩ : BufTy).Contents (Elt Ideal))
  (x2 : (⟨S100000, .i32⟩ : BufTy).Contents (Elt Ideal))
  (x3 : (⟨S1000x256, .f32⟩ : BufTy).Contents (Elt Ideal)) (x4 : (⟨S256x512, .f32⟩ : BufTy).Contents (Elt Ideal))
  (x5 x6 x7 : (⟨S512, .f32⟩ : BufTy).Contents (Elt Ideal)) (x8 : (⟨S512x512, .f32⟩ : BufTy).Contents (Elt Ideal))
  (x9 x10 x11 : (⟨S512, .f32⟩ : BufTy).Contents (Elt Ideal)) (x12 : (⟨S512x256, .f32⟩ : BufTy).Contents (Elt Ideal))
  (x13 : (⟨S256, .f32⟩ : BufTy).Contents (Elt Ideal)) (x14 : (⟨S256x128, .f32⟩ : BufTy).Contents (Elt Ideal))
  (x15 : (⟨S128, .f32⟩ : BufTy).Contents (Elt Ideal))

/-- The output at (p, q): the outer contraction runs over the 256 hidden units, the inner one over the 512 pooled features;
    each bias is read through its two row spreads. -/
theorem readout_apply (p : Fin 512) (q : Fin 128) :
    val_main_v118 (F := Ideal) x0 x1 x2 x3 x4 x5 x6 x7 x8 x9 x10 x11 x12 x13 x14 x15 (ix2 p q)
      = Cert.Spec.mlpE (fun k : Fin 512 => val_main_v109 (F := Ideal) x0 x1 x2 x3 x4 x5 x6 x7 x8 x9 x10 x11 (ix2 p k))
          (fun (k : Fin 512) (l : Fin 256) => x12 (ix2 k l)) (fun l : Fin 256 => x13 (ix1 l))
          (fun l : Fin 256 => x14 (ix2 l q)) (x15 (ix1 q)) := by
  have e1 : ∀ l : Fin 256, lidx_main_v115 (ix2 p q) l = ix2 p l := fun l =>
    funext fun a => Fin.ext (by match a with | ⟨0, _⟩ => rfl | ⟨1, _⟩ => rfl)
  have e2 : ∀ l : Fin 256, ridx_main_v115 (ix2 p q) l = ix2 l q := fun l =>
    funext fun a => Fin.ext (by match a with | ⟨0, _⟩ => rfl | ⟨1, _⟩ => rfl)
  have e3 : ∀ (l : Fin 256) (k : Fin 512), lidx_main_v110 (ix2 p l) k = ix2 p k := fun l k =>
    funext fun a => Fin.ext (by match a with | ⟨0, _⟩ => rfl | ⟨1, _⟩ => rfl)
  have e4 : ∀ (l : Fin 256) (k : Fin 512), ridx_main_v110 (ix2 p l) k = ix2 k l := fun l k =>
    funext fun a => Fin.ext (by match a with | ⟨0, _⟩ => rfl | ⟨1, _⟩ => rfl)
  have e5 : ∀ l : Fin 256, idx_main_v111 (idx_main_v112 (ix2 p l)) = ix1 l := fun l =>
    funext fun a => Fin.ext (by match a with | ⟨0, _⟩ => rfl)
  have e6 : idx_main_v116 (idx_main_v117 (ix2 p q)) = ix1 q :=
    funext fun a => Fin.ext (by match a with | ⟨0, _⟩ => rfl)
  rw [val_main_v118_apply, val_main_v115_apply, val_main_v117_apply, val_main_v116_apply]
  simp only [e1, e2, val_main_v114_apply, val_main_v113_apply, val_main_v110_apply, val_main_v112_apply,
    val_main_v111_apply, val_main_call2_v0_apply, val_main_call2_cst_apply, e3, e4, e5, e6,
    Ideal.maximumf_def, Ideal.addf_def, Ideal.ofBits_def]
  rfl

end Cert.ReferenceIdeal.RefValue

end
-- ==== Proof.Chain4.lean ====
import proofs.«138176_j46557445489257_1_alg».proof.Proof.Gen.KernelIdeal.Frame
import proofs.«138176_j46557445489257_1_alg».proof.Proof.Gen.ReferenceIdeal.Read
import proofs.«138176_j46557445489257_1_alg».proof.Proof.MlpValue4
import proofs.«138176_j46557445489257_1_alg».proof.Proof.RefReadout
import Idealize.ShloMosaic.Lib.StableHlo.Run
import Idealize.ShloMosaic.Lib.ValueLayout

/-!
  The last link: from the second layer's rectified rows to the result.

  The last stretch of host operations pools the rows by graph (an accumulating scatter of the rows by the graph index,
  divided by the graph sizes floored at one) and reshapes the two read-out biases to rows; the last region's output
  entry (p, q) is the two-layer perceptron of pooled row p. The reference program computes the same pooled rows with the
  same operations from the same index array, and its output entry (p, q) is the same perceptron. So once the rows that
  enter the pooling agree, the results agree entry by entry: the pooled rows as whole arrays, the two weight arrays as
  launched, and each bias row entry read through its reshape.
-/

set_option maxRecDepth 16384

noncomputable section

namespace Cert.KernelIdeal.Chain4

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ) (ρ : Dev nD → PrngReg)

/-- No operation of the last host stretch writes the reference in view: its contents pass through the stretch. -/
local macro "kept4" : tactic => `(tactic| (
  refine StableHlo.after_of_forall_not_mem _ _ (List.forall_iff_forall_mem.mp ?_)
  simp only [hostOps4, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The argument arrays the last stretch and the last region read are as launched

An argument array is written by no host operation and no region, so it holds its launch contents at the end; the last
region and the last stretch do not write it either (the region reads the two weight arrays through input windows, which
leave an array as entered), so it held them already before each. -/

/-- The graph index array, before the last stretch. -/
theorem W8_arg2 (c : Dev nD) : W8 m ρ c (Proc.devRef .tc main_arg2) = m ((c.tc : Thread nD τ).loc main_arg2) :=
  calc W8 m ρ c (Proc.devRef .tc main_arg2)
    _ = W9 m ρ c (Proc.devRef .tc main_arg2) := Eq.symm (by kept4)
    _ = W10 m ρ c (Proc.devRef .tc main_arg2) := (W10_of_ne m ρ c main_arg2 (by decide)).symm
    _ = _ := W10_main_arg2 m ρ c

/-- The first read-out bias, before the last stretch. -/
theorem W8_arg13 (c : Dev nD) : W8 m ρ c (Proc.devRef .tc main_arg13) = m ((c.tc : Thread nD τ).loc main_arg13) :=
  calc W8 m ρ c (Proc.devRef .tc main_arg13)
    _ = W9 m ρ c (Proc.devRef .tc main_arg13) := Eq.symm (by kept4)
    _ = W10 m ρ c (Proc.devRef .tc main_arg13) := (W10_of_ne m ρ c main_arg13 (by decide)).symm
    _ = _ := W10_main_arg13 m ρ c

/-- The second read-out bias, before the last stretch. -/
theorem W8_arg15 (c : Dev nD) : W8 m ρ c (Proc.devRef .tc main_arg15) = m ((c.tc : Thread nD τ).loc main_arg15) :=
  calc W8 m ρ c (Proc.devRef .tc main_arg15)
    _ = W9 m ρ c (Proc.devRef .tc main_arg15) := Eq.symm (by kept4)
    _ = W10 m ρ c (Proc.devRef .tc main_arg15) := (W10_of_ne m ρ c main_arg15 (by decide)).symm
    _ = _ := W10_main_arg15 m ρ c

/-- The first read-out weights, at the last region's entry. -/
theorem W9_arg12 (c : Dev nD) : W9 m ρ c (Proc.devRef .tc main_arg12) = m ((c.tc : Thread nD τ).loc main_arg12) :=
  ((W10_arr m ρ c 1).trans (((dat4 (V9 m ρ) c).arrAt_in 1 rfl _).trans (A_eq4 (V9 m ρ) c 1))).symm.trans (W10_main_arg12 m ρ c)

/-- The second read-out weights, at the last region's entry. -/
theorem W9_arg14 (c : Dev nD) : W9 m ρ c (Proc.devRef .tc main_arg14) = m ((c.tc : Thread nD τ).loc main_arg14) :=
  ((W10_arr m ρ c 3).trans (((dat4 (V9 m ρ) c).arrAt_in 3 rfl _).trans (A_eq4 (V9 m ρ) c 3))).symm.trans (W10_main_arg14 m ρ c)

/-! ## The five operands of the last region -/

/-- The pooled rows: the accumulating scatter of the rectified rows by the graph index, divided entrywise by the graph
    sizes floored at one, is the reference's pooled-rows array once the rectified rows agree. The two programs apply
    the same operations to the same index array. -/
theorem pooled_eq (c : Dev nD)
    (h63 : (W8 (F := Ideal) m ρ c (Proc.devRef .tc main_v63) : S100000x512.Idx → EReal)
      = Cert.ReferenceIdeal.Read.val_main_v97 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    (W9 (F := Ideal) m ρ c (Proc.devRef .tc main_v75) : S512x512.Idx → EReal)
      = Cert.ReferenceIdeal.Read.val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after hostOps4 (W8 m ρ c) (Proc.devRef .tc main_v75) = _
  after_results_simp
  rw [h63, W8_arg2 m ρ c]
  rfl

/-- The first bias row: the reshape of the 256 biases to a 1 × 256 row reads, at (0, l), the bias at l. -/
theorem bias1_apply (c : Dev nD) (l : Fin 256) :
    (W9 (F := Ideal) m ρ c (Proc.devRef .tc main_v76) : S1x256.Idx → EReal) (ix2 0 l)
      = m ((c.tc : Thread nD τ).loc main_arg13) (ix1 l) := by
  show StableHlo.after hostOps4 (W8 m ρ c) (Proc.devRef .tc main_v76) (ix2 0 l) = _
  after_results_simp
  rw [W8_arg13 m ρ c]
  exact shapeCast_a_1a_apply _ _ 0 l

/-- The second bias row: the reshape of the 128 biases to a 1 × 128 row reads, at (0, q), the bias at q. -/
theorem bias2_apply (c : Dev nD) (q : Fin 128) :
    (W9 (F := Ideal) m ρ c (Proc.devRef .tc main_v77) : S1x128.Idx → EReal) (ix2 0 q)
      = m ((c.tc : Thread nD τ).loc main_arg15) (ix1 q) := by
  show StableHlo.after hostOps4 (W8 m ρ c) (Proc.devRef .tc main_v77) (ix2 0 q) = _
  after_results_simp
  rw [W8_arg15 m ρ c]
  exact shapeCast_a_1a_apply _ _ 0 q

/-! ## The result -/

/-- The result array after the last region is the reference's result, given that the second layer's rectified rows
    agree: both are, at (p, q), the perceptron of pooled row p with the launched weights and biases. -/
theorem result_eq (m : (ℓ : Loc nD τ sig) → Buf (Elt Ideal) ℓ) (ρ : Dev nD → PrngReg) (c : Dev nD)
    (h63 : (W8 (F := Ideal) m ρ c (Proc.devRef .tc main_v63) : S100000x512.Idx → EReal)
      = Cert.ReferenceIdeal.Read.val_main_v97 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    (W10 (F := Ideal) m ρ c (Proc.devRef .tc main_v78) : S512x128.Idx → EReal)
      = Cert.ReferenceIdeal.Read.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  funext i
  obtain ⟨p, q, rfl⟩ : ∃ (p : Fin 512) (q : Fin 128), i = ix2 p q := ⟨i 0, i 1, eq_ix2 i⟩
  have e0 : (fun k : Fin 512 => V9 m ρ c main_v75 (ix2 p k))
      = fun k : Fin 512 => Cert.ReferenceIdeal.Read.val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix2 p k) :=
    funext fun k => congrFun (pooled_eq m ρ c h63) (ix2 p k)
  have e1 : (fun (k : Fin 512) (l : Fin 256) => V9 m ρ c main_arg12 (ix2 k l))
      = fun (k : Fin 512) (l : Fin 256) => m ((c.tc : Thread nD τ).loc main_arg12) (ix2 k l) :=
    funext fun k => funext fun l => congrFun (W9_arg12 m ρ c) (ix2 k l)
  have e2 : (fun l : Fin 256 => V9 m ρ c main_v76 (ix2 0 l))
      = fun l : Fin 256 => m ((c.tc : Thread nD τ).loc main_arg13) (ix1 l) :=
    funext fun l => bias1_apply m ρ c l
  have e3 : (fun l : Fin 256 => V9 m ρ c main_arg14 (ix2 l q))
      = fun l : Fin 256 => m ((c.tc : Thread nD τ).loc main_arg14) (ix2 l q) :=
    funext fun l => congrFun (W9_arg14 m ρ c) (ix2 l q)
  have e4 : V9 m ρ c main_v77 (ix2 0 q) = m ((c.tc : Thread nD τ).loc main_arg15) (ix1 q) := bias2_apply m ρ c q
  calc W10 m ρ c (Proc.devRef .tc main_v78) (ix2 p q)
    _ = (dat4 (V9 m ρ) c).arrAt 5 cfg4.N (ix2 p q) := congrFun (W10_arr m ρ c 5) (ix2 p q)
    _ = _ := MlpValue4.final (V9 m ρ) c p q
    _ = _ := by rw [e0, e1, e2, e3, e4]
    _ = _ := (Cert.ReferenceIdeal.RefValue.readout_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) p q).symm

end Cert.KernelIdeal.Chain4

end
-- ==== Proof.RefReal1.lean ====
/-
  Realness of the first layer of the reference network, and its variance in the one-pass form.

  Over real feature, weight, bias, scale and shift entries every stage of the first layer is an array of real numbers:
  the aggregated input is a gather plus an accumulating scatter of gathered rows into zeros; a linear entry is a finite sum
  of products plus a bias; the column mean and variance are the column statistics of the linear stage, the variance a
  non-negative real, equal to the mean of the squares minus the squared mean; the activated entry is the batch-norm
  expression of real numbers with a positive real under the reciprocal square root.
-/
import proofs.«138176_j46557445489257_1_alg».proof.Proof.RefLayer1
import proofs.«138176_j46557445489257_1_alg».proof.Proof.Algebra
import proofs.«138176_j46557445489257_1_alg».proof.Proof.LibFinite

noncomputable section

open scoped BigOperators

namespace Cert.ReferenceIdeal.RefValue

open Cert.ReferenceIdeal Cert.ReferenceIdeal.Read Idealize.ShloMosaic Idealize.ShloMosaic.ValueIdx
  Idealize.ShloMosaic.LibFinite

variable (x0 : (⟨S100000x1, .i32⟩ : BufTy).Contents (Elt Ideal)) (x1 : (⟨S2x250000, .i32⟩ : BufTy).Contents (Elt Ideal))
  (x3 : (⟨S1000x256, .f32⟩ : BufTy).Contents (Elt Ideal)) (x4 : (⟨S256x512, .f32⟩ : BufTy).Contents (Elt Ideal))
  (x5 x6 x7 : (⟨S512, .f32⟩ : BufTy).Contents (Elt Ideal))

/-- The gathered feature rows are real: each entry is an entry of the feature table. -/
theorem feat1_real (h3 : ∀ i, IsReal (x3 i)) : ∀ i, IsReal (val_main_v7 (F := Ideal) x0 x3 i) := fun i => by
  unfold val_main_v7
  exact isReal_gather _ x3 _ h3 i

/-- The aggregated input is real: an accumulating scatter of gathered (real) rows into the zero array, plus the gathered
    rows themselves. Neither the gathers nor the scatter are evaluated. -/
theorem agg1_real (h3 : ∀ i, IsReal (x3 i)) : ∀ i, IsReal (val_main_v22 (F := Ideal) x0 x1 x3 i) := fun i => by
  rw [val_main_v22_apply]
  simp only [Ideal.addf_def]
  refine IsReal.add _ _ ?_ (feat1_real x0 x3 h3 i)
  unfold val_main_v21
  refine isReal_scatterAdd _ _ _ _ (fun j => ?_) (fun j => ?_) i
  · rw [val_main_v19_apply, val_main_cst_apply]
    exact isReal_ofBits_zero
  · unfold val_main_v18
    exact isReal_gather _ _ _ (feat1_real x0 x3 h3) j

/-- A linear entry is real: a finite sum of products of real numbers plus a real bias. -/
theorem lin1_real (h3 : ∀ i, IsReal (x3 i)) (h4 : ∀ i, IsReal (x4 i)) (h5 : ∀ i, IsReal (x5 i))
    (p : Fin 100000) (q : Fin 512) : IsReal (val_main_v26 (F := Ideal) x0 x1 x3 x4 x5 (ix2 p q)) := by
  rw [lin1_apply]
  exact Cert.Algebra.linE_real _ _ _ (fun k => agg1_real x0 x1 x3 h3 _) (fun k => h4 _) (h5 _)

/-- The column mean stage is the mean of the linear stage's column. -/
theorem mean1_eq (q : Fin 512) :
    val_main_v29 (F := Ideal) x0 x1 x3 x4 x5 (ix1 q)
      = Cert.Algebra.mean (fun r : Fin 100000 => val_main_v26 (F := Ideal) x0 x1 x3 x4 x5 (ix2 r q)) := by
  rw [mean1_apply]
  rfl

/-- The column variance stage is the mean of the squared deviations of the linear stage's column. -/
theorem var1_eq (q : Fin 512) :
    val_main_v36 (F := Ideal) x0 x1 x3 x4 x5 (ix1 q)
      = Cert.Algebra.varDev (fun r : Fin 100000 => val_main_v26 (F := Ideal) x0 x1 x3 x4 x5 (ix2 r q)) := by
  rw [var1_apply, mean1_eq]
  rfl

/-- Over real inputs the column variance stage is the mean of the squares minus the squared mean. -/
theorem var1_onepass (h3 : ∀ i, IsReal (x3 i)) (h4 : ∀ i, IsReal (x4 i)) (h5 : ∀ i, IsReal (x5 i)) (q : Fin 512) :
    val_main_v36 (F := Ideal) x0 x1 x3 x4 x5 (ix1 q)
      = Cert.Algebra.varSq (fun r : Fin 100000 => val_main_v26 (F := Ideal) x0 x1 x3 x4 x5 (ix2 r q)) := by
  rw [var1_eq]
  exact Cert.Algebra.varDev_eq_varSq _ (fun r => lin1_real x0 x1 x3 x4 x5 h3 h4 h5 r q)

/-- An activated entry is real: the linear entry and its column's mean are real, the column's variance a non-negative
    real, the scale and the shift real. -/
theorem act1_real (h3 : ∀ i, IsReal (x3 i)) (h4 : ∀ i, IsReal (x4 i)) (h5 : ∀ i, IsReal (x5 i))
    (h6 : ∀ i, IsReal (x6 i)) (h7 : ∀ i, IsReal (x7 i)) (p : Fin 100000) (q : Fin 512) :
    IsReal (val_main_v52 (F := Ideal) x0 x1 x3 x4 x5 x6 x7 (ix2 p q)) := by
  rw [act1_apply]
  refine Cert.Algebra.bnRelu_real _ _ _ _ _ (lin1_real x0 x1 x3 x4 x5 h3 h4 h5 p q) ?_ ?_ (h6 _) (h7 _)
  · rw [mean1_eq]
    exact Cert.Algebra.mean_real _ (fun r => lin1_real x0 x1 x3 x4 x5 h3 h4 h5 r q)
  · rw [var1_eq]
    exact Cert.Algebra.varDev_nonneg _ (fun r => lin1_real x0 x1 x3 x4 x5 h3 h4 h5 r q)

/-- Every entry of the activated stage is real: every index of a 100000 by 512 array is a pair of coordinates. -/
theorem act1_real_all (h3 : ∀ i, IsReal (x3 i)) (h4 : ∀ i, IsReal (x4 i)) (h5 : ∀ i, IsReal (x5 i))
    (h6 : ∀ i, IsReal (x6 i)) (h7 : ∀ i, IsReal (x7 i)) :
    ∀ i, IsReal (val_main_v52 (F := Ideal) x0 x1 x3 x4 x5 x6 x7 i) := fun i => by
  obtain ⟨a, b, rfl⟩ : ∃ (a : Fin 100000) (b : Fin 512), i = ix2 a b := ⟨i 0, i 1, eq_ix2 i⟩
  exact act1_real x0 x1 x3 x4 x5 x6 x7 h3 h4 h5 h6 h7 a b

end Cert.ReferenceIdeal.RefValue

end
-- ==== Proof.RefReal2.lean ====
/-
  Realness of the second layer of the reference network, and its variance in the one-pass form.

  Over real inputs the first layer's activated stage is an array of real numbers, so the second aggregated input (a gather
  plus an accumulating scatter of gathered rows into zeros) is one too; the second linear stage, its column statistics and
  the second activated stage then follow as in the first layer.
-/
import proofs.«138176_j46557445489257_1_alg».proof.Proof.RefLayer2
import proofs.«138176_j46557445489257_1_alg».proof.Proof.RefReal1
import proofs.«138176_j46557445489257_1_alg».proof.Proof.Algebra
import proofs.«138176_j46557445489257_1_alg».proof.Proof.LibFinite

noncomputable section

open scoped BigOperators

namespace Cert.ReferenceIdeal.RefValue

open Cert.ReferenceIdeal Cert.ReferenceIdeal.Read Idealize.ShloMosaic Idealize.ShloMosaic.ValueIdx
  Idealize.ShloMosaic.LibFinite

variable (x0 : (⟨S100000x1, .i32⟩ : BufTy).Contents (Elt Ideal)) (x1 : (⟨S2x250000, .i32⟩ : BufTy).Contents (Elt Ideal))
  (x3 : (⟨S1000x256, .f32⟩ : BufTy).Contents (Elt Ideal)) (x4 : (⟨S256x512, .f32⟩ : BufTy).Contents (Elt Ideal))
  (x5 x6 x7 : (⟨S512, .f32⟩ : BufTy).Contents (Elt Ideal)) (x8 : (⟨S512x512, .f32⟩ : BufTy).Contents (Elt Ideal))
  (x9 x10 x11 : (⟨S512, .f32⟩ : BufTy).Contents (Elt Ideal))

/-- The second aggregated input is real: an accumulating scatter of gathered rows of the (real) first activated stage
    into the zero array, plus that stage itself. Neither the gather nor the scatter is evaluated. -/
theorem agg2_real (h3 : ∀ i, IsReal (x3 i)) (h4 : ∀ i, IsReal (x4 i)) (h5 : ∀ i, IsReal (x5 i)) (h6 : ∀ i, IsReal (x6 i)) (h7 : ∀ i, IsReal (x7 i)) :
    ∀ i, IsReal (val_main_v67 (F := Ideal) x0 x1 x3 x4 x5 x6 x7 i) := fun i => by
  rw [val_main_v67_apply]
  simp only [Ideal.addf_def]
  refine IsReal.add _ _ ?_ (act1_real_all x0 x1 x3 x4 x5 x6 x7 h3 h4 h5 h6 h7 i)
  unfold val_main_v66
  refine isReal_scatterAdd _ _ _ _ (fun j => ?_) (fun j => ?_) i
  · rw [val_main_v64_apply, val_main_cst_10_apply]
    exact isReal_ofBits_zero
  · unfold val_main_v63
    exact isReal_gather _ _ _ (act1_real_all x0 x1 x3 x4 x5 x6 x7 h3 h4 h5 h6 h7) j

/-- A second-layer linear entry is real: a finite sum of products of real numbers plus a real bias. -/
theorem lin2_real (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i))
    (p : Fin 100000) (q : Fin 512) : IsReal (val_main_v71 (F := Ideal) x0 x1 x3 x4 x5 x6 x7 x8 x9 (ix2 p q)) := by
  rw [lin2_apply]
  exact Cert.Algebra.linE_real _ _ _ (fun k => agg2_real x0 x1 x3 x4 x5 x6 x7 h3 h4 h5 h6 h7 _) (fun k => h8 _) (h9 _)

/-- The second column mean stage is the mean of the second linear stage's column. -/
theorem mean2_eq (q : Fin 512) :
    val_main_v74 (F := Ideal) x0 x1 x3 x4 x5 x6 x7 x8 x9 (ix1 q)
      = Cert.Algebra.mean (fun r : Fin 100000 => val_main_v71 (F := Ideal) x0 x1 x3 x4 x5 x6 x7 x8 x9 (ix2 r q)) := by
  rw [mean2_apply]
  rfl

/-- The second column variance stage is the mean of the squared deviations of the second linear stage's column. -/
theorem var2_eq (q : Fin 512) :
    val_main_v81 (F := Ideal) x0 x1 x3 x4 x5 x6 x7 x8 x9 (ix1 q)
      = Cert.Algebra.varDev (fun r : Fin 100000 => val_main_v71 (F := Ideal) x0 x1 x3 x4 x5 x6 x7 x8 x9 (ix2 r q)) := by
  rw [var2_apply, mean2_eq]
  rfl

/-- Over real inputs the second column variance stage is the mean of the squares minus the squared mean. -/
theorem var2_onepass (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (q : Fin 512) :
    val_main_v81 (F := Ideal) x0 x1 x3 x4 x5 x6 x7 x8 x9 (ix1 q)
      = Cert.Algebra.varSq (fun r : Fin 100000 => val_main_v71 (F := Ideal) x0 x1 x3 x4 x5 x6 x7 x8 x9 (ix2 r q)) := by
  rw [var2_eq]
  exact Cert.Algebra.varDev_eq_varSq _ (fun r => lin2_real x0 x1 x3 x4 x5 x6 x7 x8 x9 h3 h4 h5 h6 h7 h8 h9 r q)

/-- A second-layer activated entry is real: the linear entry and its column's mean are real, the column's variance a
    non-negative real, the scale and the shift real. -/
theorem act2_real (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (h10 : ∀ i, IsReal (x10 i)) (h11 : ∀ i, IsReal (x11 i)) (p : Fin 100000) (q : Fin 512) :
    IsReal (val_main_v97 (F := Ideal) x0 x1 x3 x4 x5 x6 x7 x8 x9 x10 x11 (ix2 p q)) := by
  rw [act2_apply]
  refine Cert.Algebra.bnRelu_real _ _ _ _ _ (lin2_real x0 x1 x3 x4 x5 x6 x7 x8 x9 h3 h4 h5 h6 h7 h8 h9 p q) ?_ ?_ (h10 _) (h11 _)
  · rw [mean2_eq]
    exact Cert.Algebra.mean_real _ (fun r => lin2_real x0 x1 x3 x4 x5 x6 x7 x8 x9 h3 h4 h5 h6 h7 h8 h9 r q)
  · rw [var2_eq]
    exact Cert.Algebra.varDev_nonneg _ (fun r => lin2_real x0 x1 x3 x4 x5 x6 x7 x8 x9 h3 h4 h5 h6 h7 h8 h9 r q)

/-- Every entry of the second activated stage is real: every index of a 100000 by 512 array is a pair of coordinates. -/
theorem act2_real_all (h3 : ∀ i, IsReal (x3 i)) (h4 : ∀ i, IsReal (x4 i)) (h5 : ∀ i, IsReal (x5 i)) (h6 : ∀ i, IsReal (x6 i)) (h7 : ∀ i, IsReal (x7 i)) (h8 : ∀ i, IsReal (x8 i)) (h9 : ∀ i, IsReal (x9 i)) (h10 : ∀ i, IsReal (x10 i)) (h11 : ∀ i, IsReal (x11 i)) :
    ∀ i, IsReal (val_main_v97 (F := Ideal) x0 x1 x3 x4 x5 x6 x7 x8 x9 x10 x11 i) := fun i => by
  obtain ⟨a, b, rfl⟩ : ∃ (a : Fin 100000) (b : Fin 512), i = ix2 a b := ⟨i 0, i 1, eq_ix2 i⟩
  exact act2_real x0 x1 x3 x4 x5 x6 x7 x8 x9 x10 x11 h3 h4 h5 h6 h7 h8 h9 h10 h11 a b

end Cert.ReferenceIdeal.RefValue

end
-- ==== Proof.Bridge.lean ====
/-
  The two programs' results are one array.

  Link by link: the aggregated inputs of the first layer agree (the same host operations on the same arguments); so do
  the linear outputs and their column sums; the means are the same quotients, and the variances — the mean of squares
  minus the squared mean on one side, the mean of the squared deviations on the other — are one number because every
  entry of the column is a real number (the inputs are finite); so the activations agree, and with them the second
  layer's aggregated inputs, linear outputs, statistics and activations; the pooled rows are the same host operations
  on equal arrays, and the read-out is the same perceptron of equal rows.
-/
import proofs.«138176_j46557445489257_1_alg».proof.Proof.Chain0
import proofs.«138176_j46557445489257_1_alg».proof.Proof.Chain1
import proofs.«138176_j46557445489257_1_alg».proof.Proof.Chain2
import proofs.«138176_j46557445489257_1_alg».proof.Proof.Chain3
import proofs.«138176_j46557445489257_1_alg».proof.Proof.Chain4
import proofs.«138176_j46557445489257_1_alg».proof.Proof.RefReal1
import proofs.«138176_j46557445489257_1_alg».proof.Proof.RefReal2

set_option maxRecDepth 16384

noncomputable section

namespace Cert.KernelIdeal.Bridge

open Cert.KernelIdeal Cert.KernelIdeal.Gen Idealize.ShloMosaic Idealize.ShloMosaic.TcCoe Idealize.ShloMosaic.ValueIdx
open Idealize.ShloMosaic.LibFinite Idealize.SL.Sem

variable (m : (ℓ : Loc nD τ sig) → Buf (Elt Ideal) ℓ) (ρ : Dev nD → PrngReg) (c : Dev nD)

/-- With the embedding table, both layers' weights and biases and the first layer's scale and shift real, the kernel's
    result buffer ends at the reference's result of the same arguments. -/
theorem result_eq
    (h3 : ∀ i, IsReal ((m ((c.tc : Thread nD τ).loc main_arg3)) i)) (h4 : ∀ i, IsReal ((m ((c.tc : Thread nD τ).loc main_arg4)) i)) (h5 : ∀ i, IsReal ((m ((c.tc : Thread nD τ).loc main_arg5)) i))
    (h6 : ∀ i, IsReal ((m ((c.tc : Thread nD τ).loc main_arg6)) i)) (h7 : ∀ i, IsReal ((m ((c.tc : Thread nD τ).loc main_arg7)) i)) (h8 : ∀ i, IsReal ((m ((c.tc : Thread nD τ).loc main_arg8)) i))
    (h9 : ∀ i, IsReal ((m ((c.tc : Thread nD τ).loc main_arg9)) i)) :
    (W10 (F := Ideal) m ρ c (Proc.devRef .tc main_v78) : S512x128.Idx → EReal)
      = Cert.ReferenceIdeal.Read.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  have hact1 := Cert.KernelIdeal.Chain1.act m ρ c (Cert.KernelIdeal.Chain0.lin1 m ρ c) (Cert.KernelIdeal.Chain0.sum1 m ρ c)
    (Cert.KernelIdeal.Chain0.sumsq1 m ρ c)
    (fun q => Cert.ReferenceIdeal.RefValue.var1_onepass (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) h3 h4 h5 q)
  have hact2 := Cert.KernelIdeal.Chain3.act m ρ c (Cert.KernelIdeal.Chain2.lin2 m ρ c hact1) (Cert.KernelIdeal.Chain2.sum2 m ρ c hact1)
    (Cert.KernelIdeal.Chain2.sumsq2 m ρ c hact1)
    (fun q => Cert.ReferenceIdeal.RefValue.var2_onepass (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) h3 h4 h5 h6 h7 h8 h9 q)
  exact Cert.KernelIdeal.Chain4.result_eq m ρ c hact2

end Cert.KernelIdeal.Bridge

end
-- ==== Proof.Finite1.lean ====
import proofs.«138176_j46557445489257_1_alg».proof.Pre_finite_inputs
import proofs.«138176_j46557445489257_1_alg».proof.Proof.LibFinite
import Idealize.ShloMosaic.Lib.ReduceAll

/-!
  From the precondition to real entries.

  The precondition is a conjunction of thirteen tests, one per float input x: every entry satisfies |x| < +∞, where
  |x| is max x (-x) on the extended reals and +∞ is the single-precision word 0x7F800000. Such an entry is neither
  infinity, so it is the coercion of a real number. The conjunction is a chain of `and`s of one-bit words; a chain that
  is 1 has every link 1, and a reduction by `and` over all axes that is 1 met a 1 at every index.
-/

noncomputable section

namespace Cert.Finite

open Idealize.ShloMosaic Idealize.ShloMosaic.LibFinite

/-- The rank-0 shape has exactly one index. -/
instance : Subsingleton Cert.Pre_finite_inputs.S_.Idx := ⟨fun a b => funext fun d => d.elim0⟩

/-- The single-precision word 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) is strictly below +∞ is a real number: x = ⊤ gives max ⊤ ⊥ = ⊤
    and x = ⊥ gives max ⊥ ⊤ = ⊤, neither below ⊤. -/
theorem isReal_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- One test of the precondition, read back: if the reduction by `and` over all axes of the entrywise comparison
    |x| < +∞ (the word 0x7F800000 spread over the shape) is 1, every entry of x is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ValueIdx.ix0 = 1#1) :
    ∀ i, IsReal (x i) := by
  intro i
  have h := Host.reduce_andi_all _ _ hr hu _ e i
  exact isReal_of_abs_lt (x i) h

end Cert.Finite

end
-- ==== Proof.Finite.lean ====
import proofs.«138176_j46557445489257_1_alg».proof.Pre_finite_inputs
import proofs.«138176_j46557445489257_1_alg».proof.Proof.LibFinite
import proofs.«138176_j46557445489257_1_alg».proof.Proof.Finite1

/-!
  The precondition's chain of thirteen tests, peeled link by link.

  The result word is ((…((t₃ ∧ t₄) ∧ t₅) ∧ … ) ∧ t₁₅), one test tₖ per float input, the chain cut into four stretches.
  A chain of `and`s of one-bit words that is 1 has its left end 1 and every test 1. The tests of the last six inputs are
  peeled and dropped; the tests of the first seven give that every entry of each of them is a real number.
-/

noncomputable section

namespace Cert.Finite

open Idealize.ShloMosaic Idealize.ShloMosaic.LibFinite Cert.Pre_finite_inputs

variable [Cert.Pre_finite_inputs.Facts]

/-- The last stretch (tests of inputs 13, 14, 15): if it is 1, the word it starts from is 1. -/
theorem part3_one (a14 : FVec Ideal S256x128 .f32) (a15 : FVec Ideal S128 .f32) (v48 : IVec S_ 1)
    (v49 v50 : FVec Ideal S256 .f32)
    (h : fn_part3 (F := Ideal) a14 a15 v48 v49 v50 ValueIdx.ix0 = 1#1) : v48 ValueIdx.ix0 = 1#1 := by
  have h1 := (IntOp.andi_eq_one.1 h).1
  have h2 := (IntOp.andi_eq_one.1 h1).1
  exact (IntOp.andi_eq_one.1 h2).1

/-- The third stretch (tests of inputs 10, 11, 12, then the last stretch): if it is 1, the word it starts from is 1. -/
theorem part2_one (a10 a11 : FVec Ideal S512 .f32) (a12 : FVec Ideal S512x256 .f32) (a13 : FVec Ideal S256 .f32)
    (a14 : FVec Ideal S256x128 .f32) (a15 : FVec Ideal S128 .f32) (v33 : IVec S_ 1)
    (h : fn_part2 (F := Ideal) a10 a11 a12 a13 a14 a15 v33 ValueIdx.ix0 = 1#1) : v33 ValueIdx.ix0 = 1#1 := by
  have h0 := part3_one _ _ _ _ _ h
  have h1 := (IntOp.andi_eq_one.1 h0).1
  have h2 := (IntOp.andi_eq_one.1 h1).1
  exact (IntOp.andi_eq_one.1 h2).1

/-- The second stretch (the reduction of input 6's comparison, the tests of inputs 7, 8, 9, then the rest): if it is 1,
    the word it starts from is 1, input 6's reduction is 1, and every entry of inputs 7, 8, 9 is a real number. -/
theorem part1_one (a7 : FVec Ideal S512 .f32) (a8 : FVec Ideal S512x512 .f32) (a9 a10 a11 : FVec Ideal S512 .f32)
    (a12 : FVec Ideal S512x256 .f32) (a13 : FVec Ideal S256 .f32) (a14 : FVec Ideal S256x128 .f32)
    (a15 : FVec Ideal S128 .f32) (v13 : IVec S_ 1) (v16 : IVec S512 1)
    (h : fn_part1 (F := Ideal) a7 a8 a9 a10 a11 a12 a13 a14 a15 v13 v16 ValueIdx.ix0 = 1#1) :
    v13 ValueIdx.ix0 = 1#1
      ∧ Host.reduce IntOp.andi v16 (constantI S_ 1 1#1) Facts.reducesTo_S512_S_d0 Facts.h_S_ ValueIdx.ix0 = 1#1
      ∧ (∀ i, IsReal (a7 i)) ∧ (∀ i, IsReal (a8 i)) ∧ (∀ i, IsReal (a9 i)) := by
  have h0 := part2_one _ _ _ _ _ _ _ h
  obtain ⟨h1, t9⟩ := IntOp.andi_eq_one.1 h0
  obtain ⟨h2, t8⟩ := IntOp.andi_eq_one.1 h1
  obtain ⟨h3, t7⟩ := IntOp.andi_eq_one.1 h2
  obtain ⟨h4, t6⟩ := IntOp.andi_eq_one.1 h3
  exact ⟨h4, t6, all_real a7 _ _ _ t7, all_real a8 _ _ _ t8, all_real a9 _ _ _ t9⟩

/-- The precondition read back: every entry of each of the first seven float inputs is a real number. -/
theorem real_of_pre
    (a0 : IVec Cert.Pre_finite_inputs.S100000x1 32) (a1 : IVec Cert.Pre_finite_inputs.S2x250000 32) (a2 : IVec Cert.Pre_finite_inputs.S100000 32)
    (a3 : FVec Ideal Cert.Pre_finite_inputs.S1000x256 .f32) (a4 : FVec Ideal Cert.Pre_finite_inputs.S256x512 .f32) (a5 a6 a7 : FVec Ideal Cert.Pre_finite_inputs.S512 .f32)
    (a8 : FVec Ideal Cert.Pre_finite_inputs.S512x512 .f32) (a9 a10 a11 : FVec Ideal Cert.Pre_finite_inputs.S512 .f32) (a12 : FVec Ideal Cert.Pre_finite_inputs.S512x256 .f32)
    (a13 : FVec Ideal Cert.Pre_finite_inputs.S256 .f32) (a14 : FVec Ideal Cert.Pre_finite_inputs.S256x128 .f32) (a15 : FVec Ideal Cert.Pre_finite_inputs.S128 .f32)
    (h : Cert.Pre_finite_inputs.fn (F := Ideal) a0 a1 a2 a3 a4 a5 a6 a7 a8 a9 a10 a11 a12 a13 a14 a15 = fun _ => 1#1) :
    (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) := by
  have h0 : Cert.Pre_finite_inputs.fn (F := Ideal) a0 a1 a2 a3 a4 a5 a6 a7 a8 a9 a10 a11 a12 a13 a14 a15 ValueIdx.ix0 = 1#1 :=
    congrFun h ValueIdx.ix0
  obtain ⟨h13, t6, r7, r8, r9⟩ := part1_one _ _ _ _ _ _ _ _ _ _ _ h0
  obtain ⟨h8, t5⟩ := IntOp.andi_eq_one.1 h13
  obtain ⟨t3, t4⟩ := IntOp.andi_eq_one.1 h8
  exact ⟨all_real a3 _ _ _ t3, all_real a4 _ _ _ t4, all_real a5 _ _ _ t5, all_real a6 _ _ _ t6, r7, r8, r9⟩

end Cert.Finite

end
-- ==== Proof.lean ====
/-
  The claim: a message-passing network's forward pass — an embedding lookup, two layers (sum the neighbours' features and
  the node's own, a linear map, batch normalisation over the 100000 nodes, a rectifier), a mean pool per graph and a
  two-layer read-out — computed by five tiled regions among host operations, against the same network written plainly.

  The frames of the two printed kernels are the generated ones; the reference's frame is its generated run with the
  result dropped. The ideal pass rewrote nothing, so there is nothing to preserve. For the values: the kernel's run ends
  with its result buffer at the last boundary's contents (Proof/KernelRun.lean), which is the reference's result of the
  same arguments (Proof/Bridge.lean: region by region the kernel's arrays are the reference's stages; the only law used
  beyond regrouping sums is that a column's mean of squared deviations is its mean of squares minus the squared mean,
  which holds because the finite inputs make every entry a real number, Proof/Finite.lean).
-/
import proofs.«138176_j46557445489257_1_alg».proof.Defs
import proofs.«138176_j46557445489257_1_alg».proof.Proof.Gen.Kernel
import proofs.«138176_j46557445489257_1_alg».proof.Proof.Gen.Kernel.Skeleton
import proofs.«138176_j46557445489257_1_alg».proof.Proof.Gen.Kernel.Launch
import proofs.«138176_j46557445489257_1_alg».proof.Proof.Gen.Kernel.Points
import proofs.«138176_j46557445489257_1_alg».proof.Proof.Gen.Kernel.Frame
import proofs.«138176_j46557445489257_1_alg».proof.Proof.Gen.KernelIdeal
import proofs.«138176_j46557445489257_1_alg».proof.Proof.Gen.KernelIdeal.Skeleton
import proofs.«138176_j46557445489257_1_alg».proof.Proof.Gen.KernelIdeal.Launch
import proofs.«138176_j46557445489257_1_alg».proof.Proof.Gen.KernelIdeal.Points
import proofs.«138176_j46557445489257_1_alg».proof.Proof.Gen.KernelIdeal.Frame
import proofs.«138176_j46557445489257_1_alg».proof.Proof.Gen.ReferenceIdeal
import proofs.«138176_j46557445489257_1_alg».proof.Proof.Gen.Pre_finite_inputs
import proofs.«138176_j46557445489257_1_alg».proof.Proof.Gen.ReferenceIdeal.Run
import proofs.«138176_j46557445489257_1_alg».proof.Proof.Gen.ReferenceIdeal.Read
import proofs.«138176_j46557445489257_1_alg».proof.Proof.KernelRun
import proofs.«138176_j46557445489257_1_alg».proof.Proof.Bridge
import proofs.«138176_j46557445489257_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs run, and the reference's result is the kernel's: the
    kernel's result buffer ends at the last boundary's contents, which are the reference's result term of the
    kernel's arguments; the reference's arguments are the kernel's. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v78),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h3, h4, h5, h6, h7, h8, h9⟩ := Cert.Finite.real_of_pre _ _ _ _ _ _ _ _ _ _ _ _ _ _ _ _ (hpre c)
  rw [Cert.ReferenceIdeal.Read.val_main_v118_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  exact (Cert.KernelIdeal.Bridge.result_eq m ρ c h3 h4 h5 h6 h7 h8 h9).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
